-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S50000x512 .f32) (main_arg1 : FVec F S512x512 .f32) (main_arg2 : FVec F S512 .f32) (main_arg3 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S50000x512 : Shape := ⟨2, ![50000, 512]⟩
abbrev S512x512 : Shape := ⟨2, ![512, 512]⟩
abbrev S512 : Shape := ⟨1, ![512]⟩
abbrev S2x1x512 : Shape := ⟨3, ![2, 1, 512]⟩
abbrev S5000x512 : Shape := ⟨2, ![5000, 512]⟩
abbrev S1x1x512 : Shape := ⟨3, ![1, 1, 512]⟩
abbrev S1x512 : Shape := ⟨2, ![1, 512]⟩
abbrev S512x32 : Shape := ⟨2, ![512, 32]⟩
abbrev S1x32 : Shape := ⟨2, ![1, 32]⟩
abbrev S32x512 : Shape := ⟨2, ![32, 512]⟩

abbrev nBuf : Space → Nat
  | .hbm => 10
  | .vmem => 19
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S50000x512, .bf16⟩
  | .hbm, ⟨5, _⟩ => ⟨S2x1x512, .f32⟩
  | .hbm, ⟨6, _⟩ => ⟨S2x1x512, .f32⟩
  | .hbm, ⟨7, _⟩ => ⟨S1x512, .f32⟩
  | .hbm, ⟨8, _⟩ => ⟨S1x512, .f32⟩
  | .hbm, ⟨9, _⟩ => ⟨S50000x512, .f32⟩
  | .local _ .vmem, ⟨0, _⟩ => ⟨S5000x512, .f32⟩
  | .local _ .vmem, ⟨1, _⟩ => ⟨S5000x512, .f32⟩
  | .local _ .vmem, ⟨2, _⟩ => ⟨S512x512, .f32⟩
  | .local _ .vmem, ⟨3, _⟩ => ⟨S5000x512, .bf16⟩
  | .local _ .vmem, ⟨4, _⟩ => ⟨S5000x512, .bf16⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S5000x512, .bf16⟩
  | .local _ .vmem, ⟨10, _⟩ => ⟨S5000x512, .bf16⟩
  | .local _ .vmem, ⟨11, _⟩ => ⟨S2x1x512, .f32⟩
  | .local _ .vmem, ⟨12, _⟩ => ⟨S2x1x512, .f32⟩
  | .local _ .vmem, ⟨13, _⟩ => ⟨S1x512, .f32⟩
  | .local _ .vmem, ⟨14, _⟩ => ⟨S1x512, .f32⟩
  | .local _ .vmem, ⟨15, _⟩ => ⟨S5000x512, .f32⟩
  | .local _ .vmem, ⟨16, _⟩ => ⟨S5000x512, .f32⟩
  | .local _ .vmem, ⟨17, _⟩ => ⟨S1x512, .f32⟩
  | .local _ .vmem, ⟨18, _⟩ => ⟨S1x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S5000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1x512_S1x1x512_0_0_0 : ∀ a, (![0, 0, 0] : Fin 3 → Nat) a + S1x1x512.size a ≤ S1x1x512.size a
  h_S1x1x512 : 0 < S1x1x512.numel
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S1x1x512_S1x1x512 : S1x1x512.ShapeCasts S1x1x512
  reduces_S5000x512_S512 : S5000x512.Reduces [0] S512
  shapeCasts_S512_S1x512 : S512.ShapeCasts S1x512
  shapeCasts_S1x512_S1x1x512 : S1x512.ShapeCasts S1x1x512
  packedbf16_S5000x512_S5000x512_0_0 : (Rect.unit (s := S5000x512) ![0, 0] S5000x512.size inb_S5000x512_S5000x512_0_0).PackedRows (EltTy.packing .bf16)
  iota_S512x32_d0_w32 : S512x32.Iotas .tc 32 [0]
  iota_S512x32_d1_w32 : S512x32.Iotas .tc 32 [1]
  natLt_1_32 : 1 < 32
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  reduces_S2x1x512_S1x512 : S2x1x512.Reduces [0] S1x512
  transposes_S512x32_p1_0_S32x512 : S512x32.Transposes [1, 0] S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S5000x512_S5000x512 : S5000x512.ShapeCasts S5000x512
  broadcasts_S1x512_S5000x512 : S1x512.Broadcasts S5000x512
  dot_S5000x512_S512x512_S5000x512_1_1_0_0_n_n_wf : DotDims.WF S5000x512 S512x512 S5000x512 [1] [1] [0] [0] [] []
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S50000x512.size a
  hwx0_2 : ∀ i : grid0.Coords, EltTy.bits .bf16 = 32 ∨ (Rect.block (s := S50000x512) S5000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .bf16 = 32 ∨ (Rect.block (s := S50000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x512.size a ≤ S2x1x512.size a
  hwx1_1 : ∀ i : grid1.Coords, EltTy.bits .f32 = 32 ∨ (Rect.block (s := S2x1x512) S2x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x512.size a ≤ S2x1x512.size a
  hwx1_2 : ∀ i : grid1.Coords, EltTy.bits .f32 = 32 ∨ (Rect.block (s := S2x1x512) S2x1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x512.size a ≤ S50000x512.size a
  hwx1_5 : ∀ i : grid1.Coords, EltTy.bits .f32 = 32 ∨ (Rect.block (s := S50000x512) S5000x512.size (cc1_transform_5 i) (hinb1_5 i)).WholeWords (EltTy.packing .f32)

variable [Facts₀]

def dot_S5000x512_S512x512_S5000x512_1_1_0_0_n_n : DotDims S5000x512 S512x512 S5000x512 where
  lhsContracting := [1]
  rhsContracting := [1]
  lhsNonContracting := [0]
  rhsNonContracting := [0]
  lhsBatch := []
  rhsBatch := []
  wf := dot_S5000x512_S512x512_S5000x512_1_1_0_0_n_n_wf
def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S5000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2x1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S2x1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S5000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S_ : Shape := ⟨0, ![]⟩
abbrev S50176x512 : Shape := ⟨2, ![50176, 512]⟩
abbrev S1x512 : Shape := ⟨2, ![1, 512]⟩
abbrev S1024x512 : Shape := ⟨2, ![1024, 512]⟩
abbrev S32x16 : Shape := ⟨2, ![32, 16]⟩
abbrev S32 : Shape := ⟨1, ![32]⟩

abbrev nBuf : Space → Nat
  | .hbm => 43
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S50176x512, .f32⟩
  | .hbm, ⟨7, _⟩ => ⟨S512x512, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x16, .f32⟩
  | .hbm, ⟨14, _⟩ => ⟨S_, .f32⟩
  | .hbm, ⟨15, _⟩ => ⟨S32, .f32⟩
  | .hbm, ⟨16, _⟩ => ⟨S32x16, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32x16, .f32⟩
  | .hbm, ⟨33, _⟩ => ⟨S512, .f32⟩
  | .hbm, ⟨34, _⟩ => ⟨S512, .f32⟩
  | .hbm, ⟨35, _⟩ => ⟨S32x16, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S1x512, .f32⟩
  | .hbm, ⟨41, _⟩ => ⟨S50176x512, .f32⟩
  | .hbm, ⟨42, _⟩ => ⟨S50000x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S50000x512_S50176x512_01760_000 : S50000x512.Pads (![0, 0] : Fin 2 → Nat) ![176, 0] ![0, 0] S50176x512
  h_S_ : 0 < S_.numel
  transposes_S512x512_S512x512_1_0 : S512x512.Transposes [1, 0] S512x512
  inb_S1x512_S1x512_0_0 : ∀ a, (![0, 0] : Fin 2 → Nat) a + S1x512.size a ≤ S1x512.size a
  h_S1x512 : 0 < S1x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  reduces_S1024x512_S512 : S1024x512.Reduces [0] S512
  shapeCasts_S512_S1x512 : S512.ShapeCasts S1x512
  shapeCasts_S1x512_S32x16 : S1x512.ShapeCasts S32x16
  reducesTo_S32x16_S32_d1 : S32x16.ReducesTo [1] S32
  bcast_S_S32 : S_.BroadcastsInDim S32 (![] : Fin 0 → Fin S32.rank)
  bcast_S32_S32x16_0 : S32.BroadcastsInDim S32x16 (![0] : Fin 1 → Fin S32x16.rank)
  shapeCasts_S32x16_S512 : S32x16.ShapeCasts S512
  broadcasts_S1x512_S1024x512 : S1x512.Broadcasts S1024x512
  slices_S50176x512_S50000x512_0_0 : S50176x512.Slices ![0, 0] S50000x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S50176x512.size a
  hwx0_0 : ∀ i : grid0.Coords, EltTy.bits .f32 = 32 ∨ (Rect.block (s := S50176x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S50176x512.size a
  hwx1_0 : ∀ i : grid1.Coords, EltTy.bits .f32 = 32 ∨ (Rect.block (s := S50176x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S50176x512.size a
  hwx1_4 : ∀ i : grid1.Coords, EltTy.bits .f32 = 32 ∨ (Rect.block (s := S50176x512) S1024x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.K.Reg0.lean ====
import proofs.«172976_g2000506936419697_pallasbulk_901_21_alg».proof.Proof.Gen.Kernel.Launch
import proofs.«172976_g2000506936419697_pallasbulk_901_21_alg».proof.Proof.Gen.Kernel.Skeleton
import proofs.«172976_g2000506936419697_pallasbulk_901_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! The frame half of region 0 (the matmul-and-statistics kernel on its 2 × 5 grid), at any float model:
    what each window's staging buffer holds before and after the body at every grid point, and the body's
    triple at a generic point. The column sums and sums of squares are accumulated over the five points of
    one row of the grid (second coordinate 0 resets them), the product block is stored whole at every point. -/

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the weights, one block for the whole grid). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional: the second grid coordinate is 0. -/
abbrev cond0_0 (i : grid0.Coords) : Prop := (Scalar.cmpi .ne (Scalar.extui (Scalar.cmpi .eq (BitVec.ofNat 32 (i 1).val) 0#32)) 0#32) = 1#1
/-- It holds at the first point of each row of the grid, decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The kernel body on any staging memrefs -/

/-- One staging buffer of each output window, through which its contents are stated (the choice does not matter). -/
abbrev VO0_2 : View sig .tc .vmem S5000x512 .bf16 := (Memref.whole cc0_stg2_0 : Memref sig .tc .vmem S5000x512 .bf16).view
abbrev VO0_3 : View sig .tc .vmem S1x1x512 .f32 := (Memref.whole cc0_stg3_0 : Memref sig .tc .vmem S1x1x512 .f32).view
abbrev VO0_4 : View sig .tc .vmem S1x1x512 .f32 := (Memref.whole cc0_stg4_0 : Memref sig .tc .vmem S1x1x512 .f32).view
/-- Each window's current staging memref at point `t`, and its wholeness. -/
abbrev ms0_0 (t : Fin cfg0.N) : Memref sig .tc .vmem S5000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)

set_option maxHeartbeats 1000000 in
/-- What the body's stores leave in each output's staging memref, as pieces (last first), when the second grid
    coordinate is 0: the two accumulators are first stored zeros, then read back and added to; the product is
    stored whole. The outputs enter at anything. -/
noncomputable def kernelRun0_A (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    Σ' (L2 : List (View.Piece (Elt F) S5000x512 .bf16)) (L3 : List (View.Piece (Elt F) S1x1x512 .f32)), { L4 : List (View.Piece (Elt F) S1x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__matmul_stats_kernel i arg2 harg2 arg3 harg3 arg4 harg4 arg5 harg5 arg6 harg6) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case A's pieces for output 2 tile its block, so they cover it. -/
theorem cover0_A_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S5000x512.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S5000x512.size (by sl_kernel_rfl) y

/-- What case A leaves in output 2's staging buffer: its pieces read back over junk. -/
def out0_A_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S5000x512 .bf16 :=
  VO0_2.read (Elt F) (VO0_2.writes (Elt F) VO0_2.junk (kernelRun0_A c i arg2 harg2 arg3 harg3 arg4 harg4 arg5 harg5 arg6 harg6 hc0 x0 x1).1)

/-- Case A's pieces for output 3 tile its block, so they cover it. -/
theorem cover0_A_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S1x1x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1x512.size (by sl_kernel_rfl) y

/-- What case A leaves in output 3's staging buffer: its pieces read back over junk. -/
def out0_A_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S1x1x512 .f32 :=
  VO0_3.read (Elt F) (VO0_3.writes (Elt F) VO0_3.junk (kernelRun0_A c i arg2 harg2 arg3 harg3 arg4 harg4 arg5 harg5 arg6 harg6 hc0 x0 x1).2.1)

/-- Case A's pieces for output 4 tile its block, so they cover it. -/
theorem cover0_A_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S1x1x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x512.size (by sl_kernel_rfl) y

/-- What case A leaves in output 4's staging buffer: its pieces read back over junk. -/
def out0_A_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S1x1x512 .f32 :=
  VO0_4.read (Elt F) (VO0_4.writes (Elt F) VO0_4.junk (kernelRun0_A c i arg2 harg2 arg3 harg3 arg4 harg4 arg5 harg5 arg6 harg6 hc0 x0 x1).2.2.1)

set_option maxHeartbeats 1000000 in
/-- The same when the second grid coordinate is not 0: the accumulators enter at their running contents
    `xo3`, `xo4` and are added to; the product's buffer enters at anything and is stored whole. -/
noncomputable def kernelRun0_B (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    Σ' (L2 : List (View.Piece (Elt F) S5000x512 .bf16)) (L3 : List (View.Piece (Elt F) S1x1x512 .f32)), { L4 : List (View.Piece (Elt F) S1x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__matmul_stats_kernel i arg2 harg2 arg3 harg3 arg4 harg4 arg5 harg5 arg6 harg6) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg2.eq_unread hf0; obtain rfl := harg3.eq_unread hf1; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case B's pieces for output 2 tile its block, so they cover it. -/
theorem cover0_B_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S5000x512.Idx) :
    ∃ pc ∈ (kernelRun0_B c i arg2 harg2 arg3 harg3 arg4 harg4 arg5 harg5 arg6 harg6 hc0 x0 x1 xo3 xo4).1, y ∈ pc.1.set :=
  View.cover_of_tiledL (kernelRun0_B c i arg2 harg2 arg3 harg3 arg4 harg4 arg5 harg5 arg6 harg6 hc0 x0 x1 xo3 xo4).1 S5000x512.size (by sl_kernel_rfl) y

/-- What case B leaves in output 2's staging buffer: its pieces read back over junk. -/
def out0_B_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S5000x512 .bf16 :=
  VO0_2.read (Elt F) (VO0_2.writes (Elt F) VO0_2.junk (kernelRun0_B c i arg2 harg2 arg3 harg3 arg4 harg4 arg5 harg5 arg6 harg6 hc0 x0 x1 xo3 xo4).1)

/-- Case B's pieces for output 3 tile its block, so they cover it. -/
theorem cover0_B_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S1x1x512.Idx) :
    ∃ pc ∈ (kernelRun0_B c i arg2 harg2 arg3 harg3 arg4 harg4 arg5 harg5 arg6 harg6 hc0 x0 x1 xo3 xo4).2.1, y ∈ pc.1.set :=
  View.cover_of_tiledL (kernelRun0_B c i arg2 harg2 arg3 harg3 arg4 harg4 arg5 harg5 arg6 harg6 hc0 x0 x1 xo3 xo4).2.1 S1x1x512.size (by sl_kernel_rfl) y

/-- What case B leaves in output 3's staging buffer: its pieces read back over junk. -/
def out0_B_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S1x1x512 .f32 :=
  VO0_3.read (Elt F) (VO0_3.writes (Elt F) VO0_3.junk (kernelRun0_B c i arg2 harg2 arg3 harg3 arg4 harg4 arg5 harg5 arg6 harg6 hc0 x0 x1 xo3 xo4).2.1)

/-- Case B's pieces for output 4 tile its block, so they cover it. -/
theorem cover0_B_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S1x1x512.Idx) :
    ∃ pc ∈ (kernelRun0_B c i arg2 harg2 arg3 harg3 arg4 harg4 arg5 harg5 arg6 harg6 hc0 x0 x1 xo3 xo4).2.2.1, y ∈ pc.1.set :=
  View.cover_of_tiledL (kernelRun0_B c i arg2 harg2 arg3 harg3 arg4 harg4 arg5 harg5 arg6 harg6 hc0 x0 x1 xo3 xo4).2.2.1 S1x1x512.size (by sl_kernel_rfl) y

/-- What case B leaves in output 4's staging buffer: its pieces read back over junk. -/
def out0_B_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S1x1x512 .f32 :=
  VO0_4.read (Elt F) (VO0_4.writes (Elt F) VO0_4.junk (kernelRun0_B c i arg2 harg2 arg3 harg3 arg4 harg4 arg5 harg5 arg6 harg6 hc0 x0 x1 xo3 xo4).2.2.1)

/-! ## What the outputs hold after each point -/

/-- The accumulation. What the three outputs' staging buffers hold after the body at position `n` (product,
    column sums, column sums of squares): the case the closed form selects at `n`, run at the point's memrefs and
    input blocks, the accumulators in the second case at what this leaves at `n - 1`. -/
def outsAt0 (c : Dev nD) : (n : ℕ) → n < cfg0.N → Vec F S5000x512 .bf16 × Vec F S1x1x512 .f32 × Vec F S1x1x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 5 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point whose second coordinate is 0. -/
theorem outsAt0_A (c : Dev nD) (t : Fin cfg0.N) (h0 : t.val % 5 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- `outsAt0` at a point whose second coordinate is not 0: over what the point before left. -/
theorem outsAt0_B (c : Dev nD) (t : Fin cfg0.N) (h0 : ¬t.val % 5 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point whose second coordinate is not 0 the column sums' current staging buffer holds what the body left
    at the point before: the two points are in one row of the grid, and the buffer is written back only after the
    row's last point. -/
theorem before0_3_B (c : Dev nD) (t : Fin cfg0.N) (h0 : ¬t.val % 5 = 0) (d) :
    (dat0 V c).before 3 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 3 rfl t (by omega) (Bool.eq_false_iff.mpr fun h => by have := (flush0_3 _).mp h; dsimp only at this; omega)
    (fun _ => rfl) (fun _ _ => rfl)]
  dsimp only [dat0]
/-- The same for the column sums of squares. -/
theorem before0_4_B (c : Dev nD) (t : Fin cfg0.N) (h0 : ¬t.val % 5 = 0) (d) :
    (dat0 V c).before 4 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is
    in; in the second case the accumulators hold what the point before left; so the run applies; the invariant
    passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 10 := lt_of_lt_of_eq t.isLt (show cfg0.N = 10 from N_0)
  by_cases h0 : t.val % 5 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_3_B V c t h0, before0_4_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs in payload form -/

/-- The zero offsets of a whole-block access, in two and in three axes. -/
theorem hz2 : (![0, 0] : Fin 2 → ℕ) = fun _ => 0 := by funext a; fin_cases a <;> rfl
theorem hz3 : (![0, 0, 0] : Fin 3 → ℕ) = fun _ => 0 := by funext a; fin_cases a <;> rfl

/-- The product block a point leaves: one whole-block store of the rounded product of the two input blocks. -/
theorem out0_A_2_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_2 c i arg2 harg2 arg3 harg3 arg4 harg4 arg5 harg5 arg6 harg6 hc0 x0 x1 = k0_pay6 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S5000x512) hz2, View.ld_unit_zero (S := S512x512) hz2, View.ld_unit_zero (S := S1x1x512) hz3]

/-- The column sums at the first point of a row: the block's column sums added to the zeros just stored (the read-back of the store of zeros is those zeros). -/
theorem out0_A_3_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_3 c i arg2 harg2 arg3 harg3 arg4 harg4 arg5 harg5 arg6 harg6 hc0 x0 x1 = k0_pay4 x0 x1 (k0_pay1 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero hz3, View.readCov_unit_zero _ hz3]
  simp only [View.readAt_eq_ld, harg2.read_unread, harg3.read_unread, View.ld_unit_zero (S := S5000x512) hz2, View.ld_unit_zero (S := S512x512) hz2, View.ld_unit_zero (S := S1x1x512) hz3]

/-- The column sums of squares at the first point of a row, likewise. -/
theorem out0_A_4_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_4 c i arg2 harg2 arg3 harg3 arg4 harg4 arg5 harg5 arg6 harg6 hc0 x0 x1 = k0_pay5 x0 x1 (k0_pay2 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero hz3, View.readCov_unit_zero _ hz3]
  simp only [View.readAt_eq_ld, harg2.read_unread, harg3.read_unread, View.ld_unit_zero (S := S5000x512) hz2, View.ld_unit_zero (S := S512x512) hz2, View.ld_unit_zero (S := S1x1x512) hz3]

/-- The product block at a later point of a row: as at the first. -/
theorem out0_B_2_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_2 c i arg2 harg2 arg3 harg3 arg4 harg4 arg5 harg5 arg6 harg6 hc0 x0 x1 xo3 xo4 = k0_pay6 x0 x1 := by
  unfold out0_B_2
  rw [View.read_writes_eq_canon _ _ _ (cover0_B_2 c i arg2 harg2 arg3 harg3 arg4 harg4 arg5 harg5 arg6 harg6 hc0 x0 x1 xo3 xo4)]
  unfold kernelRun0_B
  dsimp only
  sl_unfold_words
  rw [View.canon_unit_zero hz2]
  simp only [View.readAt_eq_ld, harg2.read_unread, harg3.read_unread, View.ld_unit_zero (S := S5000x512) hz2, View.ld_unit_zero (S := S512x512) hz2, View.ld_unit_zero (S := S1x1x512) hz3]

/-- The column sums at a later point of a row: the block's column sums added to the running sums. -/
theorem out0_B_3_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_3 c i arg2 harg2 arg3 harg3 arg4 harg4 arg5 harg5 arg6 harg6 hc0 x0 x1 xo3 xo4 = k0_pay4 x0 x1 xo3 := by
  unfold out0_B_3
  rw [View.read_writes_eq_canon _ _ _ (cover0_B_3 c i arg2 harg2 arg3 harg3 arg4 harg4 arg5 harg5 arg6 harg6 hc0 x0 x1 xo3 xo4)]
  unfold kernelRun0_B
  dsimp only
  sl_unfold_words
  rw [View.canon_unit_zero hz3]
  simp only [View.readAt_eq_ld, harg2.read_unread, harg3.read_unread, harg5.read_unread, View.ld_unit_zero (S := S5000x512) hz2, View.ld_unit_zero (S := S512x512) hz2, View.ld_unit_zero (S := S1x1x512) hz3]

/-- The column sums of squares at a later point of a row, likewise. -/
theorem out0_B_4_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_4 c i arg2 harg2 arg3 harg3 arg4 harg4 arg5 harg5 arg6 harg6 hc0 x0 x1 xo3 xo4 = k0_pay5 x0 x1 xo4 := by
  unfold out0_B_4
  rw [View.read_writes_eq_canon _ _ _ (cover0_B_4 c i arg2 harg2 arg3 harg3 arg4 harg4 arg5 harg5 arg6 harg6 hc0 x0 x1 xo3 xo4)]
  unfold kernelRun0_B
  dsimp only
  sl_unfold_words
  rw [View.canon_unit_zero hz3]
  simp only [View.readAt_eq_ld, harg2.read_unread, harg3.read_unread, harg6.read_unread, View.ld_unit_zero (S := S5000x512) hz2, View.ld_unit_zero (S := S512x512) hz2, View.ld_unit_zero (S := S1x1x512) hz3]

/-- The outputs after a point whose second coordinate is 0, as payloads of the point's input blocks: the
    accumulators restart from zeros. -/
theorem outsAt0_A_pay (c : Dev nD) (t : Fin cfg0.N) (h0 : t.val % 5 = 0) :
    outsAt0 V c t.val t.isLt = (k0_pay6 (iblk0 V c 0 t) (iblk0 V c 1 t), k0_pay4 (iblk0 V c 0 t) (iblk0 V c 1 t) (k0_pay1 (F := F)), k0_pay5 (iblk0 V c 0 t) (iblk0 V c 1 t) (k0_pay2 (F := F))) := by
  rw [outsAt0_A V c t h0]
  exact congrArg₂ Prod.mk
    (out0_A_2_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))
    (congrArg₂ Prod.mk
      (out0_A_3_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))
      (out0_A_4_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)))

/-- The outputs after a point whose second coordinate is not 0: the accumulators continue from what the point
    before left. -/
theorem outsAt0_B_pay (c : Dev nD) (t : Fin cfg0.N) (h0 : ¬ t.val % 5 = 0) :
    outsAt0 V c t.val t.isLt = (k0_pay6 (iblk0 V c 0 t) (iblk0 V c 1 t), k0_pay4 (iblk0 V c 0 t) (iblk0 V c 1 t) (outsAt0 V c (t.val - 1) (Nat.lt_of_le_of_lt (Nat.sub_le _ _) t.isLt)).2.1, k0_pay5 (iblk0 V c 0 t) (iblk0 V c 1 t) (outsAt0 V c (t.val - 1) (Nat.lt_of_le_of_lt (Nat.sub_le _ _) t.isLt)).2.2) := by
  rw [outsAt0_B V c t h0]
  exact congrArg₂ Prod.mk
    (out0_B_2_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out0_B_3_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (out0_B_4_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2))

end Region0

end Cert.Kernel.KF

end
-- ==== Proof.K.Reg1.lean ====
import proofs.«172976_g2000506936419697_pallasbulk_901_21_alg».proof.Proof.Gen.Kernel.Launch
import proofs.«172976_g2000506936419697_pallasbulk_901_21_alg».proof.Proof.Gen.Kernel.Skeleton
import proofs.«172976_g2000506936419697_pallasbulk_901_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.WholeRead

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the apply kernel), frame half, at the entry contents `V`

The kernel's body has two cases (its one conditional holds at the points whose second coordinate is zero) and two
scratch buffers that no window stages: the first case computes the per-channel scale and bias from the blocks of
windows 1-4 and stores them there, every point reads them back. Windows 1-4 have constant index maps, so their
blocks are the same at every point and what the scratch buffers hold after any point is ONE closed term
(`scaleOf`, `biasOf`); the region's invariant carries the two buffers at those contents. -/

/-! ## Stores and loads of a whole shape -/

section WholeUnit
variable {sig : RefSig} {κ : Kind} {sp : Space} {s : Shape} {e : EltTy} {Val : EltTy → Type}

/-- A store of the whole shape (a unit-stride rectangle at offsets zero, of the shape's own sizes) hides everything
    stored before it: the buffer then reads the stored value. -/
theorem read_writes_unit_whole (v : View sig κ sp s e) (f : v.ty.Contents Val) {off : Fin s.rank → ℕ}
    (inb : ∀ a, off a + s.size a ≤ s.size a) (w : (Rect.unit off s.size inb).shape.Idx → Val e)
    (L : List (View.Piece Val s e)) (hoff : ∀ a, off a = 0) :
    v.read Val (v.writes Val f ((⟨Rect.unit off s.size inb, w⟩ : View.Piece Val s e) :: L)) = w :=
  funext fun y => View.read_writes_cons_unit_of_mem v f inb w L y y (funext hoff : off = fun _ => 0)
    (fun a => (Nat.zero_add _).symm)

/-- A load of the whole shape after such a store reads the stored value. -/
theorem readCov_unit_whole [∀ e, Nonempty (Val e)] (v : View sig κ sp s e) {off : Fin s.rank → ℕ}
    (inb : ∀ a, off a + s.size a ≤ s.size a) (w : (Rect.unit off s.size inb).shape.Idx → Val e)
    (L : List (View.Piece Val s e)) :
    v.readCov ((⟨Rect.unit off s.size inb, w⟩ : View.Piece Val s e) :: L) (Rect.unit off s.size inb).toLoadRect = w :=
  funext fun x => View.read_writes_cons_unit_of_mem v v.junk inb w L ((Rect.unit off s.size inb).toLoadRect.idx x) x rfl
    (fun a => by show off a + 1 * (x a).val = off a + (x a).val; rw [Nat.one_mul])

/-- A load of the whole shape through a whole memref held at the contents that read `X` reads `X`. -/
theorem readAt_unit_whole_unread {m : Memref sig κ sp s e} (h : m.IsWhole) (X : s.Idx → Val e) {off : Fin s.rank → ℕ}
    (inb : ∀ a, off a + s.size a ≤ s.size a) (hoff : ∀ a, off a = 0) :
    View.readAt Val m.view (Rect.unit off s.size inb).toLoadRect (h.unread X) = X :=
  funext fun x => (h.readAt_unread X _ x).trans (congrArg X (funext fun a => Fin.ext (by
    show off a + 1 * (x a).val = (x a).val
    rw [hoff a, Nat.one_mul, Nat.zero_add])))

end WholeUnit

theorem off2_zero : ∀ a : Fin 2, (![0, 0] : Fin 2 → ℕ) a = 0 := by decide
theorem off3_zero : ∀ a : Fin 3, (![0, 0, 0] : Fin 3 → ℕ) a = 0 := by decide

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the index has not moved; the window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: unfetched, the index has not moved; the window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: unfetched, the index has not moved; the window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: unfetched, the index has not moved; the window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: unfetched, the index has not moved; the window is
    uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first point of the grid. -/
def t0 : Fin cfg1.N := ⟨0, by rw [show cfg1.N = 10 from N_1]; decide⟩

/-- The blocks of windows 1-4 are the same at every point: their index maps are constant. -/
theorem iblk1_1_const (c : Dev nD) (t : Fin cfg1.N) : (iblk1 V c 1 t : Vec F S2x1x512 .f32) = iblk1 V c 1 t0 := rfl
theorem iblk1_2_const (c : Dev nD) (t : Fin cfg1.N) : (iblk1 V c 2 t : Vec F S2x1x512 .f32) = iblk1 V c 2 t0 := rfl
theorem iblk1_3_const (c : Dev nD) (t : Fin cfg1.N) : (iblk1 V c 3 t : Vec F S1x512 .f32) = iblk1 V c 3 t0 := rfl
theorem iblk1_4_const (c : Dev nD) (t : Fin cfg1.N) : (iblk1 V c 4 t : Vec F S1x512 .f32) = iblk1 V c 4 t0 := rfl

/-! ## What the scratch buffers hold after any point -/

/-- The per-channel scale: what the first case stores into the first scratch buffer, from the blocks of windows 1-3. -/
def scaleOf (c : Dev nD) : Vec F S1x512 .f32 :=
  k1_pay1 (k1_pay4 (F := F)) (k1_pay5 (iblk1 V c 1 t0)) (k1_pay6 (iblk1 V c 2 t0)) (iblk1 V c 3 t0)

/-- The per-channel bias: what the first case stores into the second scratch buffer, from the blocks of windows 1
    and 4 and the scale just stored. -/
def biasOf (c : Dev nD) : Vec F S1x512 .f32 :=
  k1_pay2 (k1_pay4 (F := F)) (k1_pay5 (iblk1 V c 1 t0)) (iblk1 V c 4 t0) (scaleOf V c)

/-! ## The body's branch condition -/

/-- The condition of the body's one conditional, from the grid coordinates. -/
abbrev cond1_0 (i : grid1.Coords) : Prop := (Scalar.cmpi .ne (Scalar.extui (Scalar.cmpi .eq (BitVec.ofNat 32 (i 1).val) 0#32)) 0#32) = 1#1
/-- It holds at the points whose position is a multiple of 5 — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The scratch operands: whole scoped buffers of the kernel's own, passed beside the windows. -/
abbrev scM1_0 : Memref sig .tc .vmem S1x512 .f32 := Memref.whole cc1_scratch0
abbrev scM1_1 : Memref sig .tc .vmem S1x512 .f32 := Memref.whole cc1_scratch1

/-! ## The kernel body on any whole memrefs, case by case -/

set_option maxHeartbeats 1000000 in
/-- THE FIRST CASE (the conditional taken). On whole memrefs — the inputs' at contents `x0 … x4`, the output's and the
    two scratch buffers' at anything — the body runs to the continuation holding the inputs' as they were, the first
    scratch buffer at the scale and the second at the bias computed from `x1 … x4`, and the output at the payload of
    `x0` and those two. Each buffer the body stores into is stored whole, and read back whole after. -/
theorem sound_kernel1_A (c : Dev nD) (E : Set ℕ) (i : grid1.Coords) (arg2 : Memref sig .tc .vmem S5000x512 .bf16) (harg2 : arg2.IsWhole) (arg3 : Memref sig .tc .vmem S2x1x512 .f32) (harg3 : arg3.IsWhole) (arg4 : Memref sig .tc .vmem S2x1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5000x512 .f32) (harg7 : arg7.IsWhole) (arg8 : Memref sig .tc .vmem S1x512 .f32) (harg8 : arg8.IsWhole) (arg9 : Memref sig .tc .vmem S1x512 .f32) (harg9 : arg9.IsWhole) (hc0 : cond1_0 i)
    (x0 : Vec F S5000x512 .bf16) (x1 : Vec F S2x1x512 .f32) (x2 : Vec F S2x1x512 .f32) (x3 : Vec F S1x512 .f32) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k1_pay3 x0 (k1_pay1 (k1_pay4 (F := F)) (k1_pay5 x1) (k1_pay6 x2) x3) (k1_pay2 (k1_pay4 (F := F)) (k1_pay5 x1) x4 (k1_pay1 (k1_pay4 (F := F)) (k1_pay5 x1) (k1_pay6 x2) x3)))
            ∗ owns (c : Thread nD τ) arg8 fullShare (k1_pay1 (k1_pay4 (F := F)) (k1_pay5 x1) (k1_pay6 x2) x3)
            ∗ owns (c : Thread nD τ) arg9 fullShare (k1_pay2 (k1_pay4 (F := F)) (k1_pay5 x1) x4 (k1_pay1 (k1_pay4 (F := F)) (k1_pay5 x1) (k1_pay6 x2) x3))) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  rw [cc1__apply_kernel_eq_skeleton]; unfold cc1__apply_kernel_skel
  rw [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    unfold sound_kernel1_A.sl.v9 sound_kernel1_A.sl.H7_1 sound_kernel1_A.sl.v76 sound_kernel1_A.sl.H6_1 sound_kernel1_A.sl.r sound_kernel1_A.sl.r_1
    rw [readAt_unit_whole_unread harg2 x0 _ off2_zero, readAt_unit_whole_unread harg6 x4 _ off2_zero]
    rw [readAt_unit_whole_unread harg3 x1 _ off3_zero, readAt_unit_whole_unread harg4 x2 _ off3_zero, readAt_unit_whole_unread harg5 x3 _ off2_zero]
    rw [readCov_unit_whole, readCov_unit_whole]
    exact read_writes_unit_whole _ _ _ _ _ off2_zero
  isplitl [H6]
  · iexists _; isplitr
    swap; · iexact H6
    ipureintro
    unfold sound_kernel1_A.sl.H6_1 sound_kernel1_A.sl.r sound_kernel1_A.sl.r_1
    rw [readAt_unit_whole_unread harg3 x1 _ off3_zero, readAt_unit_whole_unread harg4 x2 _ off3_zero, readAt_unit_whole_unread harg5 x3 _ off2_zero]
    exact read_writes_unit_whole _ _ _ _ _ off2_zero
  iexists _; isplitr
  swap; · iexact H7
  ipureintro
  unfold sound_kernel1_A.sl.H7_1 sound_kernel1_A.sl.v76 sound_kernel1_A.sl.H6_1 sound_kernel1_A.sl.r sound_kernel1_A.sl.r_1
  rw [readAt_unit_whole_unread harg6 x4 _ off2_zero]
  rw [readAt_unit_whole_unread harg3 x1 _ off3_zero, readAt_unit_whole_unread harg4 x2 _ off3_zero, readAt_unit_whole_unread harg5 x3 _ off2_zero]
  rw [readCov_unit_whole]
  exact read_writes_unit_whole _ _ _ _ _ off2_zero

set_option maxHeartbeats 1000000 in
/-- THE SECOND CASE (the conditional not taken). On whole memrefs — the inputs' at contents `x0 … x4`, the two scratch
    buffers' at `s0`, `s1`, the output's at anything — the body runs to the continuation holding the inputs' and the
    scratch buffers' as they were (they are only read) and the output at the payload of `x0`, `s0` and `s1`. -/
theorem sound_kernel1_B (c : Dev nD) (E : Set ℕ) (i : grid1.Coords) (arg2 : Memref sig .tc .vmem S5000x512 .bf16) (harg2 : arg2.IsWhole) (arg3 : Memref sig .tc .vmem S2x1x512 .f32) (harg3 : arg3.IsWhole) (arg4 : Memref sig .tc .vmem S2x1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5000x512 .f32) (harg7 : arg7.IsWhole) (arg8 : Memref sig .tc .vmem S1x512 .f32) (harg8 : arg8.IsWhole) (arg9 : Memref sig .tc .vmem S1x512 .f32) (harg9 : arg9.IsWhole) (hc0 : ¬cond1_0 i)
    (x0 : Vec F S5000x512 .bf16) (x1 : Vec F S2x1x512 .f32) (x2 : Vec F S2x1x512 .f32) (x3 : Vec F S1x512 .f32) (x4 : Vec F S1x512 .f32)
    (s0 : Vec F S1x512 .f32) (s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k1_pay3 x0 s0 s1) ∗ owns (c : Thread nD τ) arg8 fullShare s0 ∗ owns (c : Thread nD τ) arg9 fullShare s1) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  rw [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [readAt_unit_whole_unread harg2 x0 _ off2_zero, readAt_unit_whole_unread harg8 s0 _ off2_zero, readAt_unit_whole_unread harg9 s1 _ off2_zero]
    exact read_writes_unit_whole _ _ _ _ _ off2_zero
  isplitl [H6]
  · iexists _; isplitr; · ipureintro; exact harg8.read_unread _
    iexact H6
  iexists _; isplitr; · ipureintro; exact harg9.read_unread _
  iexact H7

/-! ## The region's invariant -/

/-- The core's scoped buffers that are neither a staging buffer nor a scratch buffer of this region (the other
    region's staging buffers), each whole at some contents: they pass through the region untouched. -/
def keep1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- What the region is entered with, the two scratch buffers singled out as memrefs owned at some contents. -/
theorem PhiA1_eq (c : Dev nD) :
    (Pipeline.ΦA spec1 c : sProp 𝕄)
      = iprop((keep1 (F := F) c ∗ (∃ d, owns (c : Thread nD τ) scM1_0 fullShare d) ∗ (∃ d, owns (c : Thread nD τ) scM1_1 fullShare d)) ∗ (∃ r, prngReg c r)) := by
  unfold Pipeline.ΦA; rw [scopedRest1_eq]; unfold keep1; simp only [scM1_0, scM1_1, owns_whole]
  refine BI.equiv_iff.mp ⟨?_, ?_⟩
  · show (_ : sProp 𝕄) ⊢ (_ : sProp 𝕄)
    iintro ⟨⟨B1, B2, B3, B4, B5, B6, B7, B8, B9, S0, S1⟩, Hg⟩
    isplitr [Hg]
    swap; · iexact Hg
    isplitr [S0 S1]
    swap
    · isplitl [S0]; · iexact S0
      iexact S1
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  · show (_ : sProp 𝕄) ⊢ (_ : sProp 𝕄)
    iintro ⟨⟨⟨B1, B2, B3, B4, B5, B6, B7, B8, B9⟩, S0, S1⟩, Hg⟩
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [S0]; · iexact S0
    iexact S1

/-- The region's invariant before position `n`: before the first point what the region is entered with (both scratch
    buffers at anything); afterwards the first scratch buffer at the scale and the second at the bias — the first
    point stored them, every later point of the first case stores the same again, the others only read them. -/
def Phi1 (c : Dev nD) : ℕ → sProp 𝕄
  | 0 => Pipeline.ΦA spec1 c
  | _ + 1 => iprop((keep1 (F := F) c ∗ owns (c : Thread nD τ) scM1_0 fullShare (scaleOf V c) ∗ owns (c : Thread nD τ) scM1_1 fullShare (biasOf V c)) ∗ (∃ r, prngReg c r))

theorem Phi1_zero (c : Dev nD) (n : ℕ) (hz : n = 0) : Phi1 V c n = Pipeline.ΦA spec1 c := by
  subst hz; rfl

theorem Phi1_succ (c : Dev nD) (n : ℕ) :
    Phi1 V c (n + 1) = iprop((keep1 (F := F) c ∗ owns (c : Thread nD τ) scM1_0 fullShare (scaleOf V c) ∗ owns (c : Thread nD τ) scM1_1 fullShare (biasOf V c)) ∗ (∃ r, prngReg c r)) := rfl

theorem Phi1_pos (c : Dev nD) (n : ℕ) (hz : n ≠ 0) :
    Phi1 V c n = iprop((keep1 (F := F) c ∗ owns (c : Thread nD τ) scM1_0 fullShare (scaleOf V c) ∗ owns (c : Thread nD τ) scM1_1 fullShare (biasOf V c)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the payload of the point's block of window 0, the scale
    and the bias; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (iblk1 V c 0 t) (scaleOf V c) (biasOf V c)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay3 (iblk1 V c 0 t) (scaleOf V c) (biasOf V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point. The inputs' memrefs hold their blocks, those of windows 1-4 the same at every point. At a
    point of the first case the scratch buffers enter at anything — from what the region is entered with at the first
    point, else by forgetting what they hold — and leave at the scale and the bias; at any other point they enter at the
    scale and the bias (the point is not the first) and leave untouched. Either way the output's buffer is left at
    the payload of the point's block of window 0, the scale and the bias; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) from rfl, Phi1_succ, Phi1_castSucc,
    after1_0, after1_1, after1_2, after1_3, after1_4, after1_5]
  rw [iblk1_1_const V c t, iblk1_2_const V c t, iblk1_3_const V c t, iblk1_4_const V c t]
  unfold biasOf scaleOf
  have hN : t.val < 10 := lt_of_lt_of_eq t.isLt (show cfg1.N = 10 from N_1)
  by_cases h0 : t.val % 5 = 0
  · by_cases hz : t.val = 0
    · rw [Phi1_zero V c _ hz, PhiA1_eq]
      iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ _ _ ((hcond1_0 t).mpr h0) (iblk1 V c 0 t) (iblk1 V c 1 t0) (iblk1 V c 2 t0) (iblk1 V c 3 t0) (iblk1 V c 4 t0) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HB HS0 HS1 Hg]
      · isplitr [Hg]
        swap; · iexact Hg
        isplitl [HB]; · iexact HB
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · rw [Phi1_pos V c _ hz]
      unfold biasOf scaleOf
      iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ _ _ ((hcond1_0 t).mpr h0) (iblk1 V c 0 t) (iblk1 V c 1 t0) (iblk1 V c 2 t0) (iblk1 V c 3 t0) (iblk1 V c 4 t0) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HB HS0 HS1 Hg]
      · isplitr [Hg]
        swap; · iexact Hg
        isplitl [HB]; · iexact HB
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [Phi1_pos V c _ hz]
    unfold biasOf scaleOf
    iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ _ _ _ _ (fun h => h0 ((hcond1_0 t).mp h)) (iblk1 V c 0 t) (iblk1 V c 1 t0) (iblk1 V c 2 t0) (iblk1 V c 3 t0) (iblk1 V c 4 t0) _ _ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HB HS0 HS1 Hg]
    · isplitr [Hg]
      swap; · iexact Hg
      isplitl [HB]; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]
  try exact Idealize.SL.BI.Entails.refl _

/-- After any point but the first the invariant gives back what the region was entered with: the scratch buffers'
    named contents are forgotten. -/
theorem Phi_out1 (c : Dev nD) (t : Fin (cfg1.N + 1)) (ht : t.val ≠ 0) : (dat1 V c).Φ t ⊢ Pipeline.ΦA spec1 c := by
  rw [show (dat1 V c).Φ t = Phi1 V c t.val from rfl, Phi1_pos V c _ ht, PhiA1_eq]
  iintro ⟨⟨HB, HS0, HS1⟩, Hg⟩
  isplitr [Hg]
  swap; · iexact Hg
  isplitl [HB]; · iexact HB
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region1

end Cert.Kernel.KF

end
-- ==== Proof.K.Run.lean ====
/-
  The kernel program's run: the buffer contents at the boundaries of its three segments (the first region, the two
  reshapes of γ and β, the second region), each region as a segment over "every unscoped buffer at the boundary's
  contents", and the launch. The first region's invariant is the scoped rest and the generator register; the
  second region's invariant also carries the two scratch rows (scale and bias) it fills at a core's first point and
  reads at the others. The run's post names the result array at the last boundary and every argument as launched.
-/
import proofs.«172976_g2000506936419697_pallasbulk_901_21_alg».proof.Proof.K.Reg0
import proofs.«172976_g2000506936419697_pallasbulk_901_21_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the two reshapes (the second region's entry). -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- At the second region's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### What the reshapes leave alone -/

theorem B2_main_arg0 (c : Dev nD) : B2 m ρ c (Proc.devRef .tc main_arg0) = B1 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg1 (c : Dev nD) : B2 m ρ c (Proc.devRef .tc main_arg1) = B1 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg2 (c : Dev nD) : B2 m ρ c (Proc.devRef .tc main_arg2) = B1 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg3 (c : Dev nD) : B2 m ρ c (Proc.devRef .tc main_arg3) = B1 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_0 (c : Dev nD) : B2 m ρ c (Proc.devRef .tc main_v0_0) = B1 m ρ c (Proc.devRef .tc main_v0_0) :=
  StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_1 (c : Dev nD) : B2 m ρ c (Proc.devRef .tc main_v0_1) = B1 m ρ c (Proc.devRef .tc main_v0_1) :=
  StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_2 (c : Dev nD) : B2 m ρ c (Proc.devRef .tc main_v0_2) = B1 m ρ c (Proc.devRef .tc main_v0_2) :=
  StableHlo.after_of_forall_not_mem (b := Proc.devRef .tc main_v0_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_main_arg0 m ρ c
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_main_arg1 m ρ c
    _ = B0 m ρ c (Proc.devRef .tc main_arg1) := (B1_arr m ρ c 1).trans (((dat0 (E0 m ρ) c).arrAt_in 1 rfl _).trans (A_eq0 (E0 m ρ) c 1))
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_main_arg2 m ρ c
    _ = B0 m ρ c (Proc.devRef .tc main_arg2) := B1_of_ne m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_main_arg3 m ρ c
    _ = B0 m ρ c (Proc.devRef .tc main_arg3) := B1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at the launch contents, left at `B1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scoped rest and the generator register make the second region's invariant before its first point. -/
theorem hin1' (c : Dev nD) :
    (iprop((∃ r, prngReg c r) ∗ Pipeline.prefHeld (pcfgs (F := F) 1).pre c (fun _ => fullShare) (adm (F := F) 1).1 ∗ Pipeline.scopedRest spec1 c) : sProp 𝕄)
      ⊢ (dat1 (E2 m ρ) c).Φ 0 := by
  have h : (iprop((∃ r, prngReg c r) ∗ Pipeline.prefHeld (pcfgs (F := F) 1).pre c (fun _ => fullShare) (adm (F := F) 1).1 ∗ Pipeline.scopedRest spec1 c) : sProp 𝕄)
      ⊢ (Pipeline.ΦA spec1 c : sProp 𝕄) := by
    unfold Pipeline.ΦA
    iintro ⟨Hp, -, Hr⟩
    isplitl [Hr]; · iexact Hr
    iexact Hp
  exact h.trans (hin1 (E2 m ρ) c)

/-- After its last point the second region's invariant gives the scoped rest and the generator register back. -/
theorem hout1' (c : Dev nD) :
    (dat1 (E2 m ρ) c).Φ (Fin.last cfg1.N) ⊢ (iprop((∃ r, prngReg c r) ∗ emp ∗ Pipeline.scopedRest spec1 c) : sProp 𝕄) := by
  have h : (Pipeline.ΦA spec1 c : sProp 𝕄)
      ⊢ (iprop((∃ r, prngReg c r) ∗ emp ∗ Pipeline.scopedRest spec1 c) : sProp 𝕄) := by
    unfold Pipeline.ΦA
    iintro ⟨Hr, Hp⟩
    isplitl [Hp]; · iexact Hp
    isplitr; · iempintro
    iexact Hr
  exact (hout1 (E2 m ρ) c).trans h

set_option backward.isDefEq.respectTransparency.types false in
/-- The second region: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E2 m ρ) c).Φ 0 from rfl]
    exact hin1' m ρ c
  hout c := by
    rw [Pipeline.ownSems0_none, show (pdats m ρ 1 c).Φ (Fin.last _) = (dat1 (E2 m ρ) c).Φ (Fin.last cfg1.N) from rfl]
    exact hout1' m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the kernel program terminates without a fault; the result buffer ends at the last
    boundary's contents and every argument as launched. -/
theorem run : θ_run defs (onTc (τ := τ) (main (F := F))) ⟨m, fun _ => 0, ρ⟩ (fun r => ∀ c : Dev nD,
      r.2.mem ((c.tc : Thread nD τ).loc main_v3) = B3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨h c _ (mem_uc main_v3 (by decide)),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c),
       (h c _ (mem_uc main_arg3 (by decide))).trans (B3_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.KF

end
-- ==== Proof.KI.Reg0.lean ====
import proofs.«172976_g2000506936419697_pallasbulk_901_21_alg».proof.Proof.Gen.KernelIdeal.Launch
import proofs.«172976_g2000506936419697_pallasbulk_901_21_alg».proof.Proof.Gen.KernelIdeal.Skeleton
import proofs.«172976_g2000506936419697_pallasbulk_901_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! The frame half of region 0 (the matmul-and-statistics kernel on its 2 × 5 grid), at any float model:
    what each window's staging buffer holds before and after the body at every grid point, and the body's
    triple at a generic point. The column sums and sums of squares are accumulated over the five points of
    one row of the grid (second coordinate 0 resets them), the product block is stored whole at every point. -/

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the weights, one block for the whole grid). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional: the second grid coordinate is 0. -/
abbrev cond0_0 (i : grid0.Coords) : Prop := (Scalar.cmpi .ne (Scalar.extui (Scalar.cmpi .eq (BitVec.ofNat 32 (i 1).val) 0#32)) 0#32) = 1#1
/-- It holds at the first point of each row of the grid, decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The kernel body on any staging memrefs -/

/-- One staging buffer of each output window, through which its contents are stated (the choice does not matter). -/
abbrev VO0_2 : View sig .tc .vmem S5000x512 .bf16 := (Memref.whole cc0_stg2_0 : Memref sig .tc .vmem S5000x512 .bf16).view
abbrev VO0_3 : View sig .tc .vmem S1x1x512 .f32 := (Memref.whole cc0_stg3_0 : Memref sig .tc .vmem S1x1x512 .f32).view
abbrev VO0_4 : View sig .tc .vmem S1x1x512 .f32 := (Memref.whole cc0_stg4_0 : Memref sig .tc .vmem S1x1x512 .f32).view
/-- Each window's current staging memref at point `t`, and its wholeness. -/
abbrev ms0_0 (t : Fin cfg0.N) : Memref sig .tc .vmem S5000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)

set_option maxHeartbeats 1000000 in
/-- What the body's stores leave in each output's staging memref, as pieces (last first), when the second grid
    coordinate is 0: the two accumulators are first stored zeros, then read back and added to; the product is
    stored whole. The outputs enter at anything. -/
noncomputable def kernelRun0_A (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    Σ' (L2 : List (View.Piece (Elt F) S5000x512 .bf16)) (L3 : List (View.Piece (Elt F) S1x1x512 .f32)), { L4 : List (View.Piece (Elt F) S1x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__matmul_stats_kernel i arg2 harg2 arg3 harg3 arg4 harg4 arg5 harg5 arg6 harg6) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case A's pieces for output 2 tile its block, so they cover it. -/
theorem cover0_A_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S5000x512.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S5000x512.size (by sl_kernel_rfl) y

/-- What case A leaves in output 2's staging buffer: its pieces read back over junk. -/
def out0_A_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S5000x512 .bf16 :=
  VO0_2.read (Elt F) (VO0_2.writes (Elt F) VO0_2.junk (kernelRun0_A c i arg2 harg2 arg3 harg3 arg4 harg4 arg5 harg5 arg6 harg6 hc0 x0 x1).1)

/-- Case A's pieces for output 3 tile its block, so they cover it. -/
theorem cover0_A_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S1x1x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x1x512.size (by sl_kernel_rfl) y

/-- What case A leaves in output 3's staging buffer: its pieces read back over junk. -/
def out0_A_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S1x1x512 .f32 :=
  VO0_3.read (Elt F) (VO0_3.writes (Elt F) VO0_3.junk (kernelRun0_A c i arg2 harg2 arg3 harg3 arg4 harg4 arg5 harg5 arg6 harg6 hc0 x0 x1).2.1)

/-- Case A's pieces for output 4 tile its block, so they cover it. -/
theorem cover0_A_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) (y : S1x1x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x512.size (by sl_kernel_rfl) y

/-- What case A leaves in output 4's staging buffer: its pieces read back over junk. -/
def out0_A_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) : Vec F S1x1x512 .f32 :=
  VO0_4.read (Elt F) (VO0_4.writes (Elt F) VO0_4.junk (kernelRun0_A c i arg2 harg2 arg3 harg3 arg4 harg4 arg5 harg5 arg6 harg6 hc0 x0 x1).2.2.1)

set_option maxHeartbeats 1000000 in
/-- The same when the second grid coordinate is not 0: the accumulators enter at their running contents
    `xo3`, `xo4` and are added to; the product's buffer enters at anything and is stored whole. -/
noncomputable def kernelRun0_B (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    Σ' (L2 : List (View.Piece (Elt F) S5000x512 .bf16)) (L3 : List (View.Piece (Elt F) S1x1x512 .f32)), { L4 : List (View.Piece (Elt F) S1x1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__matmul_stats_kernel i arg2 harg2 arg3 harg3 arg4 harg4 arg5 harg5 arg6 harg6) K } := by
  refine ⟨?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg2.eq_unread hf0; obtain rfl := harg3.eq_unread hf1; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- Case B's pieces for output 2 tile its block, so they cover it. -/
theorem cover0_B_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S5000x512.Idx) :
    ∃ pc ∈ (kernelRun0_B c i arg2 harg2 arg3 harg3 arg4 harg4 arg5 harg5 arg6 harg6 hc0 x0 x1 xo3 xo4).1, y ∈ pc.1.set :=
  View.cover_of_tiledL (kernelRun0_B c i arg2 harg2 arg3 harg3 arg4 harg4 arg5 harg5 arg6 harg6 hc0 x0 x1 xo3 xo4).1 S5000x512.size (by sl_kernel_rfl) y

/-- What case B leaves in output 2's staging buffer: its pieces read back over junk. -/
def out0_B_2 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S5000x512 .bf16 :=
  VO0_2.read (Elt F) (VO0_2.writes (Elt F) VO0_2.junk (kernelRun0_B c i arg2 harg2 arg3 harg3 arg4 harg4 arg5 harg5 arg6 harg6 hc0 x0 x1 xo3 xo4).1)

/-- Case B's pieces for output 3 tile its block, so they cover it. -/
theorem cover0_B_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S1x1x512.Idx) :
    ∃ pc ∈ (kernelRun0_B c i arg2 harg2 arg3 harg3 arg4 harg4 arg5 harg5 arg6 harg6 hc0 x0 x1 xo3 xo4).2.1, y ∈ pc.1.set :=
  View.cover_of_tiledL (kernelRun0_B c i arg2 harg2 arg3 harg3 arg4 harg4 arg5 harg5 arg6 harg6 hc0 x0 x1 xo3 xo4).2.1 S1x1x512.size (by sl_kernel_rfl) y

/-- What case B leaves in output 3's staging buffer: its pieces read back over junk. -/
def out0_B_3 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S1x1x512 .f32 :=
  VO0_3.read (Elt F) (VO0_3.writes (Elt F) VO0_3.junk (kernelRun0_B c i arg2 harg2 arg3 harg3 arg4 harg4 arg5 harg5 arg6 harg6 hc0 x0 x1 xo3 xo4).2.1)

/-- Case B's pieces for output 4 tile its block, so they cover it. -/
theorem cover0_B_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) (y : S1x1x512.Idx) :
    ∃ pc ∈ (kernelRun0_B c i arg2 harg2 arg3 harg3 arg4 harg4 arg5 harg5 arg6 harg6 hc0 x0 x1 xo3 xo4).2.2.1, y ∈ pc.1.set :=
  View.cover_of_tiledL (kernelRun0_B c i arg2 harg2 arg3 harg3 arg4 harg4 arg5 harg5 arg6 harg6 hc0 x0 x1 xo3 xo4).2.2.1 S1x1x512.size (by sl_kernel_rfl) y

/-- What case B leaves in output 4's staging buffer: its pieces read back over junk. -/
def out0_B_4 (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) : Vec F S1x1x512 .f32 :=
  VO0_4.read (Elt F) (VO0_4.writes (Elt F) VO0_4.junk (kernelRun0_B c i arg2 harg2 arg3 harg3 arg4 harg4 arg5 harg5 arg6 harg6 hc0 x0 x1 xo3 xo4).2.2.1)

/-! ## What the outputs hold after each point -/

/-- The accumulation. What the three outputs' staging buffers hold after the body at position `n` (product,
    column sums, column sums of squares): the case the closed form selects at `n`, run at the point's memrefs and
    input blocks, the accumulators in the second case at what this leaves at `n - 1`. -/
def outsAt0 (c : Dev nD) : (n : ℕ) → n < cfg0.N → Vec F S5000x512 .bf16 × Vec F S1x1x512 .f32 × Vec F S1x1x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 5 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point whose second coordinate is 0. -/
theorem outsAt0_A (c : Dev nD) (t : Fin cfg0.N) (h0 : t.val % 5 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- `outsAt0` at a point whose second coordinate is not 0: over what the point before left. -/
theorem outsAt0_B (c : Dev nD) (t : Fin cfg0.N) (h0 : ¬t.val % 5 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them; after the body at
    point `t` each input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point whose second coordinate is not 0 the column sums' current staging buffer holds what the body left
    at the point before: the two points are in one row of the grid, and the buffer is written back only after the
    row's last point. -/
theorem before0_3_B (c : Dev nD) (t : Fin cfg0.N) (h0 : ¬t.val % 5 = 0) (d) :
    (dat0 V c).before 3 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 3 rfl t (by omega) (Bool.eq_false_iff.mpr fun h => by have := (flush0_3 _).mp h; dsimp only at this; omega)
    (fun _ => rfl) (fun _ _ => rfl)]
  dsimp only [dat0]
/-- The same for the column sums of squares. -/
theorem before0_4_B (c : Dev nD) (t : Fin cfg0.N) (h0 : ¬t.val % 5 = 0) (d) :
    (dat0 V c).before 4 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form says which case the point is
    in; in the second case the accumulators hold what the point before left; so the run applies; the invariant
    passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 10 := lt_of_lt_of_eq t.isLt (show cfg0.N = 10 from N_0)
  by_cases h0 : t.val % 5 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_3_B V c t h0, before0_4_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs in payload form -/

/-- The zero offsets of a whole-block access, in two and in three axes. -/
theorem hz2 : (![0, 0] : Fin 2 → ℕ) = fun _ => 0 := by funext a; fin_cases a <;> rfl
theorem hz3 : (![0, 0, 0] : Fin 3 → ℕ) = fun _ => 0 := by funext a; fin_cases a <;> rfl

/-- The product block a point leaves: one whole-block store of the rounded product of the two input blocks. -/
theorem out0_A_2_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_2 c i arg2 harg2 arg3 harg3 arg4 harg4 arg5 harg5 arg6 harg6 hc0 x0 x1 = k0_pay6 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S5000x512) hz2, View.ld_unit_zero (S := S512x512) hz2, View.ld_unit_zero (S := S1x1x512) hz3]

/-- The column sums at the first point of a row: the block's column sums added to the zeros just stored (the read-back of the store of zeros is those zeros). -/
theorem out0_A_3_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_3 c i arg2 harg2 arg3 harg3 arg4 harg4 arg5 harg5 arg6 harg6 hc0 x0 x1 = k0_pay4 x0 x1 (k0_pay1 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero hz3, View.readCov_unit_zero _ hz3]
  simp only [View.readAt_eq_ld, harg2.read_unread, harg3.read_unread, View.ld_unit_zero (S := S5000x512) hz2, View.ld_unit_zero (S := S512x512) hz2, View.ld_unit_zero (S := S1x1x512) hz3]

/-- The column sums of squares at the first point of a row, likewise. -/
theorem out0_A_4_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : cond0_0 i)
    (x0 : Vec F S5000x512 .f32) (x1 : Vec F S512x512 .f32) :
    out0_A_4 c i arg2 harg2 arg3 harg3 arg4 harg4 arg5 harg5 arg6 harg6 hc0 x0 x1 = k0_pay5 x0 x1 (k0_pay2 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero hz3, View.readCov_unit_zero _ hz3]
  simp only [View.readAt_eq_ld, harg2.read_unread, harg3.read_unread, View.ld_unit_zero (S := S5000x512) hz2, View.ld_unit_zero (S := S512x512) hz2, View.ld_unit_zero (S := S1x1x512) hz3]

/-- The product block at a later point of a row: as at the first. -/
theorem out0_B_2_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_2 c i arg2 harg2 arg3 harg3 arg4 harg4 arg5 harg5 arg6 harg6 hc0 x0 x1 xo3 xo4 = k0_pay6 x0 x1 := by
  unfold out0_B_2
  rw [View.read_writes_eq_canon _ _ _ (cover0_B_2 c i arg2 harg2 arg3 harg3 arg4 harg4 arg5 harg5 arg6 harg6 hc0 x0 x1 xo3 xo4)]
  unfold kernelRun0_B
  dsimp only
  sl_unfold_words
  rw [View.canon_unit_zero hz2]
  simp only [View.readAt_eq_ld, harg2.read_unread, harg3.read_unread, View.ld_unit_zero (S := S5000x512) hz2, View.ld_unit_zero (S := S512x512) hz2, View.ld_unit_zero (S := S1x1x512) hz3]

/-- The column sums at a later point of a row: the block's column sums added to the running sums. -/
theorem out0_B_3_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_3 c i arg2 harg2 arg3 harg3 arg4 harg4 arg5 harg5 arg6 harg6 hc0 x0 x1 xo3 xo4 = k0_pay4 x0 x1 xo3 := by
  unfold out0_B_3
  rw [View.read_writes_eq_canon _ _ _ (cover0_B_3 c i arg2 harg2 arg3 harg3 arg4 harg4 arg5 harg5 arg6 harg6 hc0 x0 x1 xo3 xo4)]
  unfold kernelRun0_B
  dsimp only
  sl_unfold_words
  rw [View.canon_unit_zero hz3]
  simp only [View.readAt_eq_ld, harg2.read_unread, harg3.read_unread, harg5.read_unread, View.ld_unit_zero (S := S5000x512) hz2, View.ld_unit_zero (S := S512x512) hz2, View.ld_unit_zero (S := S1x1x512) hz3]

/-- The column sums of squares at a later point of a row, likewise. -/
theorem out0_B_4_pay (c : Dev nD) (i : grid0.Coords) (arg2 : Memref sig .tc .vmem S5000x512 .f32) (harg2 : arg2.IsWhole) (arg3 : Memref sig .tc .vmem S512x512 .f32) (harg3 : arg3.IsWhole) (arg4 : Memref sig .tc .vmem S5000x512 .bf16) (harg4 : arg4.IsWhole) (arg5 : Memref sig .tc .vmem S1x1x512 .f32) (harg5 : arg5.IsWhole) (arg6 : Memref sig .tc .vmem S1x1x512 .f32) (harg6 : arg6.IsWhole) (hc0 : ¬cond0_0 i)
    (x0 : Vec F S5000x512 .f32) (x1 : Vec F S512x512 .f32) (xo3 : Vec F S1x1x512 .f32) (xo4 : Vec F S1x1x512 .f32) :
    out0_B_4 c i arg2 harg2 arg3 harg3 arg4 harg4 arg5 harg5 arg6 harg6 hc0 x0 x1 xo3 xo4 = k0_pay5 x0 x1 xo4 := by
  unfold out0_B_4
  rw [View.read_writes_eq_canon _ _ _ (cover0_B_4 c i arg2 harg2 arg3 harg3 arg4 harg4 arg5 harg5 arg6 harg6 hc0 x0 x1 xo3 xo4)]
  unfold kernelRun0_B
  dsimp only
  sl_unfold_words
  rw [View.canon_unit_zero hz3]
  simp only [View.readAt_eq_ld, harg2.read_unread, harg3.read_unread, harg6.read_unread, View.ld_unit_zero (S := S5000x512) hz2, View.ld_unit_zero (S := S512x512) hz2, View.ld_unit_zero (S := S1x1x512) hz3]

/-- The outputs after a point whose second coordinate is 0, as payloads of the point's input blocks: the
    accumulators restart from zeros. -/
theorem outsAt0_A_pay (c : Dev nD) (t : Fin cfg0.N) (h0 : t.val % 5 = 0) :
    outsAt0 V c t.val t.isLt = (k0_pay6 (iblk0 V c 0 t) (iblk0 V c 1 t), k0_pay4 (iblk0 V c 0 t) (iblk0 V c 1 t) (k0_pay1 (F := F)), k0_pay5 (iblk0 V c 0 t) (iblk0 V c 1 t) (k0_pay2 (F := F))) := by
  rw [outsAt0_A V c t h0]
  exact congrArg₂ Prod.mk
    (out0_A_2_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))
    (congrArg₂ Prod.mk
      (out0_A_3_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))
      (out0_A_4_pay c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)))

/-- The outputs after a point whose second coordinate is not 0: the accumulators continue from what the point
    before left. -/
theorem outsAt0_B_pay (c : Dev nD) (t : Fin cfg0.N) (h0 : ¬ t.val % 5 = 0) :
    outsAt0 V c t.val t.isLt = (k0_pay6 (iblk0 V c 0 t) (iblk0 V c 1 t), k0_pay4 (iblk0 V c 0 t) (iblk0 V c 1 t) (outsAt0 V c (t.val - 1) (Nat.lt_of_le_of_lt (Nat.sub_le _ _) t.isLt)).2.1, k0_pay5 (iblk0 V c 0 t) (iblk0 V c 1 t) (outsAt0 V c (t.val - 1) (Nat.lt_of_le_of_lt (Nat.sub_le _ _) t.isLt)).2.2) := by
  rw [outsAt0_B V c t h0]
  exact congrArg₂ Prod.mk
    (out0_B_2_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out0_B_3_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (out0_B_4_pay c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2))

end Region0

end Cert.KernelIdeal.KF

end
-- ==== Proof.KI.Reg1.lean ====
import proofs.«172976_g2000506936419697_pallasbulk_901_21_alg».proof.Proof.Gen.KernelIdeal.Launch
import proofs.«172976_g2000506936419697_pallasbulk_901_21_alg».proof.Proof.Gen.KernelIdeal.Skeleton
import proofs.«172976_g2000506936419697_pallasbulk_901_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.WholeRead

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the apply kernel), frame half, at the entry contents `V`

The kernel's body has two cases (its one conditional holds at the points whose second coordinate is zero) and two
scratch buffers that no window stages: the first case computes the per-channel scale and bias from the blocks of
windows 1-4 and stores them there, every point reads them back. Windows 1-4 have constant index maps, so their
blocks are the same at every point and what the scratch buffers hold after any point is ONE closed term
(`scaleOf`, `biasOf`); the region's invariant carries the two buffers at those contents. -/

/-! ## Stores and loads of a whole shape -/

section WholeUnit
variable {sig : RefSig} {κ : Kind} {sp : Space} {s : Shape} {e : EltTy} {Val : EltTy → Type}

/-- A store of the whole shape (a unit-stride rectangle at offsets zero, of the shape's own sizes) hides everything
    stored before it: the buffer then reads the stored value. -/
theorem read_writes_unit_whole (v : View sig κ sp s e) (f : v.ty.Contents Val) {off : Fin s.rank → ℕ}
    (inb : ∀ a, off a + s.size a ≤ s.size a) (w : (Rect.unit off s.size inb).shape.Idx → Val e)
    (L : List (View.Piece Val s e)) (hoff : ∀ a, off a = 0) :
    v.read Val (v.writes Val f ((⟨Rect.unit off s.size inb, w⟩ : View.Piece Val s e) :: L)) = w :=
  funext fun y => View.read_writes_cons_unit_of_mem v f inb w L y y (funext hoff : off = fun _ => 0)
    (fun a => (Nat.zero_add _).symm)

/-- A load of the whole shape after such a store reads the stored value. -/
theorem readCov_unit_whole [∀ e, Nonempty (Val e)] (v : View sig κ sp s e) {off : Fin s.rank → ℕ}
    (inb : ∀ a, off a + s.size a ≤ s.size a) (w : (Rect.unit off s.size inb).shape.Idx → Val e)
    (L : List (View.Piece Val s e)) :
    v.readCov ((⟨Rect.unit off s.size inb, w⟩ : View.Piece Val s e) :: L) (Rect.unit off s.size inb).toLoadRect = w :=
  funext fun x => View.read_writes_cons_unit_of_mem v v.junk inb w L ((Rect.unit off s.size inb).toLoadRect.idx x) x rfl
    (fun a => by show off a + 1 * (x a).val = off a + (x a).val; rw [Nat.one_mul])

/-- A load of the whole shape through a whole memref held at the contents that read `X` reads `X`. -/
theorem readAt_unit_whole_unread {m : Memref sig κ sp s e} (h : m.IsWhole) (X : s.Idx → Val e) {off : Fin s.rank → ℕ}
    (inb : ∀ a, off a + s.size a ≤ s.size a) (hoff : ∀ a, off a = 0) :
    View.readAt Val m.view (Rect.unit off s.size inb).toLoadRect (h.unread X) = X :=
  funext fun x => (h.readAt_unread X _ x).trans (congrArg X (funext fun a => Fin.ext (by
    show off a + 1 * (x a).val = (x a).val
    rw [hoff a, Nat.one_mul, Nat.zero_add])))

end WholeUnit

theorem off2_zero : ∀ a : Fin 2, (![0, 0] : Fin 2 → ℕ) a = 0 := by decide
theorem off3_zero : ∀ a : Fin 3, (![0, 0, 0] : Fin 3 → ℕ) a = 0 := by decide

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the index has not moved; the window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s and whose body leaves the block in place: unfetched, the index has not moved; the window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s and whose body leaves the block in place: unfetched, the index has not moved; the window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s and whose body leaves the block in place: unfetched, the index has not moved; the window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s and whose body leaves the block in place: unfetched, the index has not moved; the window is
    uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first point of the grid. -/
def t0 : Fin cfg1.N := ⟨0, by rw [show cfg1.N = 10 from N_1]; decide⟩

/-- The blocks of windows 1-4 are the same at every point: their index maps are constant. -/
theorem iblk1_1_const (c : Dev nD) (t : Fin cfg1.N) : (iblk1 V c 1 t : Vec F S2x1x512 .f32) = iblk1 V c 1 t0 := rfl
theorem iblk1_2_const (c : Dev nD) (t : Fin cfg1.N) : (iblk1 V c 2 t : Vec F S2x1x512 .f32) = iblk1 V c 2 t0 := rfl
theorem iblk1_3_const (c : Dev nD) (t : Fin cfg1.N) : (iblk1 V c 3 t : Vec F S1x512 .f32) = iblk1 V c 3 t0 := rfl
theorem iblk1_4_const (c : Dev nD) (t : Fin cfg1.N) : (iblk1 V c 4 t : Vec F S1x512 .f32) = iblk1 V c 4 t0 := rfl

/-! ## What the scratch buffers hold after any point -/

/-- The per-channel scale: what the first case stores into the first scratch buffer, from the blocks of windows 1-3. -/
def scaleOf (c : Dev nD) : Vec F S1x512 .f32 :=
  k1_pay1 (k1_pay4 (F := F)) (k1_pay5 (iblk1 V c 1 t0)) (k1_pay6 (iblk1 V c 2 t0)) (iblk1 V c 3 t0)

/-- The per-channel bias: what the first case stores into the second scratch buffer, from the blocks of windows 1
    and 4 and the scale just stored. -/
def biasOf (c : Dev nD) : Vec F S1x512 .f32 :=
  k1_pay2 (k1_pay4 (F := F)) (k1_pay5 (iblk1 V c 1 t0)) (iblk1 V c 4 t0) (scaleOf V c)

/-! ## The body's branch condition -/

/-- The condition of the body's one conditional, from the grid coordinates. -/
abbrev cond1_0 (i : grid1.Coords) : Prop := (Scalar.cmpi .ne (Scalar.extui (Scalar.cmpi .eq (BitVec.ofNat 32 (i 1).val) 0#32)) 0#32) = 1#1
/-- It holds at the points whose position is a multiple of 5 — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The scratch operands: whole scoped buffers of the kernel's own, passed beside the windows. -/
abbrev scM1_0 : Memref sig .tc .vmem S1x512 .f32 := Memref.whole cc1_scratch0
abbrev scM1_1 : Memref sig .tc .vmem S1x512 .f32 := Memref.whole cc1_scratch1

/-! ## The kernel body on any whole memrefs, case by case -/

set_option maxHeartbeats 1000000 in
/-- THE FIRST CASE (the conditional taken). On whole memrefs — the inputs' at contents `x0 … x4`, the output's and the
    two scratch buffers' at anything — the body runs to the continuation holding the inputs' as they were, the first
    scratch buffer at the scale and the second at the bias computed from `x1 … x4`, and the output at the payload of
    `x0` and those two. Each buffer the body stores into is stored whole, and read back whole after. -/
theorem sound_kernel1_A (c : Dev nD) (E : Set ℕ) (i : grid1.Coords) (arg2 : Memref sig .tc .vmem S5000x512 .bf16) (harg2 : arg2.IsWhole) (arg3 : Memref sig .tc .vmem S2x1x512 .f32) (harg3 : arg3.IsWhole) (arg4 : Memref sig .tc .vmem S2x1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5000x512 .f32) (harg7 : arg7.IsWhole) (arg8 : Memref sig .tc .vmem S1x512 .f32) (harg8 : arg8.IsWhole) (arg9 : Memref sig .tc .vmem S1x512 .f32) (harg9 : arg9.IsWhole) (hc0 : cond1_0 i)
    (x0 : Vec F S5000x512 .bf16) (x1 : Vec F S2x1x512 .f32) (x2 : Vec F S2x1x512 .f32) (x3 : Vec F S1x512 .f32) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k1_pay3 x0 (k1_pay1 (k1_pay4 (F := F)) (k1_pay5 x1) (k1_pay6 x2) x3) (k1_pay2 (k1_pay4 (F := F)) (k1_pay5 x1) x4 (k1_pay1 (k1_pay4 (F := F)) (k1_pay5 x1) (k1_pay6 x2) x3)))
            ∗ owns (c : Thread nD τ) arg8 fullShare (k1_pay1 (k1_pay4 (F := F)) (k1_pay5 x1) (k1_pay6 x2) x3)
            ∗ owns (c : Thread nD τ) arg9 fullShare (k1_pay2 (k1_pay4 (F := F)) (k1_pay5 x1) x4 (k1_pay1 (k1_pay4 (F := F)) (k1_pay5 x1) (k1_pay6 x2) x3))) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  rw [cc1__apply_kernel_eq_skeleton]; unfold cc1__apply_kernel_skel
  rw [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    unfold sound_kernel1_A.sl.v9 sound_kernel1_A.sl.H7_1 sound_kernel1_A.sl.v76 sound_kernel1_A.sl.H6_1 sound_kernel1_A.sl.r sound_kernel1_A.sl.r_1
    rw [readAt_unit_whole_unread harg2 x0 _ off2_zero, readAt_unit_whole_unread harg6 x4 _ off2_zero]
    rw [readAt_unit_whole_unread harg3 x1 _ off3_zero, readAt_unit_whole_unread harg4 x2 _ off3_zero, readAt_unit_whole_unread harg5 x3 _ off2_zero]
    rw [readCov_unit_whole, readCov_unit_whole]
    exact read_writes_unit_whole _ _ _ _ _ off2_zero
  isplitl [H6]
  · iexists _; isplitr
    swap; · iexact H6
    ipureintro
    unfold sound_kernel1_A.sl.H6_1 sound_kernel1_A.sl.r sound_kernel1_A.sl.r_1
    rw [readAt_unit_whole_unread harg3 x1 _ off3_zero, readAt_unit_whole_unread harg4 x2 _ off3_zero, readAt_unit_whole_unread harg5 x3 _ off2_zero]
    exact read_writes_unit_whole _ _ _ _ _ off2_zero
  iexists _; isplitr
  swap; · iexact H7
  ipureintro
  unfold sound_kernel1_A.sl.H7_1 sound_kernel1_A.sl.v76 sound_kernel1_A.sl.H6_1 sound_kernel1_A.sl.r sound_kernel1_A.sl.r_1
  rw [readAt_unit_whole_unread harg6 x4 _ off2_zero]
  rw [readAt_unit_whole_unread harg3 x1 _ off3_zero, readAt_unit_whole_unread harg4 x2 _ off3_zero, readAt_unit_whole_unread harg5 x3 _ off2_zero]
  rw [readCov_unit_whole]
  exact read_writes_unit_whole _ _ _ _ _ off2_zero

set_option maxHeartbeats 1000000 in
/-- THE SECOND CASE (the conditional not taken). On whole memrefs — the inputs' at contents `x0 … x4`, the two scratch
    buffers' at `s0`, `s1`, the output's at anything — the body runs to the continuation holding the inputs' and the
    scratch buffers' as they were (they are only read) and the output at the payload of `x0`, `s0` and `s1`. -/
theorem sound_kernel1_B (c : Dev nD) (E : Set ℕ) (i : grid1.Coords) (arg2 : Memref sig .tc .vmem S5000x512 .bf16) (harg2 : arg2.IsWhole) (arg3 : Memref sig .tc .vmem S2x1x512 .f32) (harg3 : arg3.IsWhole) (arg4 : Memref sig .tc .vmem S2x1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S5000x512 .f32) (harg7 : arg7.IsWhole) (arg8 : Memref sig .tc .vmem S1x512 .f32) (harg8 : arg8.IsWhole) (arg9 : Memref sig .tc .vmem S1x512 .f32) (harg9 : arg9.IsWhole) (hc0 : ¬cond1_0 i)
    (x0 : Vec F S5000x512 .bf16) (x1 : Vec F S2x1x512 .f32) (x2 : Vec F S2x1x512 .f32) (x3 : Vec F S1x512 .f32) (x4 : Vec F S1x512 .f32)
    (s0 : Vec F S1x512 .f32) (s1 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k1_pay3 x0 s0 s1) ∗ owns (c : Thread nD τ) arg8 fullShare s0 ∗ owns (c : Thread nD τ) arg9 fullShare s1) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  rw [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [readAt_unit_whole_unread harg2 x0 _ off2_zero, readAt_unit_whole_unread harg8 s0 _ off2_zero, readAt_unit_whole_unread harg9 s1 _ off2_zero]
    exact read_writes_unit_whole _ _ _ _ _ off2_zero
  isplitl [H6]
  · iexists _; isplitr; · ipureintro; exact harg8.read_unread _
    iexact H6
  iexists _; isplitr; · ipureintro; exact harg9.read_unread _
  iexact H7

/-! ## The region's invariant -/

/-- The core's scoped buffers that are neither a staging buffer nor a scratch buffer of this region (the other
    region's staging buffers), each whole at some contents: they pass through the region untouched. -/
def keep1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- What the region is entered with, the two scratch buffers singled out as memrefs owned at some contents. -/
theorem PhiA1_eq (c : Dev nD) :
    (Pipeline.ΦA spec1 c : sProp 𝕄)
      = iprop((keep1 (F := F) c ∗ (∃ d, owns (c : Thread nD τ) scM1_0 fullShare d) ∗ (∃ d, owns (c : Thread nD τ) scM1_1 fullShare d)) ∗ (∃ r, prngReg c r)) := by
  unfold Pipeline.ΦA; rw [scopedRest1_eq]; unfold keep1; simp only [scM1_0, scM1_1, owns_whole]
  refine BI.equiv_iff.mp ⟨?_, ?_⟩
  · show (_ : sProp 𝕄) ⊢ (_ : sProp 𝕄)
    iintro ⟨⟨B1, B2, B3, B4, B5, B6, B7, B8, B9, S0, S1⟩, Hg⟩
    isplitr [Hg]
    swap; · iexact Hg
    isplitr [S0 S1]
    swap
    · isplitl [S0]; · iexact S0
      iexact S1
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  · show (_ : sProp 𝕄) ⊢ (_ : sProp 𝕄)
    iintro ⟨⟨⟨B1, B2, B3, B4, B5, B6, B7, B8, B9⟩, S0, S1⟩, Hg⟩
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [S0]; · iexact S0
    iexact S1

/-- The region's invariant before position `n`: before the first point what the region is entered with (both scratch
    buffers at anything); afterwards the first scratch buffer at the scale and the second at the bias — the first
    point stored them, every later point of the first case stores the same again, the others only read them. -/
def Phi1 (c : Dev nD) : ℕ → sProp 𝕄
  | 0 => Pipeline.ΦA spec1 c
  | _ + 1 => iprop((keep1 (F := F) c ∗ owns (c : Thread nD τ) scM1_0 fullShare (scaleOf V c) ∗ owns (c : Thread nD τ) scM1_1 fullShare (biasOf V c)) ∗ (∃ r, prngReg c r))

theorem Phi1_zero (c : Dev nD) (n : ℕ) (hz : n = 0) : Phi1 V c n = Pipeline.ΦA spec1 c := by
  subst hz; rfl

theorem Phi1_succ (c : Dev nD) (n : ℕ) :
    Phi1 V c (n + 1) = iprop((keep1 (F := F) c ∗ owns (c : Thread nD τ) scM1_0 fullShare (scaleOf V c) ∗ owns (c : Thread nD τ) scM1_1 fullShare (biasOf V c)) ∗ (∃ r, prngReg c r)) := rfl

theorem Phi1_pos (c : Dev nD) (n : ℕ) (hz : n ≠ 0) :
    Phi1 V c n = iprop((keep1 (F := F) c ∗ owns (c : Thread nD τ) scM1_0 fullShare (scaleOf V c) ∗ owns (c : Thread nD τ) scM1_1 fullShare (biasOf V c)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at the payload of the point's block of window 0, the scale
    and the bias; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (iblk1 V c 0 t) (scaleOf V c) (biasOf V c)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem Phi1_castSucc (c : Dev nD) (t : Fin cfg1.N) : (dat1 V c).Φ t.castSucc = Phi1 V c t.val := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay3 (iblk1 V c 0 t) (scaleOf V c) (biasOf V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point. The inputs' memrefs hold their blocks, those of windows 1-4 the same at every point. At a
    point of the first case the scratch buffers enter at anything — from what the region is entered with at the first
    point, else by forgetting what they hold — and leave at the scale and the bias; at any other point they enter at the
    scale and the bias (the point is not the first) and leave untouched. Either way the output's buffer is left at
    the payload of the point's block of window 0, the scale and the bias; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = Phi1 V c (t.val + 1) from rfl, Phi1_succ, Phi1_castSucc,
    after1_0, after1_1, after1_2, after1_3, after1_4, after1_5]
  rw [iblk1_1_const V c t, iblk1_2_const V c t, iblk1_3_const V c t, iblk1_4_const V c t]
  unfold biasOf scaleOf
  have hN : t.val < 10 := lt_of_lt_of_eq t.isLt (show cfg1.N = 10 from N_1)
  by_cases h0 : t.val % 5 = 0
  · by_cases hz : t.val = 0
    · rw [Phi1_zero V c _ hz, PhiA1_eq]
      iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ _ _ ((hcond1_0 t).mpr h0) (iblk1 V c 0 t) (iblk1 V c 1 t0) (iblk1 V c 2 t0) (iblk1 V c 3 t0) (iblk1 V c 4 t0) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HB HS0 HS1 Hg]
      · isplitr [Hg]
        swap; · iexact Hg
        isplitl [HB]; · iexact HB
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · rw [Phi1_pos V c _ hz]
      unfold biasOf scaleOf
      iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ _ _ ((hcond1_0 t).mpr h0) (iblk1 V c 0 t) (iblk1 V c 1 t0) (iblk1 V c 2 t0) (iblk1 V c 3 t0) (iblk1 V c 4 t0) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HB HS0 HS1 Hg]
      · isplitr [Hg]
        swap; · iexact Hg
        isplitl [HB]; · iexact HB
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [Phi1_pos V c _ hz]
    unfold biasOf scaleOf
    iintro ⟨⟨⟨HB, HS0, HS1⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ _ _ _ _ (fun h => h0 ((hcond1_0 t).mp h)) (iblk1 V c 0 t) (iblk1 V c 1 t0) (iblk1 V c 2 t0) (iblk1 V c 3 t0) (iblk1 V c 4 t0) _ _ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HB HS0 HS1 Hg]
    · isplitr [Hg]
      swap; · iexact Hg
      isplitl [HB]; · iexact HB
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, Phi1_zero V c 0 rfl]
  try exact Idealize.SL.BI.Entails.refl _

/-- After any point but the first the invariant gives back what the region was entered with: the scratch buffers'
    named contents are forgotten. -/
theorem Phi_out1 (c : Dev nD) (t : Fin (cfg1.N + 1)) (ht : t.val ≠ 0) : (dat1 V c).Φ t ⊢ Pipeline.ΦA spec1 c := by
  rw [show (dat1 V c).Φ t = Phi1 V c t.val from rfl, Phi1_pos V c _ ht, PhiA1_eq]
  iintro ⟨⟨HB, HS0, HS1⟩, Hg⟩
  isplitr [Hg]
  swap; · iexact Hg
  isplitl [HB]; · iexact HB
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Region1

end Cert.KernelIdeal.KF

end
-- ==== Proof.KI.Run.lean ====
/-
  The kernel program's run: the buffer contents at the boundaries of its three segments (the first region, the two
  reshapes of γ and β, the second region), each region as a segment over "every unscoped buffer at the boundary's
  contents", and the launch. The first region's invariant is the scoped rest and the generator register; the
  second region's invariant also carries the two scratch rows (scale and bias) it fills at a core's first point and
  reads at the others. The run's post names the result array at the last boundary and every argument as launched.
-/
import proofs.«172976_g2000506936419697_pallasbulk_901_21_alg».proof.Proof.KI.Reg0
import proofs.«172976_g2000506936419697_pallasbulk_901_21_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the two reshapes (the second region's entry). -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- At the second region's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ### What the reshapes leave alone -/

theorem B2_main_arg0 (c : Dev nD) : B2 m ρ c (Proc.devRef .tc main_arg0) = B1 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg1 (c : Dev nD) : B2 m ρ c (Proc.devRef .tc main_arg1) = B1 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg2 (c : Dev nD) : B2 m ρ c (Proc.devRef .tc main_arg2) = B1 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_arg3 (c : Dev nD) : B2 m ρ c (Proc.devRef .tc main_arg3) = B1 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_0 (c : Dev nD) : B2 m ρ c (Proc.devRef .tc main_v0_0) = B1 m ρ c (Proc.devRef .tc main_v0_0) :=
  StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_1 (c : Dev nD) : B2 m ρ c (Proc.devRef .tc main_v0_1) = B1 m ρ c (Proc.devRef .tc main_v0_1) :=
  StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem B2_main_v0_2 (c : Dev nD) : B2 m ρ c (Proc.devRef .tc main_v0_2) = B1 m ρ c (Proc.devRef .tc main_v0_2) :=
  StableHlo.after_of_forall_not_mem (b := Proc.devRef .tc main_v0_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_main_arg0 m ρ c
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_main_arg1 m ρ c
    _ = B0 m ρ c (Proc.devRef .tc main_arg1) := (B1_arr m ρ c 1).trans (((dat0 (E0 m ρ) c).arrAt_in 1 rfl _).trans (A_eq0 (E0 m ρ) c 1))
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_main_arg2 m ρ c
    _ = B0 m ρ c (Proc.devRef .tc main_arg2) := B1_of_ne m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_main_arg3 m ρ c
    _ = B0 m ρ c (Proc.devRef .tc main_arg3) := B1_of_ne m ρ c main_arg3 (by decide)
    _ = m ((c : Thread nD τ).loc main_arg3) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at the launch contents, left at `B1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The scoped rest and the generator register make the second region's invariant before its first point. -/
theorem hin1' (c : Dev nD) :
    (iprop((∃ r, prngReg c r) ∗ Pipeline.prefHeld (pcfgs (F := F) 1).pre c (fun _ => fullShare) (adm (F := F) 1).1 ∗ Pipeline.scopedRest spec1 c) : sProp 𝕄)
      ⊢ (dat1 (E2 m ρ) c).Φ 0 := by
  have h : (iprop((∃ r, prngReg c r) ∗ Pipeline.prefHeld (pcfgs (F := F) 1).pre c (fun _ => fullShare) (adm (F := F) 1).1 ∗ Pipeline.scopedRest spec1 c) : sProp 𝕄)
      ⊢ (Pipeline.ΦA spec1 c : sProp 𝕄) := by
    unfold Pipeline.ΦA
    iintro ⟨Hp, -, Hr⟩
    isplitl [Hr]; · iexact Hr
    iexact Hp
  exact h.trans (hin1 (E2 m ρ) c)

/-- After its last point the second region's invariant gives the scoped rest and the generator register back. -/
theorem hout1' (c : Dev nD) :
    (dat1 (E2 m ρ) c).Φ (Fin.last cfg1.N) ⊢ (iprop((∃ r, prngReg c r) ∗ emp ∗ Pipeline.scopedRest spec1 c) : sProp 𝕄) := by
  have h : (Pipeline.ΦA spec1 c : sProp 𝕄)
      ⊢ (iprop((∃ r, prngReg c r) ∗ emp ∗ Pipeline.scopedRest spec1 c) : sProp 𝕄) := by
    unfold Pipeline.ΦA
    iintro ⟨Hr, Hp⟩
    isplitl [Hp]; · iexact Hp
    isplitr; · iempintro
    iexact Hr
  exact (hout1 (E2 m ρ) c).trans h

set_option backward.isDefEq.respectTransparency.types false in
/-- The second region: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (E2 m ρ) c).Φ 0 from rfl]
    exact hin1' m ρ c
  hout c := by
    rw [Pipeline.ownSems0_none, show (pdats m ρ 1 c).Φ (Fin.last _) = (dat1 (E2 m ρ) c).Φ (Fin.last cfg1.N) from rfl]
    exact hout1' m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- Every weakly fair execution of the kernel program terminates without a fault; the result buffer ends at the last
    boundary's contents and every argument as launched. -/
theorem run : θ_run defs (onTc (τ := τ) (main (F := F))) ⟨m, fun _ => 0, ρ⟩ (fun r => ∀ c : Dev nD,
      r.2.mem ((c.tc : Thread nD τ).loc main_v3) = B3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨h c _ (mem_uc main_v3 (by decide)),
       (h c _ (mem_uc main_arg0 (by decide))).trans (B3_main_arg0 m ρ c),
       (h c _ (mem_uc main_arg1 (by decide))).trans (B3_main_arg1 m ρ c),
       (h c _ (mem_uc main_arg2 (by decide))).trans (B3_main_arg2 m ρ c),
       (h c _ (mem_uc main_arg3 (by decide))).trans (B3_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.KF

end
-- ==== Proof.Spec.lean ====
/-
  The mathematics both programs compute, over the extended reals: y = x·wᵀ; per channel the sum and the sum of squares of y
  over all rows; per group of 16 consecutive channels their totals divided by the number of entries of a group,
  800000 = 50000 · 16, which gives a mean and a second moment, hence a variance clipped at zero and its reciprocal
  square root after adding ε; per channel a scale γ·inv and a bias β − mean·scale of its group; and the result
  max(z, slope·z) of z = y·scale + bias. The two programs arrange the sums differently (tiles of 5000 rows on two
  cores against 49 tiles of 1024 rows with zero rows appended; group totals by products with a 0/1 matrix against a
  reshape and a row sum); the definitions here are the common form both are brought to.
-/
import Idealize.ShloMosaic.PureOps.Ideal
import Idealize.ShloMosaic.PureOps.Ideal.Laws
import Idealize.ShloMosaic.Lib.ValueIdx

noncomputable section

namespace Cert.GN

open Idealize.ShloMosaic

/-- Entry (r, c) of x·wᵀ: the sum over k of x(r,k)·w(c,k). -/
def ymat (X : Fin 50000 → Fin 512 → EReal) (W : Fin 512 → Fin 512 → EReal) (r : Fin 50000) (c : Fin 512) : EReal :=
  ∑ k : Fin 512, X r k * W c k

/-- The sum of a column over all 50000 rows. -/
def colsum (y : Fin 50000 → Fin 512 → EReal) (c : Fin 512) : EReal := ∑ r : Fin 50000, y r c

/-- The sum of a column's squares over all 50000 rows. -/
def colsq (y : Fin 50000 → Fin 512 → EReal) (c : Fin 512) : EReal := ∑ r : Fin 50000, y r c * y r c

/-- Channel number j of group g: 16·g + j. -/
def chan (g : Fin 32) (j : Fin 16) : Fin 512 := ⟨16 * g.val + j.val, by omega⟩

/-- The group of a channel: c / 16. -/
def grp (c : Fin 512) : Fin 32 := ⟨c.val / 16, by omega⟩

/-- Row r of tile u of core i when the 50000 rows are cut in 2 · 5 tiles of 5000: 5000·(5·i + u) + r. -/
def row5 (i : Fin 2) (u : Fin 5) (r : Fin 5000) : Fin 50000 := ⟨5000 * (5 * i.val + u.val) + r.val, by omega⟩

/-- Row r of tile t when 50176 rows are cut in 49 tiles of 1024: 1024·t + r. -/
def row49 (t : Fin 49) (r : Fin 1024) : Fin 50176 := ⟨1024 * t.val + r.val, by omega⟩

/-- A group's total of a per-channel quantity. -/
def gsum (s : Fin 512 → EReal) (g : Fin 32) : EReal := ∑ j : Fin 16, s (chan g j)

/-- The number of entries of a group: 50000 rows of 16 channels. -/
def cnt : EReal := ((800000 : ℝ) : EReal)

/-- ε, the single-precision number nearest 1e-5, as both programs spell it. -/
def eps : EReal := Ideal.ofBits .f32 0x3727C5AC#32

/-- The slope of the leaky rectifier, the single-precision number nearest 0.1, as both programs spell it. -/
def slope : EReal := Ideal.ofBits .f32 0x3DCCCCCD#32

/-- A group's mean from the per-channel sums. -/
def mean (s1 : Fin 512 → EReal) (g : Fin 32) : EReal := Ideal.div (gsum s1 g) cnt

/-- A group's variance, clipped at zero, from the per-channel sums and sums of squares. -/
def var (s1 s2 : Fin 512 → EReal) (g : Fin 32) : EReal := max (Ideal.div (gsum s2 g) cnt - mean s1 g * mean s1 g) 0

/-- A group's reciprocal standard deviation. -/
def inv (s1 s2 : Fin 512 → EReal) (g : Fin 32) : EReal := Ideal.rsqrt (var s1 s2 g + eps)

/-- A channel's scale: γ times its group's reciprocal standard deviation. -/
def scale (s1 s2 γ : Fin 512 → EReal) (c : Fin 512) : EReal := γ c * inv s1 s2 (grp c)

/-- A channel's bias: β minus its group's mean times the channel's scale. -/
def bias (s1 s2 γ β : Fin 512 → EReal) (c : Fin 512) : EReal := β c - mean s1 (grp c) * scale s1 s2 γ c

/-- The leaky rectifier max(z, slope·z). -/
def leaky (z : EReal) : EReal := max z (slope * z)

/-- One entry of the result from an entry of y and the per-channel statistics. -/
def apply1 (s1 s2 γ β : Fin 512 → EReal) (y : EReal) (c : Fin 512) : EReal :=
  leaky (y * scale s1 s2 γ c + bias s1 s2 γ β c)

/-- The whole computation at entry (r, c). -/
def out (X : Fin 50000 → Fin 512 → EReal) (W : Fin 512 → Fin 512 → EReal) (γ β : Fin 512 → EReal) (r : Fin 50000) (c : Fin 512) : EReal :=
  apply1 (colsum (ymat X W)) (colsq (ymat X W)) γ β (ymat X W r c) c

end Cert.GN

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KV0Pay.lean ====
/-
  What the first kernel computes at one grid point, read at an index on the extended reals: the product block
  y = x·wᵀ (a row of x against a row of w), the block written out (the same values: narrowing is the identity here),
  and the two running column statistics (the carried value plus the block's column sums of y and of y²). Then the
  running statistics over the five points of one core: started from zero at the core's first point and carried from
  point to point, after the fifth point they hold the column sums over the core's five blocks.
-/
import proofs.«172976_g2000506936419697_pallasbulk_901_21_alg».proof.Proof.Gen.KernelIdeal.Skeleton
import proofs.«172976_g2000506936419697_pallasbulk_901_21_alg».proof.Proof.Spec
import proofs.«172976_g2000506936419697_pallasbulk_901_21_alg».proof.Proof.LibRowDot
import proofs.«172976_g2000506936419697_pallasbulk_901_21_alg».proof.Proof.LibKeepdims
import Idealize.ShloMosaic.Lib.ValueLayout
import Idealize.ShloMosaic.Lib.Pipeline.Value

noncomputable section

namespace Cert.KernelIdeal.KV

open Idealize.ShloMosaic Idealize.ShloMosaic.ValueIdx Cert.KernelIdeal Cert.KernelIdeal.Gen Cert.GN

/-- Entry (r, c) of a block's product with wᵀ: the sum over k of x(r,k)·w(c,k). -/
def yb (x : Vec Ideal S5000x512 .f32) (w : Vec Ideal S512x512 .f32) (r : Fin 5000) (c' : Fin 512) : EReal :=
  ∑ k : Fin 512, x (ix2 r k) * w (ix2 c' k)

variable (x : Vec Ideal S5000x512 .f32) (w : Vec Ideal S512x512 .f32) (a : Vec Ideal S1x1x512 .f32)

/-- The product block at (r, c): narrowing both operands changes nothing, and the contraction runs over the
    last axis of both. -/
theorem pay3_apply (r : Fin 5000) (c' : Fin 512) : k0_pay3 x w (ix2 r c') = yb x w r c' :=
  Cert.RowDot.matmul_zero_apply 5000 512 512 none _ _ (ix2 r c')

/-- The block written out at (r, c): the product block narrowed, which is the product block. -/
theorem pay6_apply (r : Fin 5000) (c' : Fin 512) : k0_pay6 x w (ix2 r c') = yb x w r c' :=
  pay3_apply x w r c'

/-- The zero the first running statistic starts from. -/
theorem pay1_apply (c' : Fin 512) : (k0_pay1 (F := Ideal)) (ix3 (0 : Fin 1) (0 : Fin 1) c') = 0 :=
  Ideal.ofBits_zero_f32

/-- The zero the second running statistic starts from. -/
theorem pay2_apply (c' : Fin 512) : (k0_pay2 (F := Ideal)) (ix3 (0 : Fin 1) (0 : Fin 1) c') = 0 :=
  Ideal.ofBits_zero_f32

/-- The first running statistic after a point, at column c: what it held plus the block's column sum of y. -/
theorem pay4_apply (c' : Fin 512) :
    k0_pay4 x w a (ix3 (0 : Fin 1) (0 : Fin 1) c') = a (ix3 0 0 c') + ∑ r : Fin 5000, yb x w r c' := by
  unfold k0_pay4
  rw [addf_apply, shapeCast_self]
  congr 1
  refine (shapeCast_ab_1ab_apply _ _ 0 0 c').trans ?_
  refine (shapeCast_a_1a_apply _ _ 0 c').trans ?_
  refine (Cert.Keepdims.sum_axis0_apply _ _ _ (.inl rfl) rfl c').trans ?_
  exact Finset.sum_congr rfl fun r _ => pay3_apply x w r c'

/-- The second running statistic after a point, at column c: what it held plus the block's column sum of y². -/
theorem pay5_apply (c' : Fin 512) :
    k0_pay5 x w a (ix3 (0 : Fin 1) (0 : Fin 1) c') = a (ix3 0 0 c') + ∑ r : Fin 5000, yb x w r c' * yb x w r c' := by
  unfold k0_pay5
  rw [addf_apply, shapeCast_self]
  congr 1
  refine (shapeCast_ab_1ab_apply _ _ 0 0 c').trans ?_
  refine (shapeCast_a_1a_apply _ _ 0 c').trans ?_
  refine (Cert.Keepdims.sum_axis0_apply _ _ _ (.inl rfl) rfl c').trans ?_
  refine Finset.sum_congr rfl fun r _ => ?_
  rw [mulf_apply, pay3_apply]

/-! ## The running statistics over the five points of a core -/

/-- A value started from zero at a core's first point and carried from point to point, each point adding a term of
    its own block, holds after the core's fifth point the sum of the five terms. Stated for any step `P` that adds
    a term `T` of the block at column c, and any start `Z` that is zero there. -/
theorem acc_five (P : Vec Ideal S5000x512 .f32 → Vec Ideal S1x1x512 .f32 → Vec Ideal S1x1x512 .f32)
    (Z : Vec Ideal S1x1x512 .f32) (T : Vec Ideal S5000x512 .f32 → EReal) (c' : Fin 512)
    (hP : ∀ x a, P x a (ix3 (0 : Fin 1) (0 : Fin 1) c') = a (ix3 0 0 c') + T x) (hZ : Z (ix3 (0 : Fin 1) (0 : Fin 1) c') = 0)
    (X : Fin 10 → Vec Ideal S5000x512 .f32) (s : Fin 10 → Vec Ideal S1x1x512 .f32)
    (hA : ∀ t : Fin 10, t.val % 5 = 0 → s t = P (X t) Z)
    (hB : ∀ t : Fin 10, ¬ t.val % 5 = 0 → s t = P (X t) (s ⟨t.val - 1, by omega⟩))
    (i : Fin 2) :
    s ⟨5 * i.val + 4, by omega⟩ (ix3 0 0 c') = ∑ u : Fin 5, T (X ⟨5 * i.val + u.val, by omega⟩) := by
  have base : s ⟨5 * i.val + 0, by omega⟩ (ix3 0 0 c') = T (X ⟨5 * i.val + 0, by omega⟩) := by
    rw [hA ⟨5 * i.val + 0, by omega⟩ (by show (5 * i.val + 0) % 5 = 0; omega), hP, hZ, zero_add]
  have step : ∀ (n : ℕ) (hn : n + 1 ≤ 4), s ⟨5 * i.val + (n + 1), by omega⟩ (ix3 0 0 c')
      = s ⟨5 * i.val + n, by omega⟩ (ix3 0 0 c') + T (X ⟨5 * i.val + (n + 1), by omega⟩) := by
    intro n hn
    rw [hB ⟨5 * i.val + (n + 1), by omega⟩ (by show ¬ (5 * i.val + (n + 1)) % 5 = 0; omega), hP]
    rfl
  rw [Fin.sum_univ_five]
  exact (step 3 (by omega)).trans (by rw [step 2 (by omega), step 1 (by omega), step 0 (by omega), base]; rfl)

/-- The first running statistic after a core's five points, at column c: the column sums of y over the core's
    five blocks. -/
theorem acc_sum (X : Fin 10 → Vec Ideal S5000x512 .f32) (s : Fin 10 → Vec Ideal S1x1x512 .f32)
    (hA : ∀ t : Fin 10, t.val % 5 = 0 → s t = k0_pay4 (X t) w (k0_pay1 (F := Ideal)))
    (hB : ∀ t : Fin 10, ¬ t.val % 5 = 0 → s t = k0_pay4 (X t) w (s ⟨t.val - 1, by omega⟩))
    (i : Fin 2) (c' : Fin 512) :
    s ⟨5 * i.val + 4, by omega⟩ (ix3 (0 : Fin 1) (0 : Fin 1) c')
      = ∑ u : Fin 5, ∑ r : Fin 5000, yb (X ⟨5 * i.val + u.val, by omega⟩) w r c' :=
  acc_five (fun x a => k0_pay4 x w a) (k0_pay1 (F := Ideal)) (fun x => ∑ r : Fin 5000, yb x w r c') c'
    (fun x a => pay4_apply x w a c') (pay1_apply c') X s hA hB i

/-- The second running statistic after a core's five points, at column c: the column sums of y² over the core's
    five blocks. -/
theorem acc_sq (X : Fin 10 → Vec Ideal S5000x512 .f32) (s : Fin 10 → Vec Ideal S1x1x512 .f32)
    (hA : ∀ t : Fin 10, t.val % 5 = 0 → s t = k0_pay5 (X t) w (k0_pay2 (F := Ideal)))
    (hB : ∀ t : Fin 10, ¬ t.val % 5 = 0 → s t = k0_pay5 (X t) w (s ⟨t.val - 1, by omega⟩))
    (i : Fin 2) (c' : Fin 512) :
    s ⟨5 * i.val + 4, by omega⟩ (ix3 (0 : Fin 1) (0 : Fin 1) c')
      = ∑ u : Fin 5, ∑ r : Fin 5000, yb (X ⟨5 * i.val + u.val, by omega⟩) w r c' * yb (X ⟨5 * i.val + u.val, by omega⟩) w r c' :=
  acc_five (fun x a => k0_pay5 x w a) (k0_pay2 (F := Ideal)) (fun x => ∑ r : Fin 5000, yb x w r c' * yb x w r c') c'
    (fun x a => pay5_apply x w a c') (pay2_apply c') X s hA hB i

end Cert.KernelIdeal.KV

end
-- ==== Proof.KV0.lean ====
/-
  What the first kernel leaves in its three output arrays, read at an index on the extended reals. The product array
  holds y = x·wᵀ: the point that owns rows 5000·t … 5000·t + 4999 writes its block of y there, and the ten points'
  blocks tile the 50000 rows. The two statistics arrays hold, per core i and column c, the sum over the core's five
  row blocks of the column sums of y, and of y²: each is written back once per core, after the core's fifth point,
  holding what the running value has accumulated from zero over those five points.
-/
import proofs.«172976_g2000506936419697_pallasbulk_901_21_alg».proof.Proof.KI.Reg0
import proofs.«172976_g2000506936419697_pallasbulk_901_21_alg».proof.Proof.KV0Pay
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KF Cert.GN

variable (V : (c : Dev nD) → (b : Ref sig .tc) → Buf (Elt Ideal) ((c : Thread nD τ).loc b))

/-- The array x as the region finds it, as a function on the extended reals. -/
abbrev xa (c : Dev nD) : S50000x512.Idx → EReal := V c main_arg0

/-- The array w as the region finds it, as a function on the extended reals. -/
abbrev wa (c : Dev nD) : S512x512.Idx → EReal := V c main_arg1

/-- Entry (r, c) of x·wᵀ over the arrays as found. -/
def yarr (c : Dev nD) (r : Fin 50000) (c' : Fin 512) : EReal := ∑ k : Fin 512, xa V c (ix2 r k) * wa V c (ix2 c' k)

/-! ## The block index maps in closed form -/

/-- Over the ten grid points: the row-block index of x and of y is the point's number, w is one block, and the
    statistics' block index is the core's number, the point's number divided by five. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 5 ∧ win0_3.index t (1 : Fin 3) = 0 ∧ win0_3.index t (2 : Fin 3) = 0
    ∧ win0_4.index t (0 : Fin 3) = t.val / 5 ∧ win0_4.index t (1 : Fin 3) = 0 ∧ win0_4.index t (2 : Fin 3) = 0 :=
  (by decide +kernel : ∀ t : Fin grid0.N, _)

/-! ## The input blocks -/

/-- The block of x at point t reads, at (r, k), row 5000·t + r of x. -/
theorem xblk_apply (c : Dev nD) (t : Fin cfg0.N) (r : Fin 5000) (k : Fin 512) (R : Fin 50000) (hR : R.val = 5000 * t.val + r.val) :
    (iblk0 V c 0 t : Vec Ideal S5000x512 .f32) (ix2 r k) = xa V c (ix2 R k) := by
  obtain ⟨e0, e1, -⟩ := idx_facts t
  unfold iblk0
  rw [View.read_apply]
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 5000 + 1 * r.val = R.val; omega
  | ⟨1, _⟩ => show win0_0.index t (1 : Fin 2) * 512 + 1 * k.val = k.val; omega

/-- The block of w at every point is w. -/
theorem wblk_eq (c : Dev nD) (t : Fin cfg0.N) : (iblk0 V c 1 t : Vec Ideal S512x512 .f32) = wa V c := by
  obtain ⟨-, -, e0, e1, -⟩ := idx_facts t
  funext j
  unfold iblk0
  rw [View.read_apply]
  show V c main_arg1 (((cfg0.win 1).blk t).view.emb j) = V c main_arg1 j
  refine congrArg (V c main_arg1) (funext fun a => Fin.ext ?_)
  match a with
  | ⟨0, _⟩ => show win0_1.index t (0 : Fin 2) * 512 + 1 * (j 0).val = (j 0).val; omega
  | ⟨1, _⟩ => show win0_1.index t (1 : Fin 2) * 512 + 1 * (j 1).val = (j 1).val; omega

/-- A point's product block at (r, c) is entry (5000·t + r, c) of x·wᵀ. -/
theorem yb_blk (c : Dev nD) (t : Fin cfg0.N) (r : Fin 5000) (c' : Fin 512) (R : Fin 50000) (hR : R.val = 5000 * t.val + r.val) :
    yb (iblk0 V c 0 t) (wa V c) r c' = yarr V c R c' :=
  Finset.sum_congr rfl fun k _ => congrArg (· * wa V c (ix2 c' k)) (xblk_apply V c t r k R hR)

/-! ## The product array -/

/-- What every point leaves in the product's staging buffer: its product block. -/
theorem outs1_eq (c : Dev nD) (t : Fin cfg0.N) :
    (outsAt0 V c t.val t.isLt).1 = k0_pay6 (iblk0 V c 0 t) (iblk0 V c 1 t) := by
  by_cases h0 : t.val % 5 = 0
  · rw [outsAt0_A_pay V c t h0]
  · rw [outsAt0_B_pay V c t h0]

/-- The product array in closed form: entry (r, c) of x·wᵀ. -/
def G2 (c : Dev nD) : Buf (Elt Ideal) ((c : Thread nD τ).loc main_v0_0) :=
  fun (i : S50000x512.Idx) => yarr V c (i 0) (i 1)

/-- A point's product block at an index of the block is the closed form where the block sits in the array. -/
theorem blk2_apply (c : Dev nD) (t : Fin cfg0.N) (j : S5000x512.Idx) :
    k0_pay6 (iblk0 V c 0 t) (wa V c) j = yarr V c (((cfg0.win 2).blk t).view.emb j 0) (((cfg0.win 2).blk t).view.emb j 1) := by
  obtain ⟨-, -, -, -, e0, e1, -⟩ := idx_facts t
  have h1 : ((cfg0.win 2).blk t).view.emb j 1 = j 1 :=
    Fin.ext (by show win0_2.index t (1 : Fin 2) * 512 + 1 * (j 1).val = (j 1).val; omega)
  rw [h1]
  refine (congrArg (k0_pay6 (iblk0 V c 0 t) (wa V c)) (eq_ix2 j)).trans ?_
  refine (pay6_apply _ _ (j 0) (j 1)).trans ?_
  exact yb_blk V c t (j 0) (j 1) _ (by show win0_2.index t (0 : Fin 2) * 5000 + 1 * (j 0).val = 5000 * t.val + (j 0).val; omega)

/-- What point t writes back to the product array is block t of the closed form. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2, outs1_eq, wblk_eq]
  funext j
  exact blk2_apply V c t j

/-- An index of the product array is in point t's block iff each coordinate is in the block's range. -/
theorem mem_blk2 (t : Fin cfg0.N) (i : S50000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v0_0).slice (win0_2.rect t)).set ↔ _
  rw [View.set_slice_whole, Rect.mem_set_unit]
  exact Iff.rfl

/-- Row r of the product array is in the block of point r / 5000, which writes it back. -/
theorem cover2 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 10 := N_0
  have ht : (i 0).val / 5000 < cfg0.N := by rw [hN]; omega
  obtain ⟨-, -, -, -, e0, e1, -⟩ := idx_facts ⟨(i 0).val / 5000, ht⟩
  refine ⟨⟨(i 0).val / 5000, ht⟩, flush0_2 _, ?_⟩
  rw [mem_blk2]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; dsimp only; omega
  | ⟨1, _⟩ =>
    show win0_2.index ⟨(i 0).val / 5000, ht⟩ (1 : Fin 2) * 512 ≤ (i 1).val ∧ (i 1).val < win0_2.index ⟨(i 0).val / 5000, ht⟩ (1 : Fin 2) * 512 + 512
    rw [e1]; omega

/-- The product array after the region: y = x·wᵀ, entry by entry. -/
theorem arr0_2 (c : Dev nD) (r : Fin 50000) (c' : Fin 512) :
    (dat0 V c).arrAt 2 cfg0.N (ix2 r c') = ∑ k : Fin 512, xa V c (ix2 r k) * wa V c (ix2 c' k) :=
  congrFun ((dat0 V c).arrAt_eq_of_cover 2 (G2 V c) (fun t _ => flushed2_eq V c t) cover2) (ix2 r c')

/-! ## The column sums -/

/-- The running column sums after a core's fifth point, at column c: the sum over the core's five row blocks. -/
theorem stat3 (c : Dev nD) (n : ℕ) (hn : n < cfg0.N) (i : Fin 2) (hi : n = 5 * i.val + 4) (c' : Fin 512) :
    (outsAt0 V c n hn).2.1 (ix3 (0 : Fin 1) (0 : Fin 1) c') = ∑ u : Fin 5, ∑ r : Fin 5000, yarr V c (row5 i u r) c' := by
  subst hi
  refine (acc_sum (wa V c) (fun t => iblk0 V c 0 ⟨t.val, lt_of_lt_of_eq t.isLt N_0.symm⟩)
    (fun t => (outsAt0 V c t.val (lt_of_lt_of_eq t.isLt N_0.symm)).2.1) ?_ ?_ i c').trans ?_
  · intro t h0
    have e := congrArg (fun p => p.2.1) (outsAt0_A_pay V c ⟨t.val, lt_of_lt_of_eq t.isLt N_0.symm⟩ h0)
    rw [wblk_eq] at e
    exact e
  · intro t h0
    have e := congrArg (fun p => p.2.1) (outsAt0_B_pay V c ⟨t.val, lt_of_lt_of_eq t.isLt N_0.symm⟩ h0)
    rw [wblk_eq] at e
    exact e
  · refine Finset.sum_congr rfl fun u _ => Finset.sum_congr rfl fun r _ => ?_
    rw [yb_blk V c ⟨5 * i.val + u.val, by rw [show cfg0.N = 10 from N_0]; omega⟩ r c' (row5 i u r) rfl]

/-- Per core and column, the sum of y over the core's 25000 rows. -/
def colsum5 (c : Dev nD) (i : Fin 2) (c' : Fin 512) : EReal := ∑ u : Fin 5, ∑ r : Fin 5000, yarr V c (row5 i u r) c'

/-- The column sums array in closed form. -/
def G3 (c : Dev nD) : Buf (Elt Ideal) ((c : Thread nD τ).loc main_v0_1) :=
  fun (i : S2x1x512.Idx) => colsum5 V c (i 0) (i 2)

/-- What a core's fifth point leaves in the staging buffer, at an index of the block, is the closed form where the
    block sits in the array. -/
theorem blk3_apply (c : Dev nD) (t : Fin cfg0.N) (h4 : t.val % 5 = 4) (j : S1x1x512.Idx) :
    (outsAt0 V c t.val t.isLt).2.1 j = G3 V c (((cfg0.win 3).blk t).view.emb j) := by
  obtain ⟨-, -, -, -, -, -, e30, e31, e32, e40, e41, e42⟩ := idx_facts t
  have hN : t.val < 10 := lt_of_lt_of_eq t.isLt N_0
  have hj0 : (j 0).val = 0 := by have : (j 0).val < 1 := (j 0).isLt; omega
  have hj1 : (j 1).val = 0 := by have : (j 1).val < 1 := (j 1).isLt; omega
  have hj : j = ix3 (0 : Fin 1) (0 : Fin 1) (j 2) := by
    funext a
    apply Fin.ext
    match a with
    | ⟨0, _⟩ => exact hj0
    | ⟨1, _⟩ => exact hj1
    | ⟨2, _⟩ => rfl
  have hE : ((cfg0.win 3).blk t).view.emb j = ix3 (⟨t.val / 5, by omega⟩ : Fin 2) (0 : Fin 1) (j 2) := by
    funext a
    apply Fin.ext
    match a with
    | ⟨0, _⟩ => show win0_3.index t (0 : Fin 3) * 1 + 1 * (j 0).val = t.val / 5; omega
    | ⟨1, _⟩ => show win0_3.index t (1 : Fin 3) * 1 + 1 * (j 1).val = 0; omega
    | ⟨2, _⟩ => show win0_3.index t (2 : Fin 3) * 512 + 1 * (j 2).val = (j 2).val; omega
  rw [hE]
  refine (congrArg (outsAt0 V c t.val t.isLt).2.1 hj).trans ?_
  exact stat3 V c t.val t.isLt ⟨t.val / 5, by omega⟩ (by show t.val = 5 * (t.val / 5) + 4; omega) (j 2)

/-- What a core's fifth point writes back to the column sums array is the core's block of the closed form. -/
theorem flushed3_eq (c : Dev nD) (t : Fin cfg0.N) (hf : (cfg0.win 3).flush t = true) :
    (dat0 V c).flushed 3 t = ((cfg0.win 3).blk t).view.read (Elt Ideal) (G3 V c) := by
  have h4 : t.val % 5 = 4 := (flush0_3 t).mp hf
  show (cfg0.win 3).cut (grid0.coords t) ((dat0 V c).after 3 t) = _
  rw [after0_3]
  funext j
  exact blk3_apply V c t h4 j

/-- An index of the column sums array is in point t's block iff each coordinate is in the block's range. -/
theorem mem_blk3 (t : Fin cfg0.N) (i : S2x1x512.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v0_1).slice (win0_3.rect t)).set ↔ _
  rw [View.set_slice_whole, Rect.mem_set_unit]
  exact Iff.rfl

/-- Core i's row of the column sums array is the block of the core's fifth point, which writes it back. -/
theorem cover3 (i : S2x1x512.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 512 := (i 2).isLt
  have hN : cfg0.N = 10 := N_0
  have ht : 5 * (i 0).val + 4 < cfg0.N := by rw [hN]; omega
  obtain ⟨-, -, -, -, -, -, e30, e31, e32, e40, e41, e42⟩ := idx_facts ⟨5 * (i 0).val + 4, ht⟩
  dsimp only at e30 e40
  refine ⟨⟨5 * (i 0).val + 4, ht⟩, (flush0_3 _).mpr (by dsimp only; omega), ?_⟩
  rw [mem_blk3]
  intro a
  match a with
  | ⟨0, _⟩ =>
    show win0_3.index ⟨5 * (i 0).val + 4, ht⟩ (0 : Fin 3) * 1 ≤ (i 0).val ∧ (i 0).val < win0_3.index ⟨5 * (i 0).val + 4, ht⟩ (0 : Fin 3) * 1 + 1
    rw [e30]; omega
  | ⟨1, _⟩ =>
    show win0_3.index ⟨5 * (i 0).val + 4, ht⟩ (1 : Fin 3) * 1 ≤ (i 1).val ∧ (i 1).val < win0_3.index ⟨5 * (i 0).val + 4, ht⟩ (1 : Fin 3) * 1 + 1
    rw [e31]; omega
  | ⟨2, _⟩ =>
    show win0_3.index ⟨5 * (i 0).val + 4, ht⟩ (2 : Fin 3) * 512 ≤ (i 2).val ∧ (i 2).val < win0_3.index ⟨5 * (i 0).val + 4, ht⟩ (2 : Fin 3) * 512 + 512
    rw [e32]; omega

/-- The column sums after the region: per core i and column c, the sum of y over the core's five row blocks. -/
theorem arr0_3 (c : Dev nD) (i : Fin 2) (c' : Fin 512) :
    (dat0 V c).arrAt 3 cfg0.N (ix3 i (0 : Fin 1) c')
      = ∑ u : Fin 5, ∑ r : Fin 5000, ∑ k : Fin 512, xa V c (ix2 (row5 i u r) k) * wa V c (ix2 c' k) :=
  congrFun ((dat0 V c).arrAt_eq_of_cover 3 (G3 V c) (flushed3_eq V c) cover3) (ix3 i (0 : Fin 1) c')

/-! ## The column sums of squares -/

/-- The running column sums of squares after a core's fifth point, at column c: the sum over the core's five row blocks. -/
theorem stat4 (c : Dev nD) (n : ℕ) (hn : n < cfg0.N) (i : Fin 2) (hi : n = 5 * i.val + 4) (c' : Fin 512) :
    (outsAt0 V c n hn).2.2 (ix3 (0 : Fin 1) (0 : Fin 1) c') = ∑ u : Fin 5, ∑ r : Fin 5000, yarr V c (row5 i u r) c' * yarr V c (row5 i u r) c' := by
  subst hi
  refine (acc_sq (wa V c) (fun t => iblk0 V c 0 ⟨t.val, lt_of_lt_of_eq t.isLt N_0.symm⟩)
    (fun t => (outsAt0 V c t.val (lt_of_lt_of_eq t.isLt N_0.symm)).2.2) ?_ ?_ i c').trans ?_
  · intro t h0
    have e := congrArg (fun p => p.2.2) (outsAt0_A_pay V c ⟨t.val, lt_of_lt_of_eq t.isLt N_0.symm⟩ h0)
    rw [wblk_eq] at e
    exact e
  · intro t h0
    have e := congrArg (fun p => p.2.2) (outsAt0_B_pay V c ⟨t.val, lt_of_lt_of_eq t.isLt N_0.symm⟩ h0)
    rw [wblk_eq] at e
    exact e
  · refine Finset.sum_congr rfl fun u _ => Finset.sum_congr rfl fun r _ => ?_
    rw [yb_blk V c ⟨5 * i.val + u.val, by rw [show cfg0.N = 10 from N_0]; omega⟩ r c' (row5 i u r) rfl]

/-- Per core and column, the sum of y² over the core's 25000 rows. -/
def colsq5 (c : Dev nD) (i : Fin 2) (c' : Fin 512) : EReal := ∑ u : Fin 5, ∑ r : Fin 5000, yarr V c (row5 i u r) c' * yarr V c (row5 i u r) c'

/-- The column sums of squares array in closed form. -/
def G4 (c : Dev nD) : Buf (Elt Ideal) ((c : Thread nD τ).loc main_v0_2) :=
  fun (i : S2x1x512.Idx) => colsq5 V c (i 0) (i 2)

/-- What a core's fifth point leaves in the staging buffer, at an index of the block, is the closed form where the
    block sits in the array. -/
theorem blk4_apply (c : Dev nD) (t : Fin cfg0.N) (h4 : t.val % 5 = 4) (j : S1x1x512.Idx) :
    (outsAt0 V c t.val t.isLt).2.2 j = G4 V c (((cfg0.win 4).blk t).view.emb j) := by
  obtain ⟨-, -, -, -, -, -, e30, e31, e32, e40, e41, e42⟩ := idx_facts t
  have hN : t.val < 10 := lt_of_lt_of_eq t.isLt N_0
  have hj0 : (j 0).val = 0 := by have : (j 0).val < 1 := (j 0).isLt; omega
  have hj1 : (j 1).val = 0 := by have : (j 1).val < 1 := (j 1).isLt; omega
  have hj : j = ix3 (0 : Fin 1) (0 : Fin 1) (j 2) := by
    funext a
    apply Fin.ext
    match a with
    | ⟨0, _⟩ => exact hj0
    | ⟨1, _⟩ => exact hj1
    | ⟨2, _⟩ => rfl
  have hE : ((cfg0.win 4).blk t).view.emb j = ix3 (⟨t.val / 5, by omega⟩ : Fin 2) (0 : Fin 1) (j 2) := by
    funext a
    apply Fin.ext
    match a with
    | ⟨0, _⟩ => show win0_4.index t (0 : Fin 3) * 1 + 1 * (j 0).val = t.val / 5; omega
    | ⟨1, _⟩ => show win0_4.index t (1 : Fin 3) * 1 + 1 * (j 1).val = 0; omega
    | ⟨2, _⟩ => show win0_4.index t (2 : Fin 3) * 512 + 1 * (j 2).val = (j 2).val; omega
  rw [hE]
  refine (congrArg (outsAt0 V c t.val t.isLt).2.2 hj).trans ?_
  exact stat4 V c t.val t.isLt ⟨t.val / 5, by omega⟩ (by show t.val = 5 * (t.val / 5) + 4; omega) (j 2)

/-- What a core's fifth point writes back to the column sums of squares array is the core's block of the closed form. -/
theorem flushed4_eq (c : Dev nD) (t : Fin cfg0.N) (hf : (cfg0.win 4).flush t = true) :
    (dat0 V c).flushed 4 t = ((cfg0.win 4).blk t).view.read (Elt Ideal) (G4 V c) := by
  have h4 : t.val % 5 = 4 := (flush0_4 t).mp hf
  show (cfg0.win 4).cut (grid0.coords t) ((dat0 V c).after 4 t) = _
  rw [after0_4]
  funext j
  exact blk4_apply V c t h4 j

/-- An index of the column sums of squares array is in point t's block iff each coordinate is in the block's range. -/
theorem mem_blk4 (t : Fin cfg0.N) (i : S2x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v0_2).slice (win0_4.rect t)).set ↔ _
  rw [View.set_slice_whole, Rect.mem_set_unit]
  exact Iff.rfl

/-- Core i's row of the column sums of squares array is the block of the core's fifth point, which writes it back. -/
theorem cover4 (i : S2x1x512.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 512 := (i 2).isLt
  have hN : cfg0.N = 10 := N_0
  have ht : 5 * (i 0).val + 4 < cfg0.N := by rw [hN]; omega
  obtain ⟨-, -, -, -, -, -, e30, e31, e32, e40, e41, e42⟩ := idx_facts ⟨5 * (i 0).val + 4, ht⟩
  dsimp only at e30 e40
  refine ⟨⟨5 * (i 0).val + 4, ht⟩, (flush0_4 _).mpr (by dsimp only; omega), ?_⟩
  rw [mem_blk4]
  intro a
  match a with
  | ⟨0, _⟩ =>
    show win0_4.index ⟨5 * (i 0).val + 4, ht⟩ (0 : Fin 3) * 1 ≤ (i 0).val ∧ (i 0).val < win0_4.index ⟨5 * (i 0).val + 4, ht⟩ (0 : Fin 3) * 1 + 1
    rw [e40]; omega
  | ⟨1, _⟩ =>
    show win0_4.index ⟨5 * (i 0).val + 4, ht⟩ (1 : Fin 3) * 1 ≤ (i 1).val ∧ (i 1).val < win0_4.index ⟨5 * (i 0).val + 4, ht⟩ (1 : Fin 3) * 1 + 1
    rw [e41]; omega
  | ⟨2, _⟩ =>
    show win0_4.index ⟨5 * (i 0).val + 4, ht⟩ (2 : Fin 3) * 512 ≤ (i 2).val ∧ (i 2).val < win0_4.index ⟨5 * (i 0).val + 4, ht⟩ (2 : Fin 3) * 512 + 512
    rw [e42]; omega

/-- The column sums of squares after the region: per core i and column c, the sum of y² over the core's five row
    blocks. -/
theorem arr0_4 (c : Dev nD) (i : Fin 2) (c' : Fin 512) :
    (dat0 V c).arrAt 4 cfg0.N (ix3 i (0 : Fin 1) c')
      = ∑ u : Fin 5, ∑ r : Fin 5000, (∑ k : Fin 512, xa V c (ix2 (row5 i u r) k) * wa V c (ix2 c' k))
          * (∑ k : Fin 512, xa V c (ix2 (row5 i u r) k) * wa V c (ix2 c' k)) :=
  congrFun ((dat0 V c).arrAt_eq_of_cover 4 (G4 V c) (flushed4_eq V c) cover4) (ix3 i (0 : Fin 1) c')

end Cert.KernelIdeal.KV

end
-- ==== Proof.Consts.lean ====
/-
  The float constants the two programs spell, as the extended reals their patterns denote: the kernel writes the
  number of entries of a group as one single-precision literal 800000, the reference as the product of the
  literals 50000 and 16; both are the real 800000. Stated once here so that no other module unfolds a pattern.
-/
import proofs.«172976_g2000506936419697_pallasbulk_901_21_alg».proof.Proof.Spec

noncomputable section

namespace Cert.GN

open Idealize.ShloMosaic

/-- The pattern of 800000.0 denotes the real 800000. -/
theorem ofBits_cnt : Ideal.ofBits .f32 0x49435000#32 = cnt := by
  unfold cnt
  simp [Ideal.ofBits, Ideal.ieee, -EReal.coe_mul]; norm_num

/-- The pattern of 50000.0 denotes the real 50000. -/
theorem ofBits_50000 : Ideal.ofBits .f32 0x47435000#32 = ((50000 : ℝ) : EReal) := by
  simp [Ideal.ofBits, Ideal.ieee, -EReal.coe_mul]; norm_num

/-- The pattern of 16.0 denotes the real 16. -/
theorem ofBits_16 : Ideal.ofBits .f32 0x41800000#32 = ((16 : ℝ) : EReal) := by
  simp [Ideal.ofBits, Ideal.ieee, -EReal.coe_mul]; norm_num

/-- 50000 · 16 = 800000 on the extended reals. -/
theorem ofBits_cnt_mul : Ideal.ofBits .f32 0x47435000#32 * Ideal.ofBits .f32 0x41800000#32 = cnt := by
  rw [ofBits_50000, ofBits_16, ← EReal.coe_mul]; unfold cnt; norm_num

end Cert.GN

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Alg.lean ====
/-
  Finite-sum identities over the extended reals used to bring both arrangements of the statistics to the common
  form: cutting the 50000 rows in tiles (2 · 5 tiles of 5000 rows, or 49 tiles of 1024 rows of which the last 176
  rows are zero) does not change a column's total, and a group's total of 16 consecutive channels can be read either
  as a product with a 0/1 matrix or as a row sum of the [32,16] reshape. Only regrouping and reordering of finite sums
  is used, together with x · 1 = x and x · 0 = 0; no distributivity.
-/
import proofs.«172976_g2000506936419697_pallasbulk_901_21_alg».proof.Proof.Spec

noncomputable section

namespace Cert.GN

open Idealize.ShloMosaic

/-- The group of channel j of group g is g. -/
theorem grp_chan (g : Fin 32) (j : Fin 16) : grp (chan g j) = g := by
  apply Fin.ext
  show (16 * g.val + j.val) / 16 = g.val
  omega

/-- The group of a channel is its quotient by 16. -/
theorem grp_rowmajor (c : Fin 512) : (⟨c.val / 16, by omega⟩ : Fin 32) = grp c := rfl

/-- (i, u, r) ↦ 5000·(5·i + u) + r is a bijection of 2 × 5 × 5000 onto the 50000 rows. -/
def tiles5Equiv : (Fin 2 × Fin 5 × Fin 5000) ≃ Fin 50000 where
  toFun p := row5 p.1 p.2.1 p.2.2
  invFun x := (⟨x.val / 25000, by omega⟩, ⟨x.val / 5000 % 5, by omega⟩, ⟨x.val % 5000, by omega⟩)
  left_inv := by
    rintro ⟨i, u, r⟩
    refine Prod.ext (Fin.ext ?_) (Prod.ext (Fin.ext ?_) (Fin.ext ?_))
    · show (5000 * (5 * i.val + u.val) + r.val) / 25000 = i.val
      omega
    · show (5000 * (5 * i.val + u.val) + r.val) / 5000 % 5 = u.val
      omega
    · show (5000 * (5 * i.val + u.val) + r.val) % 5000 = r.val
      omega
  right_inv := by
    intro x
    apply Fin.ext
    show 5000 * (5 * (x.val / 25000) + x.val / 5000 % 5) + x.val % 5000 = x.val
    omega

/-- A sum over the rows, tile by tile in 2 · 5 tiles of 5000 rows, is the sum over all rows. -/
theorem sum_tiles5 (f : Fin 50000 → EReal) :
    ∑ i : Fin 2, ∑ u : Fin 5, ∑ r : Fin 5000, f (row5 i u r) = ∑ r : Fin 50000, f r := by
  rw [← Fintype.sum_equiv tiles5Equiv (fun p => f (row5 p.1 p.2.1 p.2.2)) f (fun _ => rfl)]
  rw [Fintype.sum_prod_type]
  refine Finset.sum_congr rfl fun i _ => ?_
  rw [Fintype.sum_prod_type]

/-- (t, r) ↦ 1024·t + r is a bijection of 49 × 1024 onto the 50176 padded rows. -/
def tiles49Equiv : (Fin 49 × Fin 1024) ≃ Fin 50176 where
  toFun p := row49 p.1 p.2
  invFun x := (⟨x.val / 1024, by omega⟩, ⟨x.val % 1024, by omega⟩)
  left_inv := by
    rintro ⟨t, r⟩
    refine Prod.ext (Fin.ext ?_) (Fin.ext ?_)
    · show (1024 * t.val + r.val) / 1024 = t.val
      omega
    · show (1024 * t.val + r.val) % 1024 = r.val
      omega
  right_inv := by
    intro x
    apply Fin.ext
    show 1024 * (x.val / 1024) + x.val % 1024 = x.val
    omega

/-- A sum over the padded rows, tile by tile in 49 tiles of 1024 rows, of a function that agrees with f on the first
50000 rows and vanishes on the 176 appended ones, is the sum of f over the 50000 rows. -/
theorem sum_tiles49 (f : Fin 50000 → EReal) (fp : Fin 50176 → EReal)
    (hlo : ∀ (x : Fin 50176) (h : x.val < 50000), fp x = f ⟨x.val, h⟩)
    (hhi : ∀ x : Fin 50176, 50000 ≤ x.val → fp x = 0) :
    ∑ t : Fin 49, ∑ r : Fin 1024, fp (row49 t r) = ∑ r : Fin 50000, f r := by
  have h1 : ∑ t : Fin 49, ∑ r : Fin 1024, fp (row49 t r) = ∑ x : Fin 50176, fp x := by
    rw [← Fintype.sum_equiv tiles49Equiv (fun p => fp (row49 p.1 p.2)) fp (fun _ => rfl)]
    rw [Fintype.sum_prod_type]
  have h2 : ∑ x : Fin 50176, fp x
      = ∑ i : Fin 50000, fp (Fin.castAdd 176 i) + ∑ i : Fin 176, fp (Fin.natAdd 50000 i) :=
    Fin.sum_univ_add (M := EReal) (a := 50000) (b := 176) fp
  have h3 : ∑ i : Fin 176, fp (Fin.natAdd 50000 i) = 0 :=
    Finset.sum_eq_zero fun i _ => hhi _ (Nat.le_add_right 50000 i.val)
  have h4 : ∑ i : Fin 50000, fp (Fin.castAdd 176 i) = ∑ r : Fin 50000, f r :=
    Finset.sum_congr rfl fun i _ => hlo (Fin.castAdd 176 i) i.isLt
  rw [h1, h2, h3, h4, add_zero]

/-- (g, j) ↦ 16·g + j is a bijection of 32 × 16 onto the 512 channels. -/
def chanEquiv : (Fin 32 × Fin 16) ≃ Fin 512 where
  toFun p := chan p.1 p.2
  invFun c := (grp c, ⟨c.val % 16, by omega⟩)
  left_inv := by
    rintro ⟨g, j⟩
    refine Prod.ext (Fin.ext ?_) (Fin.ext ?_)
    · show (16 * g.val + j.val) / 16 = g.val
      omega
    · show (16 * g.val + j.val) % 16 = j.val
      omega
  right_inv := by
    intro c
    apply Fin.ext
    show 16 * (c.val / 16) + c.val % 16 = c.val
    omega

/-- The product of the per-channel row with column g of the 0/1 group-membership matrix is the total of group g. -/
theorem sum_onehot_group (s : Fin 512 → EReal) (g : Fin 32) :
    ∑ c : Fin 512, s c * (if grp c = g then (1 : EReal) else 0) = gsum s g := by
  rw [← Fintype.sum_equiv chanEquiv
    (fun p => s (chan p.1 p.2) * (if grp (chan p.1 p.2) = g then (1 : EReal) else 0)) _ (fun _ => rfl)]
  rw [Fintype.sum_prod_type]
  simp only [grp_chan]
  rw [Finset.sum_eq_single g]
  · simp only [if_true, mul_one]
    rfl
  · intro b _ hb
    simp only [if_neg hb, mul_zero, Finset.sum_const_zero]
  · intro h
    exact absurd (Finset.mem_univ g) h

/-- The product of a per-group row with row c of the transposed 0/1 matrix picks the entry of c's group. -/
theorem sum_onehot_pick (v : Fin 32 → EReal) (c : Fin 512) :
    ∑ g : Fin 32, v g * (if grp c = g then (1 : EReal) else 0) = v (grp c) := by
  rw [Finset.sum_eq_single (grp c)]
  · simp only [if_true, mul_one]
  · intro b _ hb
    rw [if_neg (Ne.symm hb), mul_zero]
  · intro h
    exact absurd (Finset.mem_univ (grp c)) h

/-- A row of zeros times anything sums to zero. -/
theorem sum_zero_mul (w : Fin 512 → EReal) : ∑ k : Fin 512, (0 : EReal) * w k = 0 :=
  Finset.sum_eq_zero fun k _ => zero_mul (w k)

/-- Row g of the row-major [32,16] reshape of a [512] row sums to the total of group g. -/
theorem gsum_reshape (s : Fin 512 → EReal) (g : Fin 32) :
    ∑ j : Fin 16, s ⟨g.val * 16 + j.val, by omega⟩ = gsum s g := by
  refine Finset.sum_congr rfl fun j _ => ?_
  congr 1
  apply Fin.ext
  show g.val * 16 + j.val = 16 * g.val + j.val
  omega

end Cert.GN

end
-- ==== Proof.KV1Pay.lean ====
/-
  The values the second kernel computes, at an index, on the extended reals.

  The kernel folds the 512 per-channel sums to 32 groups by a product with a 0/1 matrix M (M(c, g) = 1 when channel c
  lies in group g, that is when c / 16 = g), divides by the number of entries of a group to get each group's mean
  and second moment, forms the reciprocal standard deviation, and spreads the per-group rows back over the channels
  by a product with the transpose of M. Here each of these steps is read at an index: M itself (an integer
  comparison of an iota's quotient with an iota, checked on all 512 · 32 pairs), the two products (a sum with one
  non-zero term per group, or exactly one non-zero term), and the pointwise operations. The results are the
  quantities of the common form: mean, the second moment, scale, bias, and the leaky rectifier of y·scale + bias.
-/
import proofs.«172976_g2000506936419697_pallasbulk_901_21_alg».proof.Proof.Gen.KernelIdeal.Skeleton
import proofs.«172976_g2000506936419697_pallasbulk_901_21_alg».proof.Proof.Spec
import proofs.«172976_g2000506936419697_pallasbulk_901_21_alg».proof.Proof.Consts
import proofs.«172976_g2000506936419697_pallasbulk_901_21_alg».proof.Proof.LibPlainDot
import proofs.«172976_g2000506936419697_pallasbulk_901_21_alg».proof.Proof.LibKeepdims
import proofs.«172976_g2000506936419697_pallasbulk_901_21_alg».proof.Proof.Alg
import Idealize.ShloMosaic.Lib.ValueLayout
import Idealize.ShloMosaic.Lib.Pipeline.Value

noncomputable section

namespace Cert.KernelIdeal.KW

open Idealize.ShloMosaic Idealize.ShloMosaic.ValueIdx
open Cert.KernelIdeal Cert.KernelIdeal.Gen Cert.GN

/-! ## The 0/1 group-membership matrix -/

/-- The integer word the kernel builds from a channel number `a` and a group number `b`: the quotient of `a` by 16
    rounded towards minus infinity (the truncated quotient, less one when the signs differ and the remainder is not
    zero), compared with `b`, as a 32-bit 0 or 1. -/
def memWord (a b : BitVec 32) : BitVec 32 :=
  (IntOp.cmpi .eq
    (Scalar.select
      (IntOp.andi
        (IntOp.cmpi .ne
          (IntOp.subi ((IntOp.cmpi .sgt a 0#32).setWidth 32) ((IntOp.cmpi .slt a 0#32).setWidth 32))
          (Scalar.subi (Scalar.extui (Scalar.cmpi .sgt 16#32 0#32)) (Scalar.extui (Scalar.cmpi .slt 16#32 0#32))))
        (IntOp.cmpi .ne (IntOp.remsi .vector a 16#32) 0#32))
      (IntOp.subi (IntOp.divsi .vector a 16#32) 1#32)
      (IntOp.divsi .vector a 16#32))
    b).setWidth 32

/-- Entry (c', g) of the matrix is the integer of that word at the two coordinates. -/
theorem pay4_word (c' : Fin 512) (g : Fin 32) :
    (k1_pay4 (F := Ideal)) (ix2 c' g)
      = (((memWord (BitVec.ofNat 32 (0 * 512 + c'.val)) (BitVec.ofNat 32 (0 * 32 + g.val))).toInt : ℝ) : EReal) := rfl

/-- On a channel number below 512 and a group number below 32 the word is 1 exactly when the channel's quotient by 16
    is the group: the dividend is not negative, so the rounding correction is never selected. Checked on all
    512 · 32 pairs. -/
theorem memWord_eq : ∀ (c' : Fin 512) (g : Fin 32),
    memWord (BitVec.ofNat 32 (0 * 512 + c'.val)) (BitVec.ofNat 32 (0 * 32 + g.val))
      = if c'.val / 16 = g.val then 1#32 else 0#32 := by
  decide +kernel

/-- Entry (c', g) of the 0/1 matrix: 1 when channel c' belongs to group g, 0 otherwise. -/
theorem onehot_apply (c' : Fin 512) (g : Fin 32) :
    (k1_pay4 (F := Ideal)) (ix2 c' g) = if grp c' = g then 1 else 0 := by
  rw [pay4_word, memWord_eq]
  by_cases h : c'.val / 16 = g.val
  · have hg : grp c' = g := Fin.ext h
    have e1 : (1#32 : BitVec 32).toInt = 1 := by decide
    rw [if_pos h, if_pos hg, e1, Int.cast_one, EReal.coe_one]
  · have hg : ¬ grp c' = g := fun e => h (congrArg Fin.val e)
    have e0 : (0#32 : BitVec 32).toInt = 0 := by decide
    rw [if_neg h, if_neg hg, e0, Int.cast_zero, EReal.coe_zero]

/-- Entry (g, c') of the transposed matrix. -/
theorem onehot_transpose_apply (g : Fin 32) (c' : Fin 512) :
    transpose S32x512 [1, 0] (k1_pay4 (F := Ideal)) Facts₀.transposes_S512x32_p1_0_S32x512 (ix2 g c')
      = if grp c' = g then 1 else 0 :=
  (transpose_apply (s := S512x32) (t := S32x512) [1, 0] (k1_pay4 (F := Ideal)) Facts₀.transposes_S512x32_p1_0_S32x512
    (ix2 g c') (ix2 c' g) (fun b => by
      match b with
      | ⟨0, _⟩ => rfl
      | ⟨1, _⟩ => rfl)).trans (onehot_apply c' g)

/-! ## The two matrix products and the sum over the cores, at an index -/

/-- A sum of a three-axis array over its first axis, at (p, q): the sum over that axis. -/
theorem sum_axis0_of3_apply {a b c : ℕ} {φ : FTy} (src : FVec Ideal (⟨3, ![a, b, c]⟩ : Shape) φ) (acc : BitVec φ.bits)
    (h : (⟨3, ![a, b, c]⟩ : Shape).Reduces [0] ⟨2, ![b, c]⟩) (hφ : FKind.Formats φ) (hacc : acc = FKind.add.neutral φ hφ)
    (p : Fin b) (q : Fin c) :
    multiReduction .add [0] ⟨2, ![b, c]⟩ src acc h hφ hacc (ix2 p q) = ∑ k : Fin a, src (ix3 k p q) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The [1,512] by [512,32] product into the zero accumulator, at (0, g). -/
theorem matmul_512_32_apply (l : FVec Ideal S1x512 .f32) (w : FVec Ideal S512x32 .f32) (g : Fin 32) :
    matmul dot_S1x512_S512x32_S1x32_1_0_0_1_n_n none l w (constant S1x32 .f32 0x00000000#32) (ix2 (0 : Fin 1) g)
      = ∑ k : Fin 512, l (ix2 (0 : Fin 1) k) * w (ix2 k g) :=
  PlainDot.matmul_zero_apply 1 512 32 none l w (ix2 (0 : Fin 1) g)

/-- The [1,32] by [32,512] product into the zero accumulator, at (0, c'). -/
theorem matmul_32_512_apply (l : FVec Ideal S1x32 .f32) (w : FVec Ideal S32x512 .f32) (c' : Fin 512) :
    matmul dot_S1x32_S32x512_S1x512_1_0_0_1_n_n none l w (constant S1x512 .f32 0x00000000#32) (ix2 (0 : Fin 1) c')
      = ∑ k : Fin 32, l (ix2 (0 : Fin 1) k) * w (ix2 k c') :=
  PlainDot.matmul_zero_apply 1 32 512 none l w (ix2 (0 : Fin 1) c')

/-- A per-group row times the transposed 0/1 matrix picks, at channel c', the entry of c's group. -/
theorem pick_apply (v : FVec Ideal S1x32 .f32) (c' : Fin 512) :
    matmul dot_S1x32_S32x512_S1x512_1_0_0_1_n_n none v
        (transpose S32x512 [1, 0] (k1_pay4 (F := Ideal)) Facts₀.transposes_S512x32_p1_0_S32x512)
        (constant S1x512 .f32 0x00000000#32) (ix2 (0 : Fin 1) c')
      = v (ix2 (0 : Fin 1) (grp c')) := by
  rw [matmul_32_512_apply]
  refine (Finset.sum_congr rfl fun k _ => ?_).trans (sum_onehot_pick (fun k => v (ix2 (0 : Fin 1) k)) c')
  rw [onehot_transpose_apply]

/-- The per-channel total of the two cores' partial results. -/
abbrev tot (p : Vec Ideal S2x1x512 .f32) : Fin 512 → EReal := fun c'' => ∑ i : Fin 2, p (ix3 i (0 : Fin 1) c'')

/-- A [1,512] row as a function of the channel. -/
abbrev row (v : Vec Ideal S1x512 .f32) : Fin 512 → EReal := fun c'' => v (ix2 (0 : Fin 1) c'')

/-- The two cores' partial results added, then multiplied by the 0/1 matrix: the group's total, at (0, g). -/
theorem fold_apply (p : Vec Ideal S2x1x512 .f32) (g : Fin 32) :
    matmul dot_S1x512_S512x32_S1x32_1_0_0_1_n_n none
        (multiReduction (F := Ideal) .add [0] S1x512 p 0x00000000#32 Facts₀.reduces_S2x1x512_S1x512 (.inl rfl) rfl)
        (k1_pay4 (F := Ideal)) (constant S1x32 .f32 0x00000000#32) (ix2 (0 : Fin 1) g)
      = gsum (tot p) g := by
  rw [matmul_512_32_apply]
  refine (Finset.sum_congr rfl fun k _ => ?_).trans (sum_onehot_group (tot p) g)
  rw [onehot_apply]
  refine congrArg (· * _) ?_
  exact sum_axis0_of3_apply (a := 2) (b := 1) (c := 512) p 0x00000000#32 Facts₀.reduces_S2x1x512_S1x512 (.inl rfl) rfl 0 k

/-! ## The payloads at an index -/

section payloads

variable (p1 p2 : Vec Ideal S2x1x512 .f32) (ga be : Vec Ideal S1x512 .f32)

/-- The group means: the two cores' per-channel sums added, folded to groups by the 0/1 matrix, divided by the
    number of entries of a group. -/
theorem pay5_apply (g : Fin 32) : k1_pay5 p1 (ix2 (0 : Fin 1) g) = mean (tot p1) g := by
  show Ideal.div (matmul dot_S1x512_S512x32_S1x32_1_0_0_1_n_n none
        (multiReduction (F := Ideal) .add [0] S1x512 (shapeCast S2x1x512 p1 Facts₀.shapeCasts_S2x1x512_S2x1x512)
          0x00000000#32 Facts₀.reduces_S2x1x512_S1x512 (.inl rfl) rfl)
        (k1_pay4 (F := Ideal)) (constant S1x32 .f32 0x00000000#32) (ix2 (0 : Fin 1) g))
      (Ideal.ofBits .f32 0x49435000#32) = Ideal.div (gsum (tot p1) g) cnt
  rw [shapeCast_self, fold_apply, ofBits_cnt]

/-- The group second moments, likewise from the per-channel sums of squares. -/
theorem pay6_apply (g : Fin 32) : k1_pay6 p2 (ix2 (0 : Fin 1) g) = Ideal.div (gsum (tot p2) g) cnt := by
  show Ideal.div (matmul dot_S1x512_S512x32_S1x32_1_0_0_1_n_n none
        (multiReduction (F := Ideal) .add [0] S1x512 (shapeCast S2x1x512 p2 Facts₀.shapeCasts_S2x1x512_S2x1x512)
          0x00000000#32 Facts₀.reduces_S2x1x512_S1x512 (.inl rfl) rfl)
        (k1_pay4 (F := Ideal)) (constant S1x32 .f32 0x00000000#32) (ix2 (0 : Fin 1) g))
      (Ideal.ofBits .f32 0x49435000#32) = Ideal.div (gsum (tot p2) g) cnt
  rw [shapeCast_self, fold_apply, ofBits_cnt]

/-- The reciprocal standard deviations of the groups, as the [1,32] row the kernel forms from the two rows above. -/
theorem invrow_apply (g : Fin 32) :
    rsqrt (addf (maximumf (subf (k1_pay6 p2) (mulf (k1_pay5 p1) (k1_pay5 p1)))
        (broadcast S1x32 (Scalar.ofBits (F := Ideal) .f32 0x00000000#32)))
        (broadcast S1x32 (Scalar.ofBits (F := Ideal) .f32 0x3727C5AC#32))) (ix2 (0 : Fin 1) g)
      = inv (tot p1) (tot p2) g := by
  show Ideal.rsqrt (max (k1_pay6 p2 (ix2 (0 : Fin 1) g) - k1_pay5 p1 (ix2 (0 : Fin 1) g) * k1_pay5 p1 (ix2 (0 : Fin 1) g))
      (Ideal.ofBits .f32 0x00000000#32) + eps)
    = Ideal.rsqrt (max (Ideal.div (gsum (tot p2) g) cnt - mean (tot p1) g * mean (tot p1) g) 0 + eps)
  rw [pay5_apply, pay6_apply, Ideal.ofBits_zero_f32]

/-- The per-channel scale: γ times the reciprocal standard deviation of the channel's group. -/
theorem pay1_apply (c' : Fin 512) :
    k1_pay1 (k1_pay4 (F := Ideal)) (k1_pay5 p1) (k1_pay6 p2) ga (ix2 (0 : Fin 1) c')
      = scale (tot p1) (tot p2) (row ga) c' := by
  show shapeCast S1x512 (mulf (F := Ideal) (φ := .f32) (shapeCast S1x512 ga Facts₀.shapeCasts_S1x512_S1x512)
      (matmul dot_S1x32_S32x512_S1x512_1_0_0_1_n_n none
        (rsqrt (addf (maximumf (subf (k1_pay6 p2) (mulf (k1_pay5 p1) (k1_pay5 p1)))
          (broadcast S1x32 (Scalar.ofBits (F := Ideal) .f32 0x00000000#32)))
          (broadcast S1x32 (Scalar.ofBits (F := Ideal) .f32 0x3727C5AC#32))))
        (transpose S32x512 [1, 0] (k1_pay4 (F := Ideal)) Facts₀.transposes_S512x32_p1_0_S32x512)
        (constant S1x512 .f32 0x00000000#32))) Facts₀.shapeCasts_S1x512_S1x512 (ix2 (0 : Fin 1) c')
    = ga (ix2 (0 : Fin 1) c') * inv (tot p1) (tot p2) (grp c')
  rw [shapeCast_self, shapeCast_self, mulf_apply, pick_apply, invrow_apply]

/-- The per-channel bias: β minus the mean of the channel's group times the channel's scale. -/
theorem pay2_apply (c' : Fin 512) :
    k1_pay2 (k1_pay4 (F := Ideal)) (k1_pay5 p1) be
        (k1_pay1 (k1_pay4 (F := Ideal)) (k1_pay5 p1) (k1_pay6 p2) ga) (ix2 (0 : Fin 1) c')
      = bias (tot p1) (tot p2) (row ga) (row be) c' := by
  show shapeCast S1x512 (subf (F := Ideal) (φ := .f32) (shapeCast S1x512 be Facts₀.shapeCasts_S1x512_S1x512)
      (mulf (matmul dot_S1x32_S32x512_S1x512_1_0_0_1_n_n none (k1_pay5 p1)
          (transpose S32x512 [1, 0] (k1_pay4 (F := Ideal)) Facts₀.transposes_S512x32_p1_0_S32x512)
          (constant S1x512 .f32 0x00000000#32))
        (k1_pay1 (k1_pay4 (F := Ideal)) (k1_pay5 p1) (k1_pay6 p2) ga))) Facts₀.shapeCasts_S1x512_S1x512
      (ix2 (0 : Fin 1) c')
    = be (ix2 (0 : Fin 1) c') - mean (tot p1) (grp c') * scale (tot p1) (tot p2) (row ga) c'
  rw [shapeCast_self, shapeCast_self, subf_apply, mulf_apply, pick_apply, pay5_apply, pay1_apply]

end payloads

/-- One entry of the result block: the entry of y times the channel's scale plus its bias, through the leaky
    rectifier. -/
theorem pay3_apply (yb : Vec Ideal S5000x512 .bf16) (sc bi : Vec Ideal S1x512 .f32) (r : Fin 5000) (c' : Fin 512) :
    k1_pay3 yb sc bi (ix2 r c') = leaky (yb (ix2 r c') * sc (ix2 (0 : Fin 1) c') + bi (ix2 (0 : Fin 1) c')) := by
  have hs : broadcastTo S5000x512 sc Facts₀.broadcasts_S1x512_S5000x512 (ix2 r c') = sc (ix2 (0 : Fin 1) c') :=
    broadcastTo_1b_ab_apply (a := 5000) (b := 512) sc Facts₀.broadcasts_S1x512_S5000x512 r c'
  have hb : broadcastTo S5000x512 bi Facts₀.broadcasts_S1x512_S5000x512 (ix2 r c') = bi (ix2 (0 : Fin 1) c') :=
    broadcastTo_1b_ab_apply (a := 5000) (b := 512) bi Facts₀.broadcasts_S1x512_S5000x512 r c'
  show max
      ((shapeCast S5000x512 yb Facts₀.shapeCasts_S5000x512_S5000x512) (ix2 r c')
          * broadcastTo S5000x512 sc Facts₀.broadcasts_S1x512_S5000x512 (ix2 r c')
        + broadcastTo S5000x512 bi Facts₀.broadcasts_S1x512_S5000x512 (ix2 r c'))
      (slope * ((shapeCast S5000x512 yb Facts₀.shapeCasts_S5000x512_S5000x512) (ix2 r c')
          * broadcastTo S5000x512 sc Facts₀.broadcasts_S1x512_S5000x512 (ix2 r c')
        + broadcastTo S5000x512 bi Facts₀.broadcasts_S1x512_S5000x512 (ix2 r c')))
    = max (yb (ix2 r c') * sc (ix2 (0 : Fin 1) c') + bi (ix2 (0 : Fin 1) c'))
        (slope * (yb (ix2 r c') * sc (ix2 (0 : Fin 1) c') + bi (ix2 (0 : Fin 1) c')))
  rw [hs, hb, shapeCast_self]

end Cert.KernelIdeal.KW

end
-- ==== Proof.KV1.lean ====
/-
  From the blocks of the second kernel's grid to the whole result array.

  Each of the ten grid points writes one block of 5000 rows of the result: the block's entry (r, c') is the leaky
  rectifier of y·scale + bias at row 5000·t + r and channel c', where scale and bias are formed from the whole
  per-channel statistics and the affine parameters, the same at every point. The blocks tile the 50000 rows (row r
  lies in the block of point r / 5000), so the array ends holding, at every entry, that value of the entry of y
  above it.
-/
import proofs.«172976_g2000506936419697_pallasbulk_901_21_alg».proof.Proof.KI.Reg1
import proofs.«172976_g2000506936419697_pallasbulk_901_21_alg».proof.Proof.KV1Pay
import Idealize.ShloMosaic.Lib.Pipeline.Value

noncomputable section

namespace Cert.KernelIdeal.KW

open Idealize.ShloMosaic Idealize.ShloMosaic.ValueIdx Idealize.ShloMosaic.TcCoe Idealize.SL.Sem
open Cert.KernelIdeal Cert.KernelIdeal.Gen Cert.GN
open Idealize.ShloMosaic.Pipeline (Dat)

/-! ## One entry of a block, from the loaded values -/

/-- An entry of the block a point stores, from the point's block of y and the whole statistics and parameters. -/
theorem entry_apply (yb : Vec Ideal S5000x512 .bf16) (p1 p2 : Vec Ideal S2x1x512 .f32) (ga be : Vec Ideal S1x512 .f32)
    (r : Fin 5000) (c' : Fin 512) :
    k1_pay3 yb (k1_pay1 (k1_pay4 (F := Ideal)) (k1_pay5 p1) (k1_pay6 p2) ga)
        (k1_pay2 (k1_pay4 (F := Ideal)) (k1_pay5 p1) be (k1_pay1 (k1_pay4 (F := Ideal)) (k1_pay5 p1) (k1_pay6 p2) ga))
        (ix2 r c')
      = apply1 (tot p1) (tot p2) (row ga) (row be) (yb (ix2 r c')) c' := by
  rw [pay3_apply, pay1_apply, pay2_apply]
  rfl

/-! ## The arrays the region finds -/

-- the buffer contents of a core when the region is entered
variable (V : (c : Dev nD) → (b : Ref sig .tc) → Buf (Elt Ideal) ((c : Thread nD τ).loc b))

/-- y, the rounded product, as the region finds it. -/
abbrev yArr (c : Dev nD) : S50000x512.Idx → EReal := V c main_v0_0
/-- The two cores' per-channel sums. -/
abbrev sumArr (c : Dev nD) : S2x1x512.Idx → EReal := V c main_v0_1
/-- The two cores' per-channel sums of squares. -/
abbrev ssqArr (c : Dev nD) : S2x1x512.Idx → EReal := V c main_v0_2
/-- γ as a [1,512] row. -/
abbrev gammaArr (c : Dev nD) : S1x512.Idx → EReal := V c main_v1
/-- β as a [1,512] row. -/
abbrev betaArr (c : Dev nD) : S1x512.Idx → EReal := V c main_v2

/-- What the result array ends holding: at (r, c') the entry of y there, normalised and rectified. -/
def outFn (c : Dev nD) : S50000x512.Idx → EReal := fun i =>
  apply1 (tot (sumArr V c)) (tot (ssqArr V c)) (row (gammaArr V c)) (row (betaArr V c)) (yArr V c i) (i 1)

/-! ## The index maps, decided over the ten points -/

/-- The blocks of y and of the result at point t are block row t; the other windows' blocks are the whole arrays. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-! ## The input blocks as parts of the arrays -/

theorem blk1_1 (c : Dev nD) : (KF.iblk1 V c 1 KF.t0 : Vec Ideal S2x1x512 .f32) = sumArr V c := by
  have hz : (fun a => win1_1.index KF.t0 a * main_v0_1.ty.shape.size a) = fun _ => 0 :=
    funext fun a => by fin_cases a <;> decide +kernel
  exact Memref.read_access_unit_zero (Elt Ideal) main_v0_1 hz (fun a => by rw [congrFun hz a]; simp) (V c main_v0_1)

theorem blk1_2 (c : Dev nD) : (KF.iblk1 V c 2 KF.t0 : Vec Ideal S2x1x512 .f32) = ssqArr V c := by
  have hz : (fun a => win1_2.index KF.t0 a * main_v0_2.ty.shape.size a) = fun _ => 0 :=
    funext fun a => by fin_cases a <;> decide +kernel
  exact Memref.read_access_unit_zero (Elt Ideal) main_v0_2 hz (fun a => by rw [congrFun hz a]; simp) (V c main_v0_2)

theorem blk1_3 (c : Dev nD) : (KF.iblk1 V c 3 KF.t0 : Vec Ideal S1x512 .f32) = gammaArr V c := by
  have hz : (fun a => win1_3.index KF.t0 a * main_v1.ty.shape.size a) = fun _ => 0 :=
    funext fun a => by fin_cases a <;> decide +kernel
  exact Memref.read_access_unit_zero (Elt Ideal) main_v1 hz (fun a => by rw [congrFun hz a]; simp) (V c main_v1)

theorem blk1_4 (c : Dev nD) : (KF.iblk1 V c 4 KF.t0 : Vec Ideal S1x512 .f32) = betaArr V c := by
  have hz : (fun a => win1_4.index KF.t0 a * main_v2.ty.shape.size a) = fun _ => 0 :=
    funext fun a => by fin_cases a <;> decide +kernel
  exact Memref.read_access_unit_zero (Elt Ideal) main_v2 hz (fun a => by rw [congrFun hz a]; simp) (V c main_v2)

/-- Entry (r, c') of the block of y at point t is entry (5000·t + r, c') of y. -/
theorem blk1_0_apply (c : Dev nD) (t : Fin cfg1.N) (r : Fin 5000) (c' : Fin 512) (k : Fin 50000)
    (hk : k.val = 5000 * t.val + r.val) :
    (KF.iblk1 V c 0 t : Vec Ideal S5000x512 .bf16) (ix2 r c') = yArr V c (ix2 k c') := by
  unfold KF.iblk1
  rw [View.read_apply]
  show V c main_v0_0 (((cfg1.win 0).blk t).view.emb (ix2 r c')) = V c main_v0_0 (ix2 k c')
  obtain ⟨e0, e1, -, -⟩ := idx_facts t
  refine congrArg (V c main_v0_0) (funext fun a => Fin.ext ?_)
  match a with
  | ⟨0, _⟩ => show win1_0.index t (0 : Fin 2) * 5000 + 1 * r.val = k.val; rw [e0, hk]; omega
  | ⟨1, _⟩ => show win1_0.index t (1 : Fin 2) * 512 + 1 * c'.val = c'.val; rw [e1]; omega

/-- The scale every point reads is the scale of the whole statistics and γ. -/
theorem scaleOf_eq (c : Dev nD) :
    KF.scaleOf V c = k1_pay1 (k1_pay4 (F := Ideal)) (k1_pay5 (sumArr V c)) (k1_pay6 (ssqArr V c)) (gammaArr V c) := by
  unfold KF.scaleOf
  rw [blk1_1, blk1_2, blk1_3]

/-- The bias every point reads, likewise. -/
theorem biasOf_eq (c : Dev nD) :
    KF.biasOf V c = k1_pay2 (k1_pay4 (F := Ideal)) (k1_pay5 (sumArr V c)) (betaArr V c)
      (k1_pay1 (k1_pay4 (F := Ideal)) (k1_pay5 (sumArr V c)) (k1_pay6 (ssqArr V c)) (gammaArr V c)) := by
  unfold KF.biasOf
  rw [scaleOf_eq, blk1_1, blk1_4]

/-! ## What a point writes back, and the cover -/

/-- Point t writes back block t of `outFn`. -/
theorem flushed_eq (c : Dev nD) (t : Fin cfg1.N) :
    (KF.dat1 V c).flushed 5 t = ((cfg1.win 5).blk t).view.read (Elt Ideal) (outFn V c) := by
  show (cfg1.win 5).cut (grid1.coords t) ((KF.dat1 V c).after 5 t) = _
  rw [KF.after1_5]
  funext j
  obtain ⟨r, c', rfl⟩ : ∃ (r : Fin 5000) (c' : Fin 512), j = ix2 r c' := ⟨j 0, j 1, eq_ix2 j⟩
  have hN : cfg1.N = 10 := N_1
  have ht : t.val < 10 := hN ▸ t.isLt
  obtain ⟨-, -, e2, e3⟩ := idx_facts t
  have hx : (cfg1.win 5).xinj (grid1.coords t) (ix2 r c') = ix2 r c' :=
    funext fun a => by
      match a with
      | ⟨0, _⟩ => rfl
      | ⟨1, _⟩ => rfl
  have he : ((cfg1.win 5).blk t).view.emb (ix2 r c') = ix2 (⟨5000 * t.val + r.val, by omega⟩ : Fin 50000) c' :=
    funext fun a => Fin.ext (by
      match a with
      | ⟨0, _⟩ => show win1_5.index t (0 : Fin 2) * 5000 + 1 * r.val = 5000 * t.val + r.val; rw [e2]; omega
      | ⟨1, _⟩ => show win1_5.index t (1 : Fin 2) * 512 + 1 * c'.val = c'.val; rw [e3]; omega)
  rw [View.read_apply]
  show k1_pay3 (KF.iblk1 V c 0 t) (KF.scaleOf V c) (KF.biasOf V c) ((cfg1.win 5).xinj (grid1.coords t) (ix2 r c'))
    = outFn V c (((cfg1.win 5).blk t).view.emb (ix2 r c'))
  rw [hx, he, scaleOf_eq, biasOf_eq]
  refine (entry_apply (KF.iblk1 V c 0 t) (sumArr V c) (ssqArr V c) (gammaArr V c) (betaArr V c) r c').trans ?_
  rw [blk1_0_apply V c t r c' ⟨5000 * t.val + r.val, by omega⟩ rfl]
  rfl

/-- An index of the result lies in point t's block iff each coordinate lies in the block's range on its axis. -/
theorem mem_blk (t : Fin cfg1.N) (i : S50000x512.Idx) :
    i ∈ ((cfg1.win 5).blk t).view.set ↔ ∀ a : Fin 2, win1_5.index t a * S5000x512.size a ≤ (i a).val
      ∧ (i a).val < win1_5.index t a * S5000x512.size a + S5000x512.size a := by
  show i ∈ ((View.whole main_v3).slice (win1_5.rect t)).set ↔ _
  rw [View.set_slice_whole, Rect.mem_set_unit]
  exact Iff.rfl

/-- Every entry of the result lies in the block of the point its row's quotient by 5000 names. -/
theorem cover (i : S50000x512.Idx) :
    ∃ t : Fin cfg1.N, (cfg1.win 5).flush t = true ∧ i ∈ ((cfg1.win 5).blk t).view.set := by
  have hN : cfg1.N = 10 := N_1
  have hi0 : (i 0).val < 50000 := idx2_lt0 i
  have hi1 : (i 1).val < 512 := idx2_lt1 i
  refine ⟨⟨(i 0).val / 5000, by rw [hN]; omega⟩, flush1_5 _, ?_⟩
  rw [mem_blk]
  obtain ⟨-, -, e2, e3⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e2]; show (i 0).val / 5000 * 5000 ≤ (i 0).val ∧ (i 0).val < (i 0).val / 5000 * 5000 + 5000; omega
  | ⟨1, _⟩ =>
    show win1_5.index _ (1 : Fin 2) * 512 ≤ (i 1).val ∧ (i 1).val < win1_5.index _ (1 : Fin 2) * 512 + 512
    rw [e3]; omega

/-- The result array after the ten points. -/
theorem final (c : Dev nD) : (KF.dat1 V c).arrAt 5 cfg1.N = outFn V c :=
  (KF.dat1 V c).arrAt_eq_of_cover 5 (outFn V c) (fun t _ => flushed_eq V c t) cover

/-- Entry (r, c') of the result array: the entry of y there times the channel's scale plus its bias, rectified. -/
theorem arr1_5 (c : Dev nD) (r : Fin 50000) (c' : Fin 512) :
    ((KF.dat1 V c).arrAt 5 cfg1.N : S50000x512.Idx → EReal) (ix2 r c')
      = apply1 (tot (sumArr V c)) (tot (ssqArr V c)) (row (gammaArr V c)) (row (betaArr V c)) (yArr V c (ix2 r c')) c' := by
  rw [final]
  rfl

end Cert.KernelIdeal.KW

end
-- ==== Proof.SpecArr.lean ====
/-
  The whole computation as one function of the four argument arrays, index by index: what both programs' result arrays
  are shown to hold.
-/
import proofs.«172976_g2000506936419697_pallasbulk_901_21_alg».proof.Proof.Spec

noncomputable section

namespace Cert.GN

open Idealize.ShloMosaic Idealize.ShloMosaic.ValueIdx

/-- The result array from the arrays x[50000,512], w[512,512], γ[512], β[512]. -/
def outArr (x : (⟨2, ![50000, 512]⟩ : Shape).Idx → EReal) (w : (⟨2, ![512, 512]⟩ : Shape).Idx → EReal)
    (g b : (⟨1, ![512]⟩ : Shape).Idx → EReal) : (⟨2, ![50000, 512]⟩ : Shape).Idx → EReal :=
  fun j => out (fun r k => x (ix2 r k)) (fun c k => w (ix2 c k)) (fun c => g (ix1 c)) (fun c => b (ix1 c)) (j 0) (j 1)

theorem outArr_apply (x : (⟨2, ![50000, 512]⟩ : Shape).Idx → EReal) (w : (⟨2, ![512, 512]⟩ : Shape).Idx → EReal)
    (g b : (⟨1, ![512]⟩ : Shape).Idx → EReal) (r : Fin 50000) (c : Fin 512) :
    outArr x w g b (ix2 r c) = out (fun r k => x (ix2 r k)) (fun c k => w (ix2 c k)) (fun c => g (ix1 c)) (fun c => b (ix1 c)) r c := rfl

end Cert.GN

end
-- ==== Proof.KFinal.lean ====
/-
  The kernel program's result array as one function of the argument arrays. The first region leaves y = x·wᵀ and,
  per core, the column sums and sums of squares of y over that core's five tiles of 5000 rows; the two reshapes put
  γ and β in a row; the second region's result at (r, c) is the leaky rectifier of y(r,c)·scale(c) + bias(c) with
  scale and bias folded from the two cores' statistics, whose totals over the cores are the sums over all 50000 rows.
-/
import proofs.«172976_g2000506936419697_pallasbulk_901_21_alg».proof.Proof.KI.Run
import proofs.«172976_g2000506936419697_pallasbulk_901_21_alg».proof.Proof.KV0
import proofs.«172976_g2000506936419697_pallasbulk_901_21_alg».proof.Proof.KV1
import proofs.«172976_g2000506936419697_pallasbulk_901_21_alg».proof.Proof.Alg
import proofs.«172976_g2000506936419697_pallasbulk_901_21_alg».proof.Proof.SpecArr
import Idealize.ShloMosaic.Lib.StableHlo.Run
import Idealize.ShloMosaic.Lib.ValueLayout

noncomputable section

namespace Cert.KernelIdeal.KFin

open Idealize.ShloMosaic Idealize.ShloMosaic.TcCoe Idealize.ShloMosaic.ValueIdx Idealize.SL.Sem
open Cert.KernelIdeal Cert.KernelIdeal.Gen Cert.KernelIdeal.KF Cert.GN

variable (m : (ℓ : Loc nD τ sig) → Buf (Elt Ideal) ℓ) (ρ : Dev nD → PrngReg)

/-- The argument arrays. -/
abbrev ax (c : Dev nD) : S50000x512.Idx → EReal := m ((c : Thread nD τ).loc main_arg0)
abbrev aw (c : Dev nD) : S512x512.Idx → EReal := m ((c : Thread nD τ).loc main_arg1)
abbrev ag (c : Dev nD) : S512.Idx → EReal := m ((c : Thread nD τ).loc main_arg2)
abbrev ab (c : Dev nD) : S512.Idx → EReal := m ((c : Thread nD τ).loc main_arg3)

/-- What the second region finds in its six arrays. -/
abbrev ey (c : Dev nD) : S50000x512.Idx → EReal := E2 m ρ c main_v0_0
abbrev e1 (c : Dev nD) : S2x1x512.Idx → EReal := E2 m ρ c main_v0_1
abbrev e2 (c : Dev nD) : S2x1x512.Idx → EReal := E2 m ρ c main_v0_2
abbrev eg (c : Dev nD) : S1x512.Idx → EReal := E2 m ρ c main_v1
abbrev eb (c : Dev nD) : S1x512.Idx → EReal := E2 m ρ c main_v2
/-- γ and β as the first region's exit holds them. -/
abbrev b1g (c : Dev nD) : S512.Idx → EReal := B1 m ρ c (Proc.devRef .tc main_arg2)
abbrev b1b (c : Dev nD) : S512.Idx → EReal := B1 m ρ c (Proc.devRef .tc main_arg3)

/-- y = x·wᵀ of the argument arrays. -/
def Y (c : Dev nD) : Fin 50000 → Fin 512 → EReal :=
  ymat (fun r k => ax m c (ix2 r k)) (fun c' k => aw m c (ix2 c' k))

/-! ## The second region's entry contents -/

theorem E2_v0_0 (c : Dev nD) : E2 m ρ c main_v0_0 = (dat0 (E0 m ρ) c).arrAt 2 cfg0.N :=
  (B2_main_v0_0 m ρ c).trans (B1_arr m ρ c 2)
theorem E2_v0_1 (c : Dev nD) : E2 m ρ c main_v0_1 = (dat0 (E0 m ρ) c).arrAt 3 cfg0.N :=
  (B2_main_v0_1 m ρ c).trans (B1_arr m ρ c 3)
theorem E2_v0_2 (c : Dev nD) : E2 m ρ c main_v0_2 = (dat0 (E0 m ρ) c).arrAt 4 cfg0.N :=
  (B2_main_v0_2 m ρ c).trans (B1_arr m ρ c 4)

/-- The first array the second region reads is y. -/
theorem ey_apply (c : Dev nD) (r : Fin 50000) (c' : Fin 512) : ey m ρ c (ix2 r c') = Y m c r c' :=
  (congrFun (E2_v0_0 m ρ c) (ix2 r c')).trans (KV.arr0_2 (E0 m ρ) c r c')

/-- The two cores' column sums of y add up to the column sums over all rows. -/
theorem tot1_eq (c : Dev nD) :
    (fun c'' : Fin 512 => ∑ i : Fin 2, e1 m ρ c (ix3 i (0 : Fin 1) c'')) = colsum (Y m c) := by
  funext c''
  have h : ∀ i : Fin 2, e1 m ρ c (ix3 i (0 : Fin 1) c'') = ∑ u : Fin 5, ∑ r : Fin 5000, Y m c (row5 i u r) c'' :=
    fun i => (congrFun (E2_v0_1 m ρ c) (ix3 i (0 : Fin 1) c'')).trans (KV.arr0_3 (E0 m ρ) c i c'')
  rw [Finset.sum_congr rfl fun i _ => h i]
  exact sum_tiles5 (fun r => Y m c r c'')

/-- The same for the sums of squares. -/
theorem tot2_eq (c : Dev nD) :
    (fun c'' : Fin 512 => ∑ i : Fin 2, e2 m ρ c (ix3 i (0 : Fin 1) c'')) = colsq (Y m c) := by
  funext c''
  have h : ∀ i : Fin 2, e2 m ρ c (ix3 i (0 : Fin 1) c'')
      = ∑ u : Fin 5, ∑ r : Fin 5000, Y m c (row5 i u r) c'' * Y m c (row5 i u r) c'' :=
    fun i => (congrFun (E2_v0_2 m ρ c) (ix3 i (0 : Fin 1) c'')).trans (KV.arr0_4 (E0 m ρ) c i c'')
  rw [Finset.sum_congr rfl fun i _ => h i]
  exact sum_tiles5 (fun r => Y m c r c'' * Y m c r c'')

/-- The reshaped γ is γ in a row. -/
theorem eg_eq (c : Dev nD) : eg m ρ c = shapeCast S1x512 (b1g m ρ c) Facts₀.shapeCasts_S512_S1x512 := by
  dsimp only [eg, b1g, E2, B2, Gen.hostOps1]
  after_results
  rfl
theorem eb_eq (c : Dev nD) : eb m ρ c = shapeCast S1x512 (b1b m ρ c) Facts₀.shapeCasts_S512_S1x512 := by
  dsimp only [eb, b1b, E2, B2, Gen.hostOps1]
  after_results
  rfl

theorem eg_apply (c : Dev nD) (c' : Fin 512) : eg m ρ c (ix2 (0 : Fin 1) c') = ag m c (ix1 c') := by
  rw [eg_eq, shapeCast_a_1a_apply]
  exact congrFun (B1_of_ne m ρ c main_arg2 (by decide)) (ix1 c')
theorem eb_apply (c : Dev nD) (c' : Fin 512) : eb m ρ c (ix2 (0 : Fin 1) c') = ab m c (ix1 c') := by
  rw [eb_eq, shapeCast_a_1a_apply]
  exact congrFun (B1_of_ne m ρ c main_arg3 (by decide)) (ix1 c')

/-! ## The result -/

/-- The result array is the common function of the arguments, given what the second region leaves in terms of the
    arrays it finds. -/
theorem kernel_result_of (c : Dev nD)
    (h5 : ∀ (r : Fin 50000) (c' : Fin 512), (dat1 (E2 m ρ) c).arrAt 5 cfg1.N (ix2 r c')
      = apply1 (fun c'' => ∑ i : Fin 2, e1 m ρ c (ix3 i (0 : Fin 1) c'')) (fun c'' => ∑ i : Fin 2, e2 m ρ c (ix3 i (0 : Fin 1) c''))
          (fun c'' => eg m ρ c (ix2 (0 : Fin 1) c'')) (fun c'' => eb m ρ c (ix2 (0 : Fin 1) c'')) (ey m ρ c (ix2 r c')) c') :
    @Eq (S50000x512.Idx → EReal) (B3 m ρ c (Proc.devRef .tc main_v3))
      (outArr (m ((c : Thread nD τ).loc main_arg0)) (m ((c : Thread nD τ).loc main_arg1))
        (m ((c : Thread nD τ).loc main_arg2)) (m ((c : Thread nD τ).loc main_arg3))) := by
  funext j
  obtain ⟨r, c', rfl⟩ : ∃ (r : Fin 50000) (c' : Fin 512), j = ix2 r c' := ⟨j 0, j 1, eq_ix2 j⟩
  refine (congrFun (B3_arr m ρ c 5) (ix2 r c')).trans ?_
  rw [h5 r c', tot1_eq, tot2_eq, ey_apply, outArr_apply]
  have hg : (fun c'' : Fin 512 => eg m ρ c (ix2 (0 : Fin 1) c'')) = fun c'' => ag m c (ix1 c'') := funext fun c'' => eg_apply m ρ c c''
  have hb : (fun c'' : Fin 512 => eb m ρ c (ix2 (0 : Fin 1) c'')) = fun c'' => ab m c (ix1 c'') := funext fun c'' => eb_apply m ρ c c''
  rw [hg, hb]
  rfl

/-- The kernel program's result array is the common function of its four arguments. -/
theorem kernel_result (c : Dev nD) :
    @Eq (S50000x512.Idx → EReal) (B3 m ρ c (Proc.devRef .tc main_v3))
      (outArr (m ((c : Thread nD τ).loc main_arg0)) (m ((c : Thread nD τ).loc main_arg1))
        (m ((c : Thread nD τ).loc main_arg2)) (m ((c : Thread nD τ).loc main_arg3))) :=
  kernel_result_of m ρ c (fun r c' => KW.arr1_5 (E2 m ρ) c r c')

end Cert.KernelIdeal.KFin

end
-- ==== Proof.RRun.lean ====
/-
  The reference's run with its result named: every weakly fair execution of the reference ends, and its result array
  holds what the last boundary of the fold of buffer contents through its segments gives (the slice of what the second
  region leaves), the arguments as launched. The launch is the one the generated frame makes over the same segments;
  only the reading of the final state asks for one more buffer.
-/
import proofs.«172976_g2000506936419697_pallasbulk_901_21_alg».proof.Proof.Gen.ReferenceIdeal.Frame

set_option maxRecDepth 16384

noncomputable section

namespace Cert.ReferenceIdeal.RR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault; the result buffer ends at the last
    boundary's contents and every argument as launched. -/
theorem run : θ_run defs (onTc (τ := τ) (main (F := F))) ⟨m, fun _ => 0, ρ⟩ (fun r => ∀ c : Dev nD,
      r.2.mem ((c.tc : Thread nD τ).loc main_v29) = W7 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v29 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.ReferenceIdeal.RR

end
-- ==== Proof.RV1.lean ====
/-
  The values the reference's second region leaves, over the extended reals: with y the product of the padded x and
  the transposed w, the result array holds at (x, c') the leaky rectifier of y(x, c') times the channel's scale plus
  the channel's bias. The region writes the result in 49 blocks of 1024 rows; block t is a function of rows
  1024 t … 1024 t + 1023 of the padded x, of the whole transposed w and of the two per-channel rows.
-/
import proofs.«172976_g2000506936419697_pallasbulk_901_21_alg».proof.Proof.Gen.ReferenceIdeal.Frame
import proofs.«172976_g2000506936419697_pallasbulk_901_21_alg».proof.Proof.Spec
import proofs.«172976_g2000506936419697_pallasbulk_901_21_alg».proof.Proof.LibPlainDot
import proofs.«172976_g2000506936419697_pallasbulk_901_21_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RV

open Idealize.ShloMosaic Idealize.ShloMosaic.TcCoe Idealize.SL.Sem
open Idealize.ShloMosaic.Pipeline (Dat)
open Idealize.ShloMosaic.ValueIdx
open Cert.ReferenceIdeal Cert.ReferenceIdeal.Gen Cert.GN

variable (V : (c : Dev nD) → (b : Ref sig .tc) → Buf (Elt Ideal) ((c : Thread nD τ).loc b))

/-- The four arrays the two regions read, as functions of an index: the padded x, the transposed w, and the
    per-channel scale and bias rows of the second region. -/
abbrev xpad (c : Dev nD) : S50176x512.Idx → EReal := V c main_v0
abbrev wt (c : Dev nD) : S512x512.Idx → EReal := V c main_v1
abbrev sclRow (c : Dev nD) : S1x512.Idx → EReal := V c main_v26
abbrev biasRow (c : Dev nD) : S1x512.Idx → EReal := V c main_v27

/-- Entry (x, c') of the padded x times the transposed w. -/
def ypad (c : Dev nD) (x : Fin 50176) (c' : Fin 512) : EReal :=
  ∑ k : Fin 512, xpad V c (ix2 x k) * wt V c (ix2 k c')

theorem hz : (![0, 0] : Fin 2 → Nat) = fun _ => 0 := funext fun a => by fin_cases a <;> rfl

/-- The second region's stored value at (r, c'): the leaky rectifier of the row-by-column product times the
    channel's scale plus its bias. -/
theorem pay1_apply (v0 : Vec Ideal S1024x512 .f32) (v2 : Vec Ideal S512x512 .f32) (v5 v9 : Vec Ideal S1x512 .f32)
    (r : Fin 1024) (c' : Fin 512) :
    k1_pay1 v0 v2 v5 v9 (ix2 r c')
      = leaky ((∑ k : Fin 512, v0 (ix2 r k) * v2 (ix2 k c')) * v5 (ix2 (0 : Fin 1) c') + v9 (ix2 (0 : Fin 1) c')) := by
  have e1 : shapeCast S1024x512 v0 shapeCasts_S1024x512_S1024x512 = v0 := shapeCast_self _ _
  have e2 : shapeCast S512x512 v2 shapeCasts_S512x512_S512x512 = v2 := shapeCast_self _ _
  have e3 : shapeCast S1x512 v5 shapeCasts_S1x512_S1x512 = v5 := shapeCast_self _ _
  have e4 : shapeCast S1x512 v9 shapeCasts_S1x512_S1x512 = v9 := shapeCast_self _ _
  have hm := Cert.PlainDot.matmul_zero_apply 1024 512 512 (φ₁ := .f32) (φ₂ := .f32) none v0 v2 (ix2 r c')
  have hb5 := broadcastTo_1b_ab_apply (a := 1024) v5 broadcasts_S1x512_S1024x512 r c'
  have hb9 := broadcastTo_1b_ab_apply (a := 1024) v9 broadcasts_S1x512_S1024x512 r c'
  unfold k1_pay1
  rw [e1, e2, e3, e4]
  show max (_ * _ + _) (_ * (_ * _ + _)) = _
  rw [hb5, hb9]
  unfold leaky Cert.GN.slope
  exact congrArg₂ max (congrArg₂ (· + ·) (congrArg₂ (· * ·) hm rfl) rfl) (congrArg₂ (· * ·) rfl (congrArg₂ (· + ·) (congrArg₂ (· * ·) hm rfl) rfl))

/-- The block index of each window of the second region, at every point: the row blocks of x and of the result
    move with the point, the others stay. -/
theorem idx1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-- Row block t of the padded x: entry (y0, y1) of the block is entry (1024 t + y0, y1) of the array. -/
theorem iblk1_0_apply (c : Dev nD) (t : Fin cfg1.N) (y : S1024x512.Idx) (k : S50176x512.Idx)
    (hk0 : (k 0).val = 1024 * t.val + (y 0).val) (hk1 : (k 1).val = (y 1).val) :
    (iblk1 V c 0 t : Vec Ideal S1024x512 .f32) y = xpad V c k := by
  have hi := (idx1 t).1
  unfold iblk1
  rw [View.read_apply]
  show V c main_v0 _ = V c main_v0 _
  congr 1
  funext a
  apply Fin.ext
  match a with
  | ⟨0, _⟩ => show win1_0.index t 0 * 1024 + 1 * (y 0).val = (k 0).val; rw [hi.1, hk0]; omega
  | ⟨1, _⟩ => show win1_0.index t 1 * 512 + 1 * (y 1).val = (k 1).val; rw [hi.2, hk1]; omega

/-- Every point reads the whole transposed w. -/
theorem iblk1_1_apply (c : Dev nD) (t : Fin cfg1.N) (y : S512x512.Idx) :
    (iblk1 V c 1 t : Vec Ideal S512x512 .f32) y = wt V c y := by
  have hi := (idx1 t).2.1
  unfold iblk1
  rw [View.read_apply]
  show V c main_v1 _ = V c main_v1 _
  congr 1
  funext a
  apply Fin.ext
  match a with
  | ⟨0, _⟩ => show win1_1.index t 0 * 512 + 1 * (y 0).val = (y 0).val; rw [hi.1]; omega
  | ⟨1, _⟩ => show win1_1.index t 1 * 512 + 1 * (y 1).val = (y 1).val; rw [hi.2]; omega

/-- Every point reads the whole scale row. -/
theorem iblk1_2_apply (c : Dev nD) (t : Fin cfg1.N) (y : S1x512.Idx) :
    (iblk1 V c 2 t : Vec Ideal S1x512 .f32) y = sclRow V c y := by
  have hi := (idx1 t).2.2.1
  unfold iblk1
  rw [View.read_apply]
  show V c main_v26 _ = V c main_v26 _
  congr 1
  funext a
  apply Fin.ext
  match a with
  | ⟨0, _⟩ => show win1_2.index t 0 * 1 + 1 * (y 0).val = (y 0).val; rw [hi.1]; omega
  | ⟨1, _⟩ => show win1_2.index t 1 * 512 + 1 * (y 1).val = (y 1).val; rw [hi.2]; omega

/-- Every point reads the whole bias row. -/
theorem iblk1_3_apply (c : Dev nD) (t : Fin cfg1.N) (y : S1x512.Idx) :
    (iblk1 V c 3 t : Vec Ideal S1x512 .f32) y = biasRow V c y := by
  have hi := (idx1 t).2.2.2.1
  unfold iblk1
  rw [View.read_apply]
  show V c main_v27 _ = V c main_v27 _
  congr 1
  funext a
  apply Fin.ext
  match a with
  | ⟨0, _⟩ => show win1_3.index t 0 * 1 + 1 * (y 0).val = (y 0).val; rw [hi.1]; omega
  | ⟨1, _⟩ => show win1_3.index t 1 * 512 + 1 * (y 1).val = (y 1).val; rw [hi.2]; omega

/-- What the second region's result array holds at an index: the leaky rectifier of y times the channel's scale
    plus its bias. -/
def G1 (c : Dev nD) : S50176x512.Idx → EReal := fun i =>
  leaky (ypad V c (i 0) (i 1) * sclRow V c (ix2 (0 : Fin 1) (i 1)) + biasRow V c (ix2 (0 : Fin 1) (i 1)))

/-- The four input blocks of the second region at a point, at their literal vector types. -/
abbrev xb1 (c : Dev nD) (t : Fin cfg1.N) : Vec Ideal S1024x512 .f32 := iblk1 V c 0 t
abbrev wb1 (c : Dev nD) (t : Fin cfg1.N) : Vec Ideal S512x512 .f32 := iblk1 V c 1 t
abbrev sb1 (c : Dev nD) (t : Fin cfg1.N) : Vec Ideal S1x512 .f32 := iblk1 V c 2 t
abbrev bb1 (c : Dev nD) (t : Fin cfg1.N) : Vec Ideal S1x512 .f32 := iblk1 V c 3 t

/-- The stored value of point t at (r, c') is the result's entry (1024 t + r, c'). -/
theorem point1_eq (c : Dev nD) (t : Fin cfg1.N) (r : Fin 1024) (c' : Fin 512) (i : S50176x512.Idx)
    (h0 : (i 0).val = 1024 * t.val + r.val) (h1 : (i 1).val = c'.val) :
    leaky ((∑ k : Fin 512, xb1 V c t (ix2 r k) * wb1 V c t (ix2 k c')) * sb1 V c t (ix2 (0 : Fin 1) c') + bb1 V c t (ix2 (0 : Fin 1) c'))
      = G1 V c i := by
  have e1 : (i 1 : Fin 512) = c' := Fin.ext h1
  unfold G1 ypad
  rw [e1]
  exact congrArg leaky (congrArg₂ (· + ·) (congrArg₂ (· * ·)
    (Finset.sum_congr rfl fun k _ => congrArg₂ (· * ·) (iblk1_0_apply V c t (ix2 r k) (ix2 (i 0) k) h0 rfl) (iblk1_1_apply V c t (ix2 k c')))
    (iblk1_2_apply V c t (ix2 (0 : Fin 1) c'))) (iblk1_3_apply V c t (ix2 (0 : Fin 1) c')))

/-- What point t writes back is block t of G1. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S1024x512) hz, View.ld_unit_zero (S := S512x512) hz, View.ld_unit_zero (S := S1x512) hz]
  have hi := (idx1 t).2.2.2.2
  funext j
  rw [View.read_apply]
  have hj0 : (j 0).val < 1024 := (j 0).isLt
  have hj1 : (j 1).val < 512 := (j 1).isLt
  show k1_pay1 (xb1 V c t) (wb1 V c t) (sb1 V c t) (bb1 V c t) (ix2 (⟨(j 0).val, hj0⟩ : Fin 1024) (⟨(j 1).val, hj1⟩ : Fin 512)) = _
  refine (pay1_apply (xb1 V c t) (wb1 V c t) (sb1 V c t) (bb1 V c t) ⟨(j 0).val, hj0⟩ ⟨(j 1).val, hj1⟩).trans ?_
  refine point1_eq V c t ⟨(j 0).val, hj0⟩ ⟨(j 1).val, hj1⟩ _ ?_ ?_
  · show win1_4.index t 0 * 1024 + 1 * (j 0).val = 1024 * t.val + (j 0).val
    rw [hi.1]; omega
  · show win1_4.index t 1 * 512 + 1 * (j 1).val = (j 1).val
    rw [hi.2]; omega

/-- An index of the result array is in point t's block iff its row is among the block's 1024 rows. -/
theorem mem_blk1 (t : Fin cfg1.N) (i : S50176x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v28).slice (win1_4.rect t)).set ↔ _
  rw [View.set_slice_whole, Rect.mem_set_unit]
  exact Iff.rfl

/-- The result array of the second region. -/
theorem final1 (c : Dev nD) : (dat1 V c).arrAt 4 cfg1.N = G1 V c :=
  (dat1 V c).arrAt_eq_of_cover 4 (G1 V c) (fun t _ => flushed1_eq V c t) fun i => by
    have hi0 : (i 0).val < 50176 := (i 0).isLt
    have hi1 : (i 1).val < 512 := (i 1).isLt
    have hN : cfg1.N = 49 := N_1
    refine ⟨⟨(i 0).val / 1024, by rw [hN]; omega⟩, flush1_4 _, ?_⟩
    rw [mem_blk1]
    have hi := (idx1 ⟨(i 0).val / 1024, by rw [hN]; omega⟩).2.2.2.2
    intro a
    match a with
    | ⟨0, _⟩ =>
      show win1_4.index _ 0 * 1024 ≤ (i 0).val ∧ (i 0).val < win1_4.index _ 0 * 1024 + 1024
      rw [hi.1]; dsimp only; omega
    | ⟨1, _⟩ =>
      show win1_4.index _ 1 * 512 ≤ (i 1).val ∧ (i 1).val < win1_4.index _ 1 * 512 + 512
      rw [hi.2]; omega

/-- The second region's result at (x, c'). -/
theorem arr1_4 (c : Dev nD) (x : Fin 50176) (c' : Fin 512) :
    (Gen.dat1 V c).arrAt 4 cfg1.N (ix2 x c')
      = leaky (ypad V c x c' * sclRow V c (ix2 (0 : Fin 1) c') + biasRow V c (ix2 (0 : Fin 1) c')) := by
  rw [final1 V c]
  rfl

end Cert.ReferenceIdeal.RV

end
-- ==== Proof.RV0.lean ====
/-
  The values the reference's first region leaves, over the extended reals: with y the product of the padded x and
  the transposed w, the two statistics rows hold at channel c' the sum of y(·, c') and the sum of its squares over
  all 50176 rows, taken as 49 tiles of 1024 rows. The region keeps two running rows: the first point stores zero
  rows and adds its tile's column sums, every later point adds its tile's to what the point before left, and the
  rows are written to their arrays once, after the last point; so the arrays hold the running rows after point 48,
  which an induction on the point shows to be the sums over tiles 0 … 48.
-/
import proofs.«172976_g2000506936419697_pallasbulk_901_21_alg».proof.Proof.Gen.ReferenceIdeal.Frame
import proofs.«172976_g2000506936419697_pallasbulk_901_21_alg».proof.Proof.Spec
import proofs.«172976_g2000506936419697_pallasbulk_901_21_alg».proof.Proof.RV1
import proofs.«172976_g2000506936419697_pallasbulk_901_21_alg».proof.Proof.LibPlainDot
import proofs.«172976_g2000506936419697_pallasbulk_901_21_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RV

open Idealize.ShloMosaic Idealize.ShloMosaic.TcCoe Idealize.SL.Sem Idealize.ShloMosaic.Tactic
open Idealize.ShloMosaic.Pipeline (Dat)
open Idealize.ShloMosaic.ValueIdx
open Cert.ReferenceIdeal Cert.ReferenceIdeal.Gen Cert.GN

variable (V : (c : Dev nD) → (b : Ref sig .tc) → Buf (Elt Ideal) ((c : Thread nD τ).loc b))

/-- A later point leaves in the first running row what it found there plus its block's column sums. -/
theorem out_B_2 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : ¬cond0_0 i)
    (x0 : Vec Ideal S1024x512 .f32) (x1 : Vec Ideal S512x512 .f32) (xo2 xo3 : Vec Ideal S1x512 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  rw [View.canon_unit_zero hz]
  simp only [View.readAt_eq_ld, h1.read_unread, h2.read_unread, h3.read_unread, h4.read_unread, View.ld_unit_zero (S := S1024x512) hz,
    View.ld_unit_zero (S := S512x512) hz, View.ld_unit_zero (S := S1x512) hz]

/-- A later point leaves in the second running row what it found there plus its block's column sums of squares. -/
theorem out_B_3 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : ¬cond0_0 i)
    (x0 : Vec Ideal S1024x512 .f32) (x1 : Vec Ideal S512x512 .f32) (xo2 xo3 : Vec Ideal S1x512 .f32) :
    out0_B_3 c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  rw [View.canon_unit_zero hz]
  simp only [View.readAt_eq_ld, h1.read_unread, h2.read_unread, h3.read_unread, h4.read_unread, View.ld_unit_zero (S := S1024x512) hz,
    View.ld_unit_zero (S := S512x512) hz, View.ld_unit_zero (S := S1x512) hz]

/-- The first point leaves in the first running row the zero row plus its block's column sums. -/
theorem out_A_2 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : cond0_0 i)
    (x0 : Vec Ideal S1024x512 .f32) (x1 : Vec Ideal S512x512 .f32) :
    out0_A_2 c i a1 h1 a2 h2 a3 h3 a4 h4 hc x0 x1 = k0_pay4 x0 x1 (k0_pay1 (F := Ideal)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, View.ld_unit_zero (S := S1024x512) hz,
    View.ld_unit_zero (S := S512x512) hz, View.ld_unit_zero (S := S1x512) hz]

/-- The first point leaves in the second running row the zero row plus its block's column sums of squares. -/
theorem out_A_3 (c : Dev nD) (i : grid0.Coords) (a1 : Memref sig .tc .vmem S1024x512 .f32) (h1 : a1.IsWhole)
    (a2 : Memref sig .tc .vmem S512x512 .f32) (h2 : a2.IsWhole) (a3 : Memref sig .tc .vmem S1x512 .f32) (h3 : a3.IsWhole)
    (a4 : Memref sig .tc .vmem S1x512 .f32) (h4 : a4.IsWhole) (hc : cond0_0 i)
    (x0 : Vec Ideal S1024x512 .f32) (x1 : Vec Ideal S512x512 .f32) :
    out0_A_3 c i a1 h1 a2 h2 a3 h3 a4 h4 hc x0 x1 = k0_pay5 x0 x1 (k0_pay2 (F := Ideal)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, View.ld_unit_zero (S := S1024x512) hz,
    View.ld_unit_zero (S := S512x512) hz, View.ld_unit_zero (S := S1x512) hz]

/-- The zero rows are zero. -/
theorem zero1_apply (q : Fin 512) : k0_pay1 (F := Ideal) (ix2 (0 : Fin 1) q) = 0 := Ideal.ofBits_zero_f32
theorem zero2_apply (q : Fin 512) : k0_pay2 (F := Ideal) (ix2 (0 : Fin 1) q) = 0 := Ideal.ofBits_zero_f32

/-- The block product at (r, q). -/
theorem pay3_apply (v3 : Vec Ideal S1024x512 .f32) (v5 : Vec Ideal S512x512 .f32) (r : Fin 1024) (q : Fin 512) :
    k0_pay3 v3 v5 (ix2 r q) = ∑ k : Fin 512, v3 (ix2 r k) * v5 (ix2 k q) := by
  have e1 : shapeCast S1024x512 v3 shapeCasts_S1024x512_S1024x512 = v3 := shapeCast_self _ _
  have e2 : shapeCast S512x512 v5 shapeCasts_S512x512_S512x512 = v5 := shapeCast_self _ _
  unfold k0_pay3
  rw [e1, e2]
  exact Cert.PlainDot.matmul_zero_apply 1024 512 512 (φ₁ := .f32) (φ₂ := .f32) none v3 v5 (ix2 r q)

/-- The first running row after a point, at channel q: what was there plus the column sum of the block product. -/
theorem pay4_apply (v3 : Vec Ideal S1024x512 .f32) (v5 : Vec Ideal S512x512 .f32) (v8 : Vec Ideal S1x512 .f32) (q : Fin 512) :
    k0_pay4 v3 v5 v8 (ix2 (0 : Fin 1) q)
      = v8 (ix2 (0 : Fin 1) q) + ∑ r : Fin 1024, ∑ k : Fin 512, v3 (ix2 r k) * v5 (ix2 k q) := by
  have e1 : shapeCast S1x512 v8 shapeCasts_S1x512_S1x512 = v8 := shapeCast_self _ _
  unfold k0_pay4
  rw [e1]
  show v8 _ + shapeCast S1x512 _ shapeCasts_S512_S1x512 (ix2 (0 : Fin 1) q) = _
  refine congrArg (v8 (ix2 (0 : Fin 1) q) + ·) ?_
  refine (shapeCast_a_1a_apply _ shapeCasts_S512_S1x512 (0 : Fin 1) q).trans ?_
  refine (Cert.Keepdims.sum_axis0_apply (a := 1024) (b := 512) (k0_pay3 v3 v5) 0x00000000#32 reduces_S1024x512_S512 (hφ := .inl rfl) (hacc := rfl) q).trans ?_
  exact Finset.sum_congr rfl fun r _ => pay3_apply v3 v5 r q

/-- The second running row after a point, at channel q: what was there plus the column sum of the squares of the
    block product. -/
theorem pay5_apply (v3 : Vec Ideal S1024x512 .f32) (v5 : Vec Ideal S512x512 .f32) (v14 : Vec Ideal S1x512 .f32) (q : Fin 512) :
    k0_pay5 v3 v5 v14 (ix2 (0 : Fin 1) q)
      = v14 (ix2 (0 : Fin 1) q)
        + ∑ r : Fin 1024, (∑ k : Fin 512, v3 (ix2 r k) * v5 (ix2 k q)) * (∑ k : Fin 512, v3 (ix2 r k) * v5 (ix2 k q)) := by
  have e1 : shapeCast S1x512 v14 shapeCasts_S1x512_S1x512 = v14 := shapeCast_self _ _
  unfold k0_pay5
  rw [e1]
  show v14 _ + shapeCast S1x512 _ shapeCasts_S512_S1x512 (ix2 (0 : Fin 1) q) = _
  refine congrArg (v14 (ix2 (0 : Fin 1) q) + ·) ?_
  refine (shapeCast_a_1a_apply _ shapeCasts_S512_S1x512 (0 : Fin 1) q).trans ?_
  refine (Cert.Keepdims.sum_axis0_apply (a := 1024) (b := 512) (mulf (k0_pay3 v3 v5) (k0_pay3 v3 v5)) 0x00000000#32 reduces_S1024x512_S512 (hφ := .inl rfl) (hacc := rfl) q).trans ?_
  exact Finset.sum_congr rfl fun r _ => congrArg₂ (· * ·) (pay3_apply v3 v5 r q) (pay3_apply v3 v5 r q)

/-- The block index of each window of the first region, at every point: the row blocks of x move with the point,
    the others stay. -/
theorem idx0 : ∀ t : Fin cfg0.N, (win0_0.index t (0 : Fin 2) = t.val ∧ win0_0.index t (1 : Fin 2) = 0)
    ∧ (win0_1.index t (0 : Fin 2) = 0 ∧ win0_1.index t (1 : Fin 2) = 0) :=
  (by decide +kernel : ∀ t : Fin grid0.N, _)

/-- Row block t of the padded x: entry (y0, y1) of the block is entry (1024 t + y0, y1) of the array. -/
theorem iblk0_0_apply (c : Dev nD) (t : Fin cfg0.N) (y : S1024x512.Idx) (k : S50176x512.Idx)
    (hk0 : (k 0).val = 1024 * t.val + (y 0).val) (hk1 : (k 1).val = (y 1).val) :
    (iblk0 V c 0 t : Vec Ideal S1024x512 .f32) y = xpad V c k := by
  have hi := (idx0 t).1
  unfold iblk0
  rw [View.read_apply]
  show V c main_v0 _ = V c main_v0 _
  congr 1
  funext a
  apply Fin.ext
  match a with
  | ⟨0, _⟩ => show win0_0.index t 0 * 1024 + 1 * (y 0).val = (k 0).val; rw [hi.1, hk0]; omega
  | ⟨1, _⟩ => show win0_0.index t 1 * 512 + 1 * (y 1).val = (k 1).val; rw [hi.2, hk1]; omega

/-- Every point reads the whole transposed w. -/
theorem iblk0_1_apply (c : Dev nD) (t : Fin cfg0.N) (y : S512x512.Idx) :
    (iblk0 V c 1 t : Vec Ideal S512x512 .f32) y = wt V c y := by
  have hi := (idx0 t).2
  unfold iblk0
  rw [View.read_apply]
  show V c main_v1 _ = V c main_v1 _
  congr 1
  funext a
  apply Fin.ext
  match a with
  | ⟨0, _⟩ => show win0_1.index t 0 * 512 + 1 * (y 0).val = (y 0).val; rw [hi.1]; omega
  | ⟨1, _⟩ => show win0_1.index t 1 * 512 + 1 * (y 1).val = (y 1).val; rw [hi.2]; omega

/-- The two input blocks of the first region at a point, at their literal vector types. -/
abbrev xb0 (c : Dev nD) (t : Fin cfg0.N) : Vec Ideal S1024x512 .f32 := iblk0 V c 0 t
abbrev wb0 (c : Dev nD) (t : Fin cfg0.N) : Vec Ideal S512x512 .f32 := iblk0 V c 1 t

/-- The column sum of y over the 1024 rows of tile u, and of its squares (zero past the last tile). -/
def tile (c : Dev nD) (c' : Fin 512) (u : ℕ) : EReal :=
  if h : u < 49 then ∑ r : Fin 1024, ypad V c (row49 ⟨u, h⟩ r) c' else 0
def tileSq (c : Dev nD) (c' : Fin 512) (u : ℕ) : EReal :=
  if h : u < 49 then ∑ r : Fin 1024, ypad V c (row49 ⟨u, h⟩ r) c' * ypad V c (row49 ⟨u, h⟩ r) c' else 0

/-- The block product of point t is y on the rows of tile t. -/
theorem yblk_eq (c : Dev nD) (t : Fin cfg0.N) (ht : t.val < 49) (r : Fin 1024) (c' : Fin 512) :
    (∑ k : Fin 512, xb0 V c t (ix2 r k) * wb0 V c t (ix2 k c')) = ypad V c (row49 ⟨t.val, ht⟩ r) c' := by
  unfold ypad
  exact Finset.sum_congr rfl fun k _ =>
    congrArg₂ (· * ·) (iblk0_0_apply V c t (ix2 r k) (ix2 (row49 ⟨t.val, ht⟩ r) k) rfl rfl) (iblk0_1_apply V c t (ix2 k c'))

theorem tile_eq (c : Dev nD) (t : Fin cfg0.N) (c' : Fin 512) :
    (∑ r : Fin 1024, ∑ k : Fin 512, xb0 V c t (ix2 r k) * wb0 V c t (ix2 k c')) = tile V c c' t.val := by
  have ht : t.val < 49 := lt_of_lt_of_eq t.isLt (show cfg0.N = 49 from N_0)
  unfold tile
  rw [dif_pos ht]
  exact Finset.sum_congr rfl fun r _ => yblk_eq V c t ht r c'

theorem tileSq_eq (c : Dev nD) (t : Fin cfg0.N) (c' : Fin 512) :
    (∑ r : Fin 1024, (∑ k : Fin 512, xb0 V c t (ix2 r k) * wb0 V c t (ix2 k c')) * (∑ k : Fin 512, xb0 V c t (ix2 r k) * wb0 V c t (ix2 k c')))
      = tileSq V c c' t.val := by
  have ht : t.val < 49 := lt_of_lt_of_eq t.isLt (show cfg0.N = 49 from N_0)
  unfold tileSq
  rw [dif_pos ht]
  exact Finset.sum_congr rfl fun r _ => congrArg₂ (· * ·) (yblk_eq V c t ht r c') (yblk_eq V c t ht r c')

/-- After point n the first running row holds, at channel c', the column sums of tiles 0 … n. -/
theorem acc2 (c : Dev nD) (c' : Fin 512) : ∀ (n : ℕ) (h : n < cfg0.N),
    (outsAt0 V c n h).1 (ix2 (0 : Fin 1) c') = ∑ u ∈ Finset.range (n + 1), tile V c c' u
  | 0, h => by
    rw [outsAt0_A V c ⟨0, h⟩ rfl]
    dsimp only
    rw [out_A_2]
    refine (pay4_apply (xb0 V c ⟨0, h⟩) (wb0 V c ⟨0, h⟩) (k0_pay1 (F := Ideal)) c').trans ?_
    rw [zero1_apply, zero_add, tile_eq V c ⟨0, h⟩ c', Finset.sum_range_one]
  | n + 1, h => by
    have hN : cfg0.N = 49 := N_0
    have h' : n + 1 < 49 := lt_of_lt_of_eq h hN
    have hB : ¬(⟨n + 1, h⟩ : Fin cfg0.N).val % 49 = 0 := by dsimp only; omega
    rw [outsAt0_B V c ⟨n + 1, h⟩ hB]
    dsimp only
    rw [out_B_2]
    refine (pay4_apply (xb0 V c ⟨n + 1, h⟩) (wb0 V c ⟨n + 1, h⟩) (outsAt0 V c n (Nat.lt_of_succ_lt h)).1 c').trans ?_
    rw [acc2 c c' n (Nat.lt_of_succ_lt h), tile_eq V c ⟨n + 1, h⟩ c', Finset.sum_range_succ _ (n + 1)]

/-- After point n the second running row holds, at channel c', the column sums of squares of tiles 0 … n. -/
theorem acc3 (c : Dev nD) (c' : Fin 512) : ∀ (n : ℕ) (h : n < cfg0.N),
    (outsAt0 V c n h).2 (ix2 (0 : Fin 1) c') = ∑ u ∈ Finset.range (n + 1), tileSq V c c' u
  | 0, h => by
    rw [outsAt0_A V c ⟨0, h⟩ rfl]
    dsimp only
    rw [out_A_3]
    refine (pay5_apply (xb0 V c ⟨0, h⟩) (wb0 V c ⟨0, h⟩) (k0_pay2 (F := Ideal)) c').trans ?_
    rw [zero2_apply, zero_add, tileSq_eq V c ⟨0, h⟩ c', Finset.sum_range_one]
  | n + 1, h => by
    have hN : cfg0.N = 49 := N_0
    have h' : n + 1 < 49 := lt_of_lt_of_eq h hN
    have hB : ¬(⟨n + 1, h⟩ : Fin cfg0.N).val % 49 = 0 := by dsimp only; omega
    rw [outsAt0_B V c ⟨n + 1, h⟩ hB]
    dsimp only
    rw [out_B_3]
    refine (pay5_apply (xb0 V c ⟨n + 1, h⟩) (wb0 V c ⟨n + 1, h⟩) (outsAt0 V c n (Nat.lt_of_succ_lt h)).2 c').trans ?_
    rw [acc3 c c' n (Nat.lt_of_succ_lt h), tileSq_eq V c ⟨n + 1, h⟩ c', Finset.sum_range_succ _ (n + 1)]

/-- The sums over the 49 tiles, by tile number. -/
theorem sum_tile (c : Dev nD) (c' : Fin 512) :
    ∑ u ∈ Finset.range 49, tile V c c' u = ∑ t : Fin 49, ∑ r : Fin 1024, ypad V c (row49 t r) c' := by
  rw [← Fin.sum_univ_eq_sum_range (fun u => tile V c c' u) 49]
  exact Finset.sum_congr rfl fun t _ => by unfold tile; rw [dif_pos t.isLt]
theorem sum_tileSq (c : Dev nD) (c' : Fin 512) :
    ∑ u ∈ Finset.range 49, tileSq V c c' u = ∑ t : Fin 49, ∑ r : Fin 1024, ypad V c (row49 t r) c' * ypad V c (row49 t r) c' := by
  rw [← Fin.sum_univ_eq_sum_range (fun u => tileSq V c c' u) 49]
  exact Finset.sum_congr rfl fun t _ => by unfold tileSq; rw [dif_pos t.isLt]

/-- The last point. -/
abbrev tLast : Fin cfg0.N := ⟨48, by rw [show cfg0.N = 49 from N_0]; decide⟩

/-- The two running rows after the last point. -/
abbrev res2 (c : Dev nD) : Buf (Elt Ideal) ((c : Thread nD τ).loc main_v2_0) := (outsAt0 V c tLast.val tLast.isLt).1
abbrev res3 (c : Dev nD) : Buf (Elt Ideal) ((c : Thread nD τ).loc main_v2_1) := (outsAt0 V c tLast.val tLast.isLt).2

/-- The one write-back of the first running row, after the last point, writes it whole. -/
theorem flushed0_2_eq (c : Dev nD) (t : Fin cfg0.N) (hf : (cfg0.win 2).flush t = true) :
    (dat0 V c).flushed 2 t = ((cfg0.win 2).blk t).view.read (Elt Ideal) (res2 V c) := by
  have hN : cfg0.N = 49 := N_0
  have h48 : t.val = 48 := by have := (flush0_2 t).mp hf; have := t.isLt; omega
  obtain rfl : t = tLast := Fin.ext h48
  show (cfg0.win 2).cut (grid0.coords tLast) ((dat0 V c).after 2 tLast) = _
  rw [after0_2]
  have hz' : (fun a => win0_2.index tLast a * main_v2_0.ty.shape.size a) = fun _ => 0 := funext fun a => by fin_cases a <;> decide
  exact (Memref.read_access_unit_zero (Elt Ideal) main_v2_0 hz' (fun a => by rw [congrFun hz' a]; simp) (res2 V c)).symm

/-- The one write-back of the second running row, after the last point, writes it whole. -/
theorem flushed0_3_eq (c : Dev nD) (t : Fin cfg0.N) (hf : (cfg0.win 3).flush t = true) :
    (dat0 V c).flushed 3 t = ((cfg0.win 3).blk t).view.read (Elt Ideal) (res3 V c) := by
  have hN : cfg0.N = 49 := N_0
  have h48 : t.val = 48 := by have := (flush0_3 t).mp hf; have := t.isLt; omega
  obtain rfl : t = tLast := Fin.ext h48
  show (cfg0.win 3).cut (grid0.coords tLast) ((dat0 V c).after 3 tLast) = _
  rw [after0_3]
  have hz' : (fun a => win0_3.index tLast a * main_v2_1.ty.shape.size a) = fun _ => 0 := funext fun a => by fin_cases a <;> decide
  exact (Memref.read_access_unit_zero (Elt Ideal) main_v2_1 hz' (fun a => by rw [congrFun hz' a]; simp) (res3 V c)).symm

/-- So the first statistics array ends holding the first running row after the last point. -/
theorem final0_2 (c : Dev nD) : (dat0 V c).arrAt 2 cfg0.N = res2 V c :=
  (dat0 V c).arrAt_eq_of_cover 2 (res2 V c) (flushed0_2_eq V c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      have h1 : (i 1 : Nat) < 512 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 512 from by decide +kernel]; omega⟩

/-- And the second statistics array the second running row after the last point. -/
theorem final0_3 (c : Dev nD) : (dat0 V c).arrAt 3 cfg0.N = res3 V c :=
  (dat0 V c).arrAt_eq_of_cover 3 (res3 V c) (flushed0_3_eq V c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      have h1 : (i 1 : Nat) < 512 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 512 from by decide +kernel]; omega⟩

/-- The first region's first result at channel c': the column sum of y over all 49 tiles of 1024 rows. -/
theorem arr0_2 (c : Dev nD) (c' : Fin 512) :
    (Gen.dat0 V c).arrAt 2 cfg0.N (ix2 (0 : Fin 1) c') = ∑ t : Fin 49, ∑ r : Fin 1024, ypad V c (row49 t r) c' := by
  rw [final0_2 V c]
  exact (acc2 V c c' 48 tLast.isLt).trans (sum_tile V c c')

/-- The first region's second result at channel c': the column sum of the squares of y over all 49 tiles. -/
theorem arr0_3 (c : Dev nD) (c' : Fin 512) :
    (Gen.dat0 V c).arrAt 3 cfg0.N (ix2 (0 : Fin 1) c')
      = ∑ t : Fin 49, ∑ r : Fin 1024, ypad V c (row49 t r) c' * ypad V c (row49 t r) c' := by
  rw [final0_3 V c]
  exact (acc3 V c c' 48 tLast.isLt).trans (sum_tileSq V c c')

end Cert.ReferenceIdeal.RV

end
-- ==== Proof.RV.lean ====
/-
  The values the reference's two regions leave: the statistics rows of the first region and the result array of the
  second, each as a function of the arrays the region reads.
-/
import proofs.«172976_g2000506936419697_pallasbulk_901_21_alg».proof.Proof.RV1
import proofs.«172976_g2000506936419697_pallasbulk_901_21_alg».proof.Proof.RV0
-- ==== Proof.RHostA.lean ====
/-
  The reference's host operations around its two regions, read as values over the extended reals: the rows appended
  before the first region are zero rows below the 50000 given ones, the second operand of the product is the
  transpose of the weights, both are kept unchanged up to the second region, and the result is the first 50000 rows
  of what the second region leaves.
-/
import proofs.«172976_g2000506936419697_pallasbulk_901_21_alg».proof.Proof.Gen.ReferenceIdeal.Frame
import proofs.«172976_g2000506936419697_pallasbulk_901_21_alg».proof.Proof.Spec
import proofs.«172976_g2000506936419697_pallasbulk_901_21_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.ReferenceIdeal.RH

open Idealize.ShloMosaic Idealize.ShloMosaic.TcCoe
open Cert.GN Idealize.ShloMosaic.ValueIdx
open Facts₀ Facts

variable (m : (ℓ : Loc nD τ sig) → Buf (Elt Ideal) ℓ) (ρ : Dev nD → PrngReg)

/-! ## The arrays, typed -/

/-- The rows as given. -/
abbrev xa (c : Dev nD) : S50000x512.Idx → EReal := m ((c : Thread nD τ).loc main_arg0)
/-- The weights as given. -/
abbrev wa (c : Dev nD) : S512x512.Idx → EReal := m ((c : Thread nD τ).loc main_arg1)
/-- The first operand of the product as the first region finds it. -/
abbrev xp3 (c : Dev nD) : S50176x512.Idx → EReal := Gen.V3 m ρ c main_v0
/-- The second operand of the product as the first region finds it. -/
abbrev wt3 (c : Dev nD) : S512x512.Idx → EReal := Gen.V3 m ρ c main_v1
/-- What the second region leaves. -/
abbrev o6 (c : Dev nD) : S50176x512.Idx → EReal := Gen.V6 m ρ c main_v28
/-- The result. -/
abbrev o7 (c : Dev nD) : S50000x512.Idx → EReal := Gen.W7 m ρ c (Proc.devRef .tc main_v29)

/-- The second operand of the product as the first region finds it, whole: the transpose of the weights. -/
theorem V3_wt_eq (c : Dev nD) :
    wt3 m ρ c = transpose S512x512 [1, 0] (wa m c) transposes_S512x512_S512x512_1_0 := by
  dsimp only [xp3, wt3, xa, wa, Gen.V3, Gen.W3, Gen.W2, Gen.W1, Gen.W0, Gen.hostOps0_2, Gen.hostOps0_1, Gen.hostOps0]
  after_results

/-- Entry (k, c') of the second operand is entry (c', k) of the weights. -/
theorem V3_wt (c : Dev nD) (k c' : Fin 512) :
    wt3 m ρ c (ix2 k c') = wa m c (ix2 c' k) := by
  rw [V3_wt_eq]
  refine transpose_apply [1, 0] _ transposes_S512x512_S512x512_1_0 (ix2 k c') (ix2 c' k) ?_
  intro b
  match b with
  | ⟨0, _⟩ => rfl
  | ⟨1, _⟩ => rfl

/-- The first operand of the product as the first region finds it, whole: the given rows with 176 rows of the
    converted integer zero appended. -/
theorem V3_pad_eq (c : Dev nD) :
    xp3 m ρ c
      = pad S50176x512 ![0, 0] ![176, 0] ![0, 0] (xa m c)
          (sitofp (F := Ideal) .f32 (constantI S_ 32 0#32)) pads_S50000x512_S50176x512_01760_000 h_S_ := by
  dsimp only [xp3, wt3, xa, wa, Gen.V3, Gen.W3, Gen.W2, Gen.W1, Gen.W0, Gen.hostOps0_2, Gen.hostOps0_1, Gen.hostOps0]
  after_results
  simp only [StableHlo.TRef.ofBuf, StableHlo.TRef.toBuf, cast_cast, cast_eq]

/-- The converted integer zero is zero. -/
theorem padval : (sitofp (F := Ideal) .f32 (constantI S_ 32 0#32) : S_.Idx → EReal) (Shape.Idx.first h_S_) = 0 := by
  rw [sitofp_apply]
  show (((0#32 : BitVec 32).toInt : ℝ) : EReal) = 0
  simp

/-- Row x of the first operand is row x of the given array below row 50000, and a zero row from there on. -/
theorem V3_pad (c : Dev nD) (x : Fin 50176) (k : Fin 512) :
    xp3 m ρ c (ix2 x k) = if h : x.val < 50000 then xa m c (ix2 (⟨x.val, h⟩ : Fin 50000) k) else (0 : EReal) := by
  rw [V3_pad_eq]
  by_cases h : x.val < 50000
  · rw [dif_pos h]
    refine pad_apply_of_inside _ _ _ _ _ pads_S50000x512_S50176x512_01760_000 h_S_ (ix2 x k) (ix2 (⟨x.val, h⟩ : Fin 50000) k) ?_
    intro a
    match a with
    | ⟨0, _⟩ => show x.val = 0 + x.val * (0 + 1); omega
    | ⟨1, _⟩ => show k.val = 0 + k.val * (0 + 1); omega
  · rw [dif_neg h]
    refine (pad_apply_of_not_inside _ _ _ _ _ pads_S50000x512_S50176x512_01760_000 h_S_ (ix2 x k) (0 : Fin 2) ?_).trans padval
    intro hin
    have e : (x.val - 0) / (0 + 1) < 50000 := hin.2.2
    omega

/-- The result is the first 50000 rows of what the second region leaves. -/
theorem W7_out_eq (c : Dev nD) :
    o7 m ρ c = extractStridedSlice S50000x512 ![0, 0] (o6 m ρ c) slices_S50176x512_S50000x512_0_0 := by
  dsimp only [o7, o6, Gen.W7, Gen.V6, Gen.hostOps2]
  after_results

theorem W7_out (c : Dev nD) (r : Fin 50000) (c' : Fin 512) :
    o7 m ρ c (ix2 r c') = o6 m ρ c (ix2 (⟨r.val, by omega⟩ : Fin 50176) c') := by
  rw [W7_out_eq]
  refine extractStridedSlice_apply ![0, 0] _ slices_S50176x512_S50000x512_0_0 (ix2 r c') (ix2 (⟨r.val, by omega⟩ : Fin 50176) c') ?_
  intro a
  match a with
  | ⟨0, _⟩ => show r.val = 0 + r.val; omega
  | ⟨1, _⟩ => show c'.val = 0 + c'.val; omega

end Cert.ReferenceIdeal.RH

end
-- ==== Proof.RHostB.lean ====
/-
  The reference's host operations between its two regions, read as values over the extended reals: the operands of
  the product are kept, and the per-channel sums and sums of squares the first region leaves are folded by groups of
  16 consecutive channels into the scale and the bias the second region applies.
-/
import proofs.«172976_g2000506936419697_pallasbulk_901_21_alg».proof.Proof.Gen.ReferenceIdeal.Frame
import proofs.«172976_g2000506936419697_pallasbulk_901_21_alg».proof.Proof.Spec
import proofs.«172976_g2000506936419697_pallasbulk_901_21_alg».proof.Proof.Consts
import proofs.«172976_g2000506936419697_pallasbulk_901_21_alg».proof.Proof.RHostA
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.ReferenceIdeal.RH

open Idealize.ShloMosaic Idealize.ShloMosaic.TcCoe
open Cert.GN Idealize.ShloMosaic.ValueIdx
open Facts₀ Facts

variable (m : (ℓ : Loc nD τ sig) → Buf (Elt Ideal) ℓ) (ρ : Dev nD → PrngReg)

/-! ## The arrays, typed -/

/-- The per-channel sums the first region leaves. -/
abbrev s1a (c : Dev nD) : S1x512.Idx → EReal := Gen.V4 m ρ c main_v2_0
/-- The per-channel sums of squares the first region leaves. -/
abbrev s2a (c : Dev nD) : S1x512.Idx → EReal := Gen.V4 m ρ c main_v2_1
/-- γ as given. -/
abbrev ga (c : Dev nD) : S512.Idx → EReal := m ((c : Thread nD τ).loc main_arg2)
/-- β as given. -/
abbrev ba (c : Dev nD) : S512.Idx → EReal := m ((c : Thread nD τ).loc main_arg3)
/-- The first operand of the product as the second region finds it. -/
abbrev xp5 (c : Dev nD) : S50176x512.Idx → EReal := Gen.V5 m ρ c main_v0
/-- The second operand of the product as the second region finds it. -/
abbrev wt5 (c : Dev nD) : S512x512.Idx → EReal := Gen.V5 m ρ c main_v1
/-- The scale row the second region finds. -/
abbrev sc5 (c : Dev nD) : S1x512.Idx → EReal := Gen.V5 m ρ c main_v26
/-- The bias row the second region finds. -/
abbrev bi5 (c : Dev nD) : S1x512.Idx → EReal := Gen.V5 m ρ c main_v27

/-- The per-channel sums as a function of the channel. -/
def S1 (c : Dev nD) (c'' : Fin 512) : EReal := s1a m ρ c (ix2 (0 : Fin 1) c'')
/-- The per-channel sums of squares as a function of the channel. -/
def S2 (c : Dev nD) (c'' : Fin 512) : EReal := s2a m ρ c (ix2 (0 : Fin 1) c'')
/-- γ as a function of the channel. -/
def γ (c : Dev nD) (c'' : Fin 512) : EReal := ga m c (ix1 c'')
/-- β as a function of the channel. -/
def β (c : Dev nD) (c'' : Fin 512) : EReal := ba m c (ix1 c'')

/-! ## The stages of the fold, over any arrays -/

section Stages

/-- The number of entries of a group as the program spells it: 50000 times 16. -/
def cntT : FVec Ideal S_ .f32 :=
  mulf (constant (F := Ideal) S_ .f32 0x47435000#32) (constant (F := Ideal) S_ .f32 0x41800000#32)

/-- A per-channel row folded to per-group totals: cut in 32 rows of 16 and summed along each row from zero. -/
def gsumT (s : FVec Ideal S1x512 .f32) : FVec Ideal S32 .f32 :=
  Host.reduceAdd (fun i => shapeCast S32x16 s shapeCasts_S1x512_S32x16 i) (constant (F := Ideal) S_ .f32 0x00000000#32)
    reducesTo_S32x16_S32_d1 h_S_

/-- The totals divided by the number of entries. -/
def meanT (s : FVec Ideal S1x512 .f32) : FVec Ideal S32 .f32 :=
  Host.divf (gsumT s) (broadcastInDim S32 ![] bcast_S_S32 cntT)

/-- The clipped variance. -/
def varT (s1 s2 : FVec Ideal S1x512 .f32) : FVec Ideal S32 .f32 :=
  maximumf (subf (meanT s2) (mulf (meanT s1) (meanT s1)))
    (broadcastInDim S32 ![] bcast_S_S32 (constant (F := Ideal) S_ .f32 0x00000000#32))

/-- The reciprocal standard deviation. -/
def invT (s1 s2 : FVec Ideal S1x512 .f32) : FVec Ideal S32 .f32 :=
  Host.rsqrt (addf (varT s1 s2) (broadcastInDim S32 ![] bcast_S_S32 (constant (F := Ideal) S_ .f32 0x3727C5AC#32)))

/-- A per-group quantity repeated over the 16 channels of each group. -/
def spread (v : FVec Ideal S32 .f32) : FVec Ideal S512 .f32 :=
  fun i => shapeCast S512 (broadcastInDim S32x16 ![0] bcast_S32_S32x16_0 v) shapeCasts_S32x16_S512 i

/-- The per-channel scale. -/
def scaleT (s1 s2 : FVec Ideal S1x512 .f32) (g : FVec Ideal S512 .f32) : FVec Ideal S512 .f32 :=
  mulf g (spread (invT s1 s2))

/-- The per-channel bias. -/
def biasT (s1 s2 : FVec Ideal S1x512 .f32) (g b : FVec Ideal S512 .f32) : FVec Ideal S512 .f32 :=
  subf b (mulf (spread (meanT s1)) (scaleT s1 s2 g))

/-- A per-channel array as one row. -/
def rowT (v : FVec Ideal S512 .f32) : FVec Ideal S1x512 .f32 :=
  fun i => shapeCast S1x512 v shapeCasts_S512_S1x512 i

end Stages

/-! ## What the second region finds -/

theorem V5_v26_eq (c : Dev nD) :
    sc5 m ρ c = rowT (scaleT (s1a m ρ c) (s2a m ρ c) (Gen.V4 m ρ c main_arg2)) := by
  dsimp only [sc5, Gen.V5, Gen.W5, Gen.hostOps1]
  after_results_simp
  rfl

theorem V5_v27_eq (c : Dev nD) :
    bi5 m ρ c = rowT (biasT (s1a m ρ c) (s2a m ρ c) (Gen.V4 m ρ c main_arg2) (Gen.V4 m ρ c main_arg3)) := by
  dsimp only [bi5, Gen.V5, Gen.W5, Gen.hostOps1]
  after_results_simp
  rfl

/-- γ is as given when the first region is left: no operation before it and no window of it writes that buffer. -/
theorem V4_arg2 (c : Dev nD) : (Gen.V4 m ρ c main_arg2 : S512.Idx → EReal) = ga m c := by
  refine (Gen.W4_of_ne m ρ c main_arg2 (by decide)).trans ?_
  dsimp only [Gen.W3, Gen.W2, Gen.W1, Gen.W0, Gen.hostOps0_2, Gen.hostOps0_1, Gen.hostOps0]
  after_results

/-- β likewise. -/
theorem V4_arg3 (c : Dev nD) : (Gen.V4 m ρ c main_arg3 : S512.Idx → EReal) = ba m c := by
  refine (Gen.W4_of_ne m ρ c main_arg3 (by decide)).trans ?_
  dsimp only [Gen.W3, Gen.W2, Gen.W1, Gen.W0, Gen.hostOps0_2, Gen.hostOps0_1, Gen.hostOps0]
  after_results

/-! ## The stages at an index -/

section StagesAt

theorem cntT_apply (i : S_.Idx) : cntT i = cnt := by
  unfold cntT
  rw [mulf_apply, constant_apply, constant_apply]
  exact ofBits_cnt_mul

theorem red32x16 : S32x16.Reduces [1] S32 := by decide

/-- A group's total: the 16 entries of row g of the 32×16 arrangement are the channels 16g, …, 16g + 15. -/
theorem gsumT_apply (s : FVec Ideal S1x512 .f32) (g : Fin 32) :
    gsumT s (ix1 g) = gsum (fun c'' => s (ix2 (0 : Fin 1) c'')) g := by
  unfold gsumT
  rw [hostReduceAdd_apply, Ideal.hostReduceAdd_single reducesTo_S32x16_S32_d1 red32x16, constant_apply,
    Ideal.ofBits_zero_f32, zero_add]
  unfold gsum
  refine Finset.sum_congr rfl fun j _ => ?_
  refine shapeCast_apply s shapeCasts_S1x512_S32x16 _ (ix2 (0 : Fin 1) (chan g j)) ?_
  rw [Shape.rowMajor_val_two, Shape.rowMajor_val_two]
  show 0 * 512 + (16 * g.val + j.val) = g.val * 16 + j.val
  omega

theorem meanT_apply (s : FVec Ideal S1x512 .f32) (g : Fin 32) :
    meanT s (ix1 g) = mean (fun c'' => s (ix2 (0 : Fin 1) c'')) g := by
  unfold meanT mean
  show Ideal.div (gsumT s (ix1 g)) (broadcastInDim S32 ![] bcast_S_S32 cntT (ix1 g)) = _
  rw [gsumT_apply, broadcastInDim_scalar_apply, cntT_apply]

theorem varT_apply (s1 s2 : FVec Ideal S1x512 .f32) (g : Fin 32) :
    varT s1 s2 (ix1 g) = var (fun c'' => s1 (ix2 (0 : Fin 1) c'')) (fun c'' => s2 (ix2 (0 : Fin 1) c'')) g := by
  unfold varT var
  rw [maximumf_apply, subf_apply, mulf_apply, broadcastInDim_scalar_apply, constant_apply, Ideal.ofBits_zero_f32,
    meanT_apply, meanT_apply]
  rfl

theorem invT_apply (s1 s2 : FVec Ideal S1x512 .f32) (g : Fin 32) :
    invT s1 s2 (ix1 g) = Cert.GN.inv (fun c'' => s1 (ix2 (0 : Fin 1) c'')) (fun c'' => s2 (ix2 (0 : Fin 1) c'')) g := by
  unfold invT Cert.GN.inv
  show Ideal.rsqrt (addf (varT s1 s2) _ (ix1 g)) = _
  rw [addf_apply, broadcastInDim_scalar_apply, constant_apply, varT_apply]
  rfl

/-- Channel c' of the repeated array is the entry of its group: position c' of 32 rows of 16 is row c' / 16. -/
theorem spread_apply (v : FVec Ideal S32 .f32) (c' : Fin 512) : spread v (ix1 c') = v (ix1 (grp c')) := by
  unfold spread
  refine (shapeCast_apply _ shapeCasts_S32x16_S512 (ix1 c') (ix2 (grp c') (⟨c'.val % 16, Nat.mod_lt _ (by omega)⟩ : Fin 16)) ?_).trans ?_
  · rw [Shape.rowMajor_val_two, Shape.rowMajor_val_one]
    show c'.val / 16 * 16 + c'.val % 16 = c'.val
    omega
  · refine broadcastInDim_apply ![0] bcast_S32_S32x16_0 v _ (ix1 (grp c')) ?_
    intro a
    match a with
    | ⟨0, _⟩ => rfl

theorem scaleT_apply (s1 s2 : FVec Ideal S1x512 .f32) (g : FVec Ideal S512 .f32) (c' : Fin 512) :
    scaleT s1 s2 g (ix1 c')
      = scale (fun c'' => s1 (ix2 (0 : Fin 1) c'')) (fun c'' => s2 (ix2 (0 : Fin 1) c'')) (fun c'' => g (ix1 c'')) c' := by
  unfold scaleT scale
  rw [mulf_apply, spread_apply, invT_apply]

theorem biasT_apply (s1 s2 : FVec Ideal S1x512 .f32) (g b : FVec Ideal S512 .f32) (c' : Fin 512) :
    biasT s1 s2 g b (ix1 c')
      = bias (fun c'' => s1 (ix2 (0 : Fin 1) c'')) (fun c'' => s2 (ix2 (0 : Fin 1) c'')) (fun c'' => g (ix1 c''))
          (fun c'' => b (ix1 c'')) c' := by
  unfold biasT bias
  rw [subf_apply, mulf_apply, spread_apply, meanT_apply, scaleT_apply]

theorem rowT_apply (v : FVec Ideal S512 .f32) (c' : Fin 512) : rowT v (ix2 (0 : Fin 1) c') = v (ix1 c') := by
  unfold rowT
  exact shapeCast_a_1a_apply v shapeCasts_S512_S1x512 0 c'

end StagesAt

/-! ## The scale and the bias the second region applies -/

theorem V5_scale (c : Dev nD) (c' : Fin 512) :
    sc5 m ρ c (ix2 (0 : Fin 1) c') = scale (S1 m ρ c) (S2 m ρ c) (γ m c) c' := by
  rw [V5_v26_eq, V4_arg2, rowT_apply, scaleT_apply]
  rfl

theorem V5_bias (c : Dev nD) (c' : Fin 512) :
    bi5 m ρ c (ix2 (0 : Fin 1) c') = bias (S1 m ρ c) (S2 m ρ c) (γ m c) (β m c) c' := by
  rw [V5_v27_eq, V4_arg2, V4_arg3, rowT_apply, biasT_apply]
  rfl

/-! ## The operands of the product are kept from the first region's entry to the second's

Each is an input array of the first region, which the pipeline never writes back, and no operation between the
regions writes it. -/

theorem V5_v0 (c : Dev nD) : Gen.V5 m ρ c main_v0 = Gen.V3 m ρ c main_v0 := by
  have e5 : Gen.V5 m ρ c main_v0 = Gen.W4 m ρ c (Proc.devRef .tc main_v0) := by
    dsimp only [Gen.V5, Gen.W5, Gen.hostOps1]
    after_results_simp
  refine e5.trans ((Gen.W4_arr m ρ c 0).trans ?_)
  exact (Pipeline.Dat.arrAt_in (Gen.dat0 (Gen.V3 m ρ) c) 0 rfl _).trans (Gen.A_eq0 (Gen.V3 m ρ) c 0)

theorem V5_v1 (c : Dev nD) : Gen.V5 m ρ c main_v1 = Gen.V3 m ρ c main_v1 := by
  have e5 : Gen.V5 m ρ c main_v1 = Gen.W4 m ρ c (Proc.devRef .tc main_v1) := by
    dsimp only [Gen.V5, Gen.W5, Gen.hostOps1]
    after_results_simp
  refine e5.trans ((Gen.W4_arr m ρ c 1).trans ?_)
  exact (Pipeline.Dat.arrAt_in (Gen.dat0 (Gen.V3 m ρ) c) 1 rfl _).trans (Gen.A_eq0 (Gen.V3 m ρ) c 1)

theorem xp5_eq (c : Dev nD) : xp5 m ρ c = xp3 m ρ c := V5_v0 m ρ c
theorem wt5_eq (c : Dev nD) : wt5 m ρ c = wt3 m ρ c := V5_v1 m ρ c

end Cert.ReferenceIdeal.RH

end
-- ==== Proof.RFinal.lean ====
import proofs.«172976_g2000506936419697_pallasbulk_901_21_alg».proof.Proof.Gen.ReferenceIdeal.Frame
import proofs.«172976_g2000506936419697_pallasbulk_901_21_alg».proof.Proof.Spec
import proofs.«172976_g2000506936419697_pallasbulk_901_21_alg».proof.Proof.SpecArr
import proofs.«172976_g2000506936419697_pallasbulk_901_21_alg».proof.Proof.Alg
import proofs.«172976_g2000506936419697_pallasbulk_901_21_alg».proof.Proof.RV
import proofs.«172976_g2000506936419697_pallasbulk_901_21_alg».proof.Proof.RHostA
import proofs.«172976_g2000506936419697_pallasbulk_901_21_alg».proof.Proof.RHostB
import Idealize.ShloMosaic.Lib.ValueIdx

/-! The reference program's result, over the extended reals, is the specified function of its four arguments.
    The appended zero rows contribute nothing to the column sums and sums of squares, so the 49-tile statistics are
    those of x·wᵀ over its 50000 rows; the per-channel scale and bias are then the specified ones, and each of the
    first 50000 rows of what the second region leaves is the specified normalized, rectified row. -/

set_option maxRecDepth 16384

noncomputable section

namespace Cert.ReferenceIdeal.RFin

open Idealize.ShloMosaic Idealize.ShloMosaic.TcCoe Idealize.SL.Sem
open Idealize.ShloMosaic.Pipeline (Dat)
open Idealize.ShloMosaic.ValueIdx
open Cert.ReferenceIdeal Cert.GN

/-! ## The arithmetic, apart from the programs

Over the extended reals: `xp` is `X` with zero rows appended, `wT` the transpose of `W`. Then the product of `xp`
and `wT` agrees with x·wᵀ on the first 50000 rows and vanishes below, so its column sums and column sums of
squares over 49 tiles of 1024 rows are those of x·wᵀ over its 50000 rows, and the normalized, rectified entry at a
row below 50000 is the specified one. -/

section Core

variable (X : Fin 50000 → Fin 512 → EReal) (W : Fin 512 → Fin 512 → EReal)
  (xp : Fin 50176 → Fin 512 → EReal) (wT : Fin 512 → Fin 512 → EReal)

/-- Entry (x, c) of the product of the padded x and the transposed w. -/
def yp (x : Fin 50176) (c : Fin 512) : EReal := ∑ k : Fin 512, xp x k * wT k c

/-- On a given row it is the entry of x·wᵀ. -/
theorem yp_lo (hxp : ∀ (x : Fin 50176) (k : Fin 512), xp x k = if h : x.val < 50000 then X ⟨x.val, h⟩ k else 0)
    (hwT : ∀ k c : Fin 512, wT k c = W c k) (x : Fin 50176) (h : x.val < 50000) (c : Fin 512) :
    yp xp wT x c = ymat X W ⟨x.val, h⟩ c := by
  unfold yp ymat
  refine Finset.sum_congr rfl fun k _ => ?_
  rw [hxp x k, dif_pos h, hwT k c]

/-- On an appended row it is zero: a row of zeros times anything sums to zero. -/
theorem yp_hi (hxp : ∀ (x : Fin 50176) (k : Fin 512), xp x k = if h : x.val < 50000 then X ⟨x.val, h⟩ k else 0)
    (x : Fin 50176) (h : 50000 ≤ x.val) (c : Fin 512) : yp xp wT x c = 0 := by
  unfold yp
  refine Finset.sum_eq_zero fun k _ => ?_
  rw [hxp x k, dif_neg (Nat.not_lt.mpr h), zero_mul]

/-- The column sums over the 49 tiles are the column sums of x·wᵀ. -/
theorem colsum_tiles (hxp : ∀ (x : Fin 50176) (k : Fin 512), xp x k = if h : x.val < 50000 then X ⟨x.val, h⟩ k else 0)
    (hwT : ∀ k c : Fin 512, wT k c = W c k) (c : Fin 512) :
    ∑ t : Fin 49, ∑ r : Fin 1024, yp xp wT (row49 t r) c = colsum (ymat X W) c :=
  sum_tiles49 (fun r => ymat X W r c) (fun x => yp xp wT x c)
    (fun x h => yp_lo X W xp wT hxp hwT x h c) (fun x h => yp_hi X xp wT hxp x h c)

/-- The column sums of squares over the 49 tiles are those of x·wᵀ (0 · 0 = 0 on the appended rows). -/
theorem colsq_tiles (hxp : ∀ (x : Fin 50176) (k : Fin 512), xp x k = if h : x.val < 50000 then X ⟨x.val, h⟩ k else 0)
    (hwT : ∀ k c : Fin 512, wT k c = W c k) (c : Fin 512) :
    ∑ t : Fin 49, ∑ r : Fin 1024, yp xp wT (row49 t r) c * yp xp wT (row49 t r) c = colsq (ymat X W) c :=
  sum_tiles49 (fun r => ymat X W r c * ymat X W r c) (fun x => yp xp wT x c * yp xp wT x c)
    (fun x h => by rw [yp_lo X W xp wT hxp hwT x h c])
    (fun x h => by rw [yp_hi X xp wT hxp x h c, mul_zero])

/-- The normalized, rectified entry at a given row, from statistics that are the 49-tile sums, is the specified one. -/
theorem core (hxp : ∀ (x : Fin 50176) (k : Fin 512), xp x k = if h : x.val < 50000 then X ⟨x.val, h⟩ k else 0)
    (hwT : ∀ k c : Fin 512, wT k c = W c k) (γ β S1 S2 : Fin 512 → EReal)
    (hS1 : ∀ c, S1 c = ∑ t : Fin 49, ∑ r : Fin 1024, yp xp wT (row49 t r) c)
    (hS2 : ∀ c, S2 c = ∑ t : Fin 49, ∑ r : Fin 1024, yp xp wT (row49 t r) c * yp xp wT (row49 t r) c)
    (r : Fin 50000) (c' : Fin 512) (y sc bi : EReal)
    (hy : y = yp xp wT ⟨r.val, Nat.lt_of_lt_of_le r.isLt (by decide)⟩ c')
    (hsc : sc = scale S1 S2 γ c') (hbi : bi = bias S1 S2 γ β c') :
    leaky (y * sc + bi) = out X W γ β r c' := by
  have e1 : S1 = colsum (ymat X W) := funext fun c => (hS1 c).trans (colsum_tiles X W xp wT hxp hwT c)
  have e2 : S2 = colsq (ymat X W) := funext fun c => (hS2 c).trans (colsq_tiles X W xp wT hxp hwT c)
  rw [hy, hsc, hbi, e1, e2, yp_lo X W xp wT hxp hwT ⟨r.val, Nat.lt_of_lt_of_le r.isLt (by decide)⟩ r.isLt c']
  rfl

end Core

/-! ## The program's arrays as functions of coordinates -/

section Glue

variable (m : (ℓ : Loc nD τ sig) → Buf (Elt Ideal) ℓ) (ρ : Dev nD → PrngReg)

/-- The four arguments by coordinates. -/
abbrev Xa (c : Dev nD) : Fin 50000 → Fin 512 → EReal := fun r k => (m ((c : Thread nD τ).loc main_arg0) : S50000x512.Idx → EReal) (ix2 r k)
abbrev Wa (c : Dev nD) : Fin 512 → Fin 512 → EReal := fun c' k => (m ((c : Thread nD τ).loc main_arg1) : S512x512.Idx → EReal) (ix2 c' k)
abbrev ga (c : Dev nD) : Fin 512 → EReal := fun c' => (m ((c : Thread nD τ).loc main_arg2) : S512.Idx → EReal) (ix1 c')
abbrev ba (c : Dev nD) : Fin 512 → EReal := fun c' => (m ((c : Thread nD τ).loc main_arg3) : S512.Idx → EReal) (ix1 c')
/-- The padded x and the transposed w as the first region finds them, by coordinates. -/
abbrev xp3 (c : Dev nD) : Fin 50176 → Fin 512 → EReal := fun x k => (Gen.V3 m ρ c main_v0 : S50176x512.Idx → EReal) (ix2 x k)
abbrev wT3 (c : Dev nD) : Fin 512 → Fin 512 → EReal := fun k c' => (Gen.V3 m ρ c main_v1 : S512x512.Idx → EReal) (ix2 k c')
/-- The two rows of statistics the first region leaves, by channel. -/
abbrev S1a (c : Dev nD) : Fin 512 → EReal := fun c' => (Gen.V4 m ρ c main_v2_0 : S1x512.Idx → EReal) (ix2 (0 : Fin 1) c')
abbrev S2a (c : Dev nD) : Fin 512 → EReal := fun c' => (Gen.V4 m ρ c main_v2_1 : S1x512.Idx → EReal) (ix2 (0 : Fin 1) c')

/-- The result from the facts about the host operations between the two regions. -/
theorem ref_result_of (c : Dev nD)
    (hv0 : Gen.V5 m ρ c main_v0 = Gen.V3 m ρ c main_v0)
    (hv1 : Gen.V5 m ρ c main_v1 = Gen.V3 m ρ c main_v1)
    (hscale : ∀ c' : Fin 512, (Gen.V5 m ρ c main_v26 : S1x512.Idx → EReal) (ix2 (0 : Fin 1) c') = scale (S1a m ρ c) (S2a m ρ c) (ga m c) c')
    (hbias : ∀ c' : Fin 512, (Gen.V5 m ρ c main_v27 : S1x512.Idx → EReal) (ix2 (0 : Fin 1) c') = bias (S1a m ρ c) (S2a m ρ c) (ga m c) (ba m c) c') :
    @Eq (S50000x512.Idx → EReal) (Gen.W7 m ρ c (Proc.devRef .tc main_v29))
      (Cert.GN.outArr (m ((c : Thread nD τ).loc main_arg0)) (m ((c : Thread nD τ).loc main_arg1)) (m ((c : Thread nD τ).loc main_arg2)) (m ((c : Thread nD τ).loc main_arg3))) := by
  funext j
  obtain ⟨r, c', rfl⟩ : ∃ (r : Fin 50000) (c' : Fin 512), j = ix2 r c' := ⟨j 0, j 1, ValueIdx.eq_ix2 j⟩
  have hS1 : ∀ c'' : Fin 512, S1a m ρ c c'' = ∑ t : Fin 49, ∑ r : Fin 1024, yp (xp3 m ρ c) (wT3 m ρ c) (row49 t r) c'' := fun c'' =>
    (show S1a m ρ c c'' = (Gen.dat0 (Gen.V3 m ρ) c).arrAt 2 cfg0.N (ix2 (0 : Fin 1) c'') by rw [Gen.hF0 m ρ c 2]).trans (RV.arr0_2 (Gen.V3 m ρ) c c'')
  have hS2 : ∀ c'' : Fin 512, S2a m ρ c c'' = ∑ t : Fin 49, ∑ r : Fin 1024, yp (xp3 m ρ c) (wT3 m ρ c) (row49 t r) c'' * yp (xp3 m ρ c) (wT3 m ρ c) (row49 t r) c'' := fun c'' =>
    (show S2a m ρ c c'' = (Gen.dat0 (Gen.V3 m ρ) c).arrAt 3 cfg0.N (ix2 (0 : Fin 1) c'') by rw [Gen.hF0 m ρ c 3]).trans (RV.arr0_3 (Gen.V3 m ρ) c c'')
  have hy : RV.ypad (Gen.V5 m ρ) c (⟨r.val, Nat.lt_of_lt_of_le r.isLt (by decide)⟩ : Fin 50176) c'
      = yp (xp3 m ρ c) (wT3 m ρ c) ⟨r.val, Nat.lt_of_lt_of_le r.isLt (by decide)⟩ c' := by
    unfold RV.ypad yp
    refine Finset.sum_congr rfl fun k _ => ?_
    exact congrArg₂ (· * ·) (congrFun hv0 (ix2 _ k)) (congrFun hv1 (ix2 k c'))
  refine (RH.W7_out m ρ c r c').trans ?_
  refine (show (Gen.V6 m ρ c main_v28 : S50176x512.Idx → EReal) (ix2 (⟨r.val, Nat.lt_of_lt_of_le r.isLt (by decide)⟩ : Fin 50176) c')
      = (Gen.dat1 (Gen.V5 m ρ) c).arrAt 4 cfg1.N (ix2 (⟨r.val, Nat.lt_of_lt_of_le r.isLt (by decide)⟩ : Fin 50176) c') by rw [Gen.hF1 m ρ c 4]).trans ?_
  refine (RV.arr1_4 (Gen.V5 m ρ) c ⟨r.val, Nat.lt_of_lt_of_le r.isLt (by decide)⟩ c').trans ?_
  refine (core (Xa m c) (Wa m c) (xp3 m ρ c) (wT3 m ρ c) (fun x k => RH.V3_pad m ρ c x k) (fun k c'' => RH.V3_wt m ρ c k c'')
    (ga m c) (ba m c) (S1a m ρ c) (S2a m ρ c) hS1 hS2 r c' _ _ _ hy (hscale c') (hbias c')).trans ?_
  exact (outArr_apply _ _ _ _ r c').symm

end Glue

section Result

variable (m : (ℓ : Loc nD τ sig) → Buf (Elt Ideal) ℓ) (ρ : Dev nD → PrngReg)

/-- The reference's result array is the specified function of the four argument arrays. -/
theorem ref_result (c : Dev nD) :
    @Eq (S50000x512.Idx → EReal) (Gen.W7 m ρ c (Proc.devRef .tc main_v29))
      (Cert.GN.outArr (m ((c : Thread nD τ).loc main_arg0)) (m ((c : Thread nD τ).loc main_arg1)) (m ((c : Thread nD τ).loc main_arg2)) (m ((c : Thread nD τ).loc main_arg3))) :=
  ref_result_of m ρ c (RH.V5_v0 m ρ c) (RH.V5_v1 m ρ c) (fun c' => RH.V5_scale m ρ c c') (fun c' => RH.V5_bias m ρ c c')

end Result

end Cert.ReferenceIdeal.RFin

end
-- ==== Proof.lean ====
/-
  The certificate: the kernel's program (a matrix product with per-core column statistics, then a pass that folds
  the statistics into a per-channel scale and bias and applies them with a leaky rectifier) against the reference
  (statistics over 49 tiles of zero-padded rows, the fold on the host, then a pass that recomputes the product).

  The three frames: the kernel's two instances by the run of its three segments (the second region's invariant
  carries the scale and bias rows between grid points); the reference's is generated. No operation was rewritten
  for the idealized reading, so there is nothing to preserve. For the algebraic claim both result arrays are shown
  to be one function of the four argument arrays, entry by entry: y = x·wᵀ; the column sums and sums of squares of y
  over all rows, however the rows are tiled and whether or not zero rows are appended; group totals, by a product
  with a 0/1 matrix or by a reshape and a row sum; mean, clipped variance and reciprocal square root with the same
  divisor 800000 = 50000 · 16 and the same ε; scale and bias; max(z, slope·z). Only regrouping of finite sums and
  x·0 = 0, x·1 = x on the extended reals are used; the inputs' finiteness is not.
-/
import proofs.«172976_g2000506936419697_pallasbulk_901_21_alg».proof.Defs
import proofs.«172976_g2000506936419697_pallasbulk_901_21_alg».proof.Proof.Gen.Kernel
import proofs.«172976_g2000506936419697_pallasbulk_901_21_alg».proof.Proof.Gen.Kernel.Skeleton
import proofs.«172976_g2000506936419697_pallasbulk_901_21_alg».proof.Proof.Gen.Kernel.Launch
import proofs.«172976_g2000506936419697_pallasbulk_901_21_alg».proof.Proof.Gen.Kernel.Regions
import proofs.«172976_g2000506936419697_pallasbulk_901_21_alg».proof.Proof.Gen.Kernel.Points
import proofs.«172976_g2000506936419697_pallasbulk_901_21_alg».proof.Proof.Gen.KernelIdeal
import proofs.«172976_g2000506936419697_pallasbulk_901_21_alg».proof.Proof.Gen.KernelIdeal.Skeleton
import proofs.«172976_g2000506936419697_pallasbulk_901_21_alg».proof.Proof.Gen.KernelIdeal.Launch
import proofs.«172976_g2000506936419697_pallasbulk_901_21_alg».proof.Proof.Gen.KernelIdeal.Regions
import proofs.«172976_g2000506936419697_pallasbulk_901_21_alg».proof.Proof.Gen.KernelIdeal.Points
import proofs.«172976_g2000506936419697_pallasbulk_901_21_alg».proof.Proof.Gen.ReferenceIdeal
import proofs.«172976_g2000506936419697_pallasbulk_901_21_alg».proof.Proof.Gen.ReferenceIdeal.Skeleton
import proofs.«172976_g2000506936419697_pallasbulk_901_21_alg».proof.Proof.Gen.ReferenceIdeal.Launch
import proofs.«172976_g2000506936419697_pallasbulk_901_21_alg».proof.Proof.Gen.ReferenceIdeal.Points
import proofs.«172976_g2000506936419697_pallasbulk_901_21_alg».proof.Proof.Gen.ReferenceIdeal.Frame
import proofs.«172976_g2000506936419697_pallasbulk_901_21_alg».proof.Proof.Gen.Pre_finite_inputs
import proofs.«172976_g2000506936419697_pallasbulk_901_21_alg».proof.Proof.K.Run
import proofs.«172976_g2000506936419697_pallasbulk_901_21_alg».proof.Proof.KI.Run
import proofs.«172976_g2000506936419697_pallasbulk_901_21_alg».proof.Proof.KFinal
import proofs.«172976_g2000506936419697_pallasbulk_901_21_alg».proof.Proof.RRun
import proofs.«172976_g2000506936419697_pallasbulk_901_21_alg».proof.Proof.RFinal
import Idealize.ShloMosaic.Adequacy
import Idealize.ShloMosaic.Init

noncomputable section

namespace Cert.Proof

open Idealize.ShloMosaic Idealize.SL.Sem

/-- The word-level kernel program runs and leaves its arguments as launched. -/
theorem frame_k [Cert.Kernel.Facts] [Cert.Pre_finite_inputs.Facts] : Cert.frame_Kernel :=
  fun m ρ _ => Cert.Kernel.KF.frame m ρ

/-- The idealized kernel program runs and leaves its arguments as launched. -/
theorem frame_ki [Cert.KernelIdeal.Facts] [Cert.Pre_finite_inputs.Facts] : Cert.frame_KernelIdeal :=
  fun m ρ _ => Cert.KernelIdeal.KF.frame m ρ

/-- The idealized reference runs and leaves its arguments as launched. -/
theorem frame_ri [Cert.ReferenceIdeal.Facts] [Cert.Pre_finite_inputs.Facts] : Cert.frame_ReferenceIdeal :=
  fun m ρ _ => Cert.ReferenceIdeal.Gen.frame m ρ

/-- Both idealized programs end with the result array at one function of the argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.GN.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KFin.kernel_result m ρ c), (h c).2⟩)
      (Cert.KernelIdeal.KF.run (F := Ideal) m ρ)
  · refine (θ_run Cert.ReferenceIdeal.defs _ _).mono (fun r h c => ⟨?_, (h c).2⟩)
      (Cert.ReferenceIdeal.RR.run (F := Ideal) m' ρ')
    rw [(h c).1, Cert.ReferenceIdeal.RFin.ref_result m' ρ' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
